-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  main_v18

def fn {F : FTy → Type} [FloatOps F] (main_arg0 : FVec F S8192x1024 .f32) (main_arg1 : FVec F S256x1024 .f32) (main_arg2 : FVec F S256x1024 .f32) (main_arg3 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_v13 main_v16
-- ==== Kernel.lean ====
abbrev S8192x1024 : Shape := ⟨2, ![8192, 1024]⟩
abbrev S256x1024 : Shape := ⟨2, ![256, 1024]⟩
abbrev S1024x256 : Shape := ⟨2, ![1024, 256]⟩
abbrev S_ : Shape := ⟨0, ![]⟩
abbrev S8192x256 : Shape := ⟨2, ![8192, 256]⟩
abbrev S256x256 : Shape := ⟨2, ![256, 256]⟩
abbrev S512x256 : Shape := ⟨2, ![512, 256]⟩
abbrev S1024x1 : Shape := ⟨2, ![1024, 1]⟩
abbrev S1024x512 : Shape := ⟨2, ![1024, 512]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S1024x256, .f32⟩
  | .hbm, ⟨5, _⟩ => ⟨S_, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .bf16⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x256, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .bf16⟩
  | .local _ .vmem, ⟨10, _⟩ => ⟨S256x256, .bf16⟩
  | .local _ .vmem, ⟨11, _⟩ => ⟨S1024x256, .f32⟩
  | .local _ .vmem, ⟨12, _⟩ => ⟨S1024x256, .f32⟩
  | .local _ .vmem, ⟨13, _⟩ => ⟨S512x256, .f32⟩
  | .local _ .vmem, ⟨14, _⟩ => ⟨S512x256, .f32⟩
  | .local _ .vmem, ⟨15, _⟩ => ⟨S512x256, .bf16⟩
  | .local _ .vmem, ⟨16, _⟩ => ⟨S512x256, .bf16⟩
  | .local _ .vmem, ⟨17, _⟩ => ⟨S1024x256, .f32⟩
  | .local _ .vmem, ⟨18, _⟩ => ⟨S1024x256, .f32⟩
  | .local _ .vmem, ⟨19, _⟩ => ⟨S1024x1, .f32⟩
  | .local _ .vmem, ⟨20, _⟩ => ⟨S1024x1, .f32⟩
  | .local _ .vmem, ⟨21, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S256x1024_S1024x256_1_0 : S256x1024.Transposes [1, 0] S1024x256
  bcast_S_S1024x256 : S_.BroadcastsInDim S1024x256 (![] : Fin 0 → Fin S1024x256.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x256 : S1024x1.Broadcasts S1024x256
  dot_S256x1024_S1024x256_S256x256_1_0_0_1_n_n_wf : DotDims.WF S256x1024 S1024x256 S256x256 [1] [0] [0] [1] [] []
  dot_S1024x256_S512x256_S1024x512_1_1_0_0_n_n_wf : DotDims.WF S1024x256 S512x256 S1024x512 [1] [1] [0] [0] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x256.size a
  hwx0_4 : ∀ i : grid0.Coords, EltTy.bits .f32 = 32 ∨ (Rect.block (s := S8192x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x256.size a
  hwx0_5 : ∀ i : grid0.Coords, EltTy.bits .f32 = 32 ∨ (Rect.block (s := S8192x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S8192x256.size a
  hwx0_6 : ∀ i : grid0.Coords, EltTy.bits .bf16 = 32 ∨ (Rect.block (s := S8192x256) S256x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .bf16 = 32 ∨ (Rect.block (s := S8192x256) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S256x1024 : Shape := ⟨2, ![256, 1024]⟩
abbrev S1024x256 : Shape := ⟨2, ![1024, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S1024x256, .f32⟩
  | .hbm, ⟨5, _⟩ => ⟨S8192x256, .f32⟩
  | .hbm, ⟨6, _⟩ => ⟨S1024x256, .f32⟩
  | .hbm, ⟨7, _⟩ => ⟨S8192x256, .f32⟩
  | .hbm, ⟨8, _⟩ => ⟨S1024x256, .f32⟩
  | .hbm, ⟨9, _⟩ => ⟨S8192x256, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S256x1024_S1024x256_1_0 : S256x1024.Transposes [1, 0] S1024x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x256_S8192x256_1_0_0_1_n_n_wf : DotDims.WF S8192x1024 S1024x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KB.Region0.lean ====
/- The QKV projection kernel's half of the frame argument, at the buffer contents the region is entered with.

   The kernel runs over 32 row blocks. At each block it reads four staged inputs whole — a 256×1024 block of the
   activations and three 1024×256 weight matrices whose block never moves — and writes three 256×256 outputs, each
   by ONE store through the rectangle that is the whole staging buffer. So what the body leaves in an output buffer
   is a closed function of the input blocks at the point: the store's payload laid over the buffer, which the single
   whole-buffer piece covers. What it finds in an input buffer is that window's block at the point, whether or not
   the block was transferred there: where it was not, the block index has not moved since the previous point, and the
   body leaves its inputs as it found them.

   Stated here, generically in the float instance: each window's block at a point; each output's contents after the
   body as the canonical contents of its one covering piece; the body's triple over whole staging memrefs; the proof
   data (arrays at the entry contents, inputs left at their blocks, outputs at the canonical contents, nothing owed,
   full shares); and the body obligation at every point. -/
import proofs.«151722_j14164802142301_2_alg».proof.Proof.Gen.Kernel.Launch
import proofs.«151722_j14164802142301_2_alg».proof.Proof.Gen.Kernel.Skeleton
import proofs.«151722_j14164802142301_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter everything below is stated at
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, transferred there or not, for any proof
    data whose array is the entry contents and whose body leaves the block in place: where no transfer happened the
    block index has not moved. Window 0 (the activations' row block, a new block at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the scaled query weights: one block, the same at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the key weights: one block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Window 3 (the value weights: one block). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_x : Rect S256x1024 := Rect.unit (s := S256x1024) ![0, 0] S256x1024.size inb_S256x1024_S256x1024_0_0
abbrev r0_w : Rect S1024x256 := Rect.unit (s := S1024x256) ![0, 0] S1024x256.size inb_S1024x256_S1024x256_0_0
abbrev r0_o : Rect S256x256 := Rect.unit (s := S256x256) ![0, 0] S256x256.size inb_S256x256_S256x256_0_0

/-! ## What the body leaves in each output window's buffer -/

/-- The query block's buffer after the body: its one store, the product of the activations' block and the scaled
    query weights, as a single piece over the whole buffer. -/
def out0_4 (x0 : Vec F S256x1024 .f32) (x1 : Vec F S1024x256 .f32) : Vec F S256x256 .f32 :=
  View.canon [⟨r0_o, k0_pay1 (View.ld x0 r0_x) (View.ld x1 r0_w)⟩]
/-- The key block's buffer after the body: the product with the key weights. -/
def out0_5 (x0 : Vec F S256x1024 .f32) (x2 : Vec F S1024x256 .f32) : Vec F S256x256 .f32 :=
  View.canon [⟨r0_o, k0_pay2 (View.ld x0 r0_x) (View.ld x2 r0_w)⟩]
/-- The value block's buffer after the body: the product with the value weights, in the narrow format. -/
def out0_6 (x0 : Vec F S256x1024 .f32) (x3 : Vec F S1024x256 .bf16) : Vec F S256x256 .bf16 :=
  View.canon [⟨r0_o, k0_pay3 (View.ld x0 r0_x) (View.ld x3 r0_w)⟩]

/-- The one store tiles the buffer, so it covers it. -/
theorem cover0_4 (p0 : Vec F S256x256 .f32) (y : S256x256.Idx) :
    ∃ pc ∈ ([⟨r0_o, p0⟩] : List (View.Piece (Elt F) S256x256 .f32)), y ∈ pc.1.set :=
  View.cover_of_tiled [⟨r0_o, p0⟩] S256x256.size (by rfl) y
/-- The same for the key block's buffer. -/
theorem cover0_5 (p0 : Vec F S256x256 .f32) (y : S256x256.Idx) :
    ∃ pc ∈ ([⟨r0_o, p0⟩] : List (View.Piece (Elt F) S256x256 .f32)), y ∈ pc.1.set :=
  View.cover_of_tiled [⟨r0_o, p0⟩] S256x256.size (by rfl) y
/-- The same for the value block's buffer. -/
theorem cover0_6 (p0 : Vec F S256x256 .bf16) (y : S256x256.Idx) :
    ∃ pc ∈ ([⟨r0_o, p0⟩] : List (View.Piece (Elt F) S256x256 .bf16)), y ∈ pc.1.set :=
  View.cover_of_tiled [⟨r0_o, p0⟩] S256x256.size (by rfl) y

/-! ## The body's triple -/

set_option maxHeartbeats 1000000 in
/-- The kernel body on whole staging memrefs, the inputs' at read contents and the outputs' at anything, runs to the
    continuation holding the inputs' as they were and each output's at the canonical contents of its one store over
    the inputs: each output buffer is read once before it is written (a read whose value nothing uses), and the
    store that follows covers the buffer, so what it held does not matter. -/
theorem sound_kernel0 (c : Dev nD) (E : Set ℕ) (i : grid0.Coords)
    (arg1 : Memref sig .tc .vmem S256x1024 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .bf16) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .bf16) (harg7 : arg7.IsWhole)
    (x0 : Vec F S256x1024 .f32) (x1 : Vec F S1024x256 .f32) (x2 : Vec F S1024x256 .f32) (x3 : Vec F S1024x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the projection pipeline on core `c`: the arrays at the entry contents; after the body at point
    `t` each input's buffer at its block and each output's at the canonical contents of its store over the input
    blocks; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, transferred there or not. -/
theorem before0_0 (c : Dev nD) (t : Fin cfg0.N) (d) : (dat0 V c).before 0 t d = iblk0 V c 0 t :=
  before0_0_of V (dat0 V c) (A_eq0 V c 0) (after0_0 V c) t d
/-- The same for the query weights' window. -/
theorem before0_1 (c : Dev nD) (t : Fin cfg0.N) (d) : (dat0 V c).before 1 t d = iblk0 V c 1 t :=
  before0_1_of V (dat0 V c) (A_eq0 V c 1) (after0_1 V c) t d
/-- The same for the key weights' window. -/
theorem before0_2 (c : Dev nD) (t : Fin cfg0.N) (d) : (dat0 V c).before 2 t d = iblk0 V c 2 t :=
  before0_2_of V (dat0 V c) (A_eq0 V c 2) (after0_2 V c) t d
/-- The same for the value weights' window. -/
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what is owed, and each window's current staging buffer
    at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.R0

end
-- ==== Proof.KB.R1Shared.lean ====
/-
  The flash-attention region (the second kernel of the program), what its per-case runs and its proof data share.
  The region's grid is 8 × 16: point t has query tile t / 16 and key tile t % 16.  The body branches twice on the key
  tile: at key tile 0 it resets the three carried scratch arrays (the running row maximum, the running row sum and the
  running weighted accumulator), and at key tile 15 it writes the normalised accumulator to the output block.  The
  output window is idle (neither stored nor written back) at every other point.
-/
import proofs.«151722_j14164802142301_2_alg».proof.Proof.Gen.Kernel.Launch
import proofs.«151722_j14164802142301_2_alg».proof.Proof.Gen.Kernel.Skeleton
import proofs.«151722_j14164802142301_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grid -/

/-- The first branch (reset the carried scratch) is taken exactly where the key-tile coordinate is 0. -/
abbrev cond1_0 (i : grid1.Coords) : Prop := (Scalar.cmpi .ne (Scalar.extui (Scalar.cmpi .eq (BitVec.ofNat 32 (i 1).val) 0#32)) 0#32) = 1#1
/-- The first branch (reset the carried scratch) is taken exactly at the points whose key tile is 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch (write the output block) is taken exactly where the key-tile coordinate is 15. -/
abbrev cond1_1 (i : grid1.Coords) : Prop := k1_cond2 i = 1#1
/-- The second branch (write the output block) is taken exactly at the points whose key tile is 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The staging and scratch memrefs -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The three carried scratch arrays: the running row maximum, the running row sum, the running accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view
/-- One staging buffer of the output window, through which its contents are stated. -/
abbrev VO1_3 : View sig .tc .vmem S1024x256 .f32 := (Memref.whole cc1_stg3_0 : Memref sig .tc .vmem S1024x256 .f32).view

/-! ## The scoped rest: the three scratch arrays, and every other scoped buffer unopened -/

/-- The region's scoped rest splits into its three scratch arrays, each at some contents, and every other scoped buffer. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- Every scoped buffer other than this region's staging buffers and its three scratch arrays, at some contents. -/
abbrev Others (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the scratch arrays as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ Others (F := F) c) ∗ (∃ r, prngReg c r)) := by
  unfold Pipeline.ΦA; rw [scopedRest1_split]; simp only [scM1_0, scM1_1, scM1_2, owns_whole]; try rfl

end Cert.Kernel.R1

end
-- ==== Proof.KB.R1RunB.lean ====
/-
  The body of the flash-attention region at a middle key tile (neither branch taken): the three scratch arrays come
  in at what the point before left, the query, key and value blocks are read, the scratch arrays are overwritten by
  the online-softmax update, and the output block is not touched.
-/
import proofs.«151722_j14164802142301_2_alg».proof.Proof.KB.R1Shared
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B (middle key tile): each scratch array ends at one covering store of the online-softmax update of what it held; the output block is left as found. -/
noncomputable def kernelRun1_B (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.R1

end
-- ==== Proof.KB.R1RunA.lean ====
/-
  The body of the flash-attention region at key tile 0 (the reset branch taken, the output branch not): whatever the
  scratch arrays held is overwritten by the reset values and then by the first online-softmax update; the output
  block is not touched.
-/
import proofs.«151722_j14164802142301_2_alg».proof.Proof.KB.R1RunB
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A (key tile 0). -/
noncomputable def kernelRun1_A (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.R1

end
-- ==== Proof.KB.R1RunC.lean ====
/-
  The body of the flash-attention region at key tile 15 (the reset branch not taken, the output branch taken): the
  scratch arrays come in at what the point before left and are updated once more, and the output block is stored: the
  accumulator times the reciprocal of the row sum.
-/
import proofs.«151722_j14164802142301_2_alg».proof.Proof.KB.R1RunA
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C (key tile 15). -/
noncomputable def kernelRun1_C (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.R1

end
-- ==== Proof.KB.R1Data.lean ====
/-
  The proof data of the flash-attention region: what each control case leaves in the output block and in the three
  carried scratch arrays, the accumulation of these over the grid's points in order, the region invariant (before
  the first point the scratch holds anything; after a point it holds that point's running maximum, running sum and
  running accumulator), and the body's obligation at every point.
-/
import proofs.«151722_j14164802142301_2_alg».proof.Proof.KB.R1RunC
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- What case A leaves in the output block's staging buffer: its stores read back: there are none, and the window is idle at these points, so this value is never read. -/
def out1_A_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's stores into the running row maximum cover it. -/
theorem scover1_A_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What case A leaves in the running row maximum: its stores read back. -/
def sout1_A_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into the running row sum cover it. -/
theorem scover1_A_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y

/-- What case A leaves in the running row sum: its stores read back. -/
def sout1_A_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into the running accumulator cover it. -/
theorem scover1_A_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  (y : S1024x256.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x256.size (by sl_kernel_rfl) y

/-- What case A leaves in the running accumulator: its stores read back. -/
def sout1_A_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output block's staging buffer: its stores read back: there are none, and the window is idle at these points, so this value is never read. -/
def out1_B_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's stores into the running row maximum cover it. -/
theorem scover1_B_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What case B leaves in the running row maximum: its stores read back. -/
def sout1_B_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into the running row sum cover it. -/
theorem scover1_B_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y

/-- What case B leaves in the running row sum: its stores read back. -/
def sout1_B_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into the running accumulator cover it. -/
theorem scover1_B_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x256.size (by sl_kernel_rfl) y

/-- What case B leaves in the running accumulator: its stores read back. -/
def sout1_B_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's stores into the output block's staging buffer cover it. -/
theorem cover1_C_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x256.size (by sl_kernel_rfl) y

/-- What case C leaves in the output block's staging buffer: its stores read back. -/
def out1_C_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's stores into the running row maximum cover it. -/
theorem scover1_C_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What case C leaves in the running row maximum: its stores read back. -/
def sout1_C_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into the running row sum cover it. -/
theorem scover1_C_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What case C leaves in the running row sum: its stores read back. -/
def sout1_C_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into the running accumulator cover it. -/
theorem scover1_C_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x256.size (by sl_kernel_rfl) y

/-- What case C leaves in the running accumulator: its stores read back. -/
def sout1_C_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output block and the scratch arrays hold after each point -/

/-- THE ACCUMULATION over the grid's points in order: after the body at position `n`, the output block's staging
    buffer and the three scratch arrays (row maximum, row sum, accumulator).  At a first key tile the case that resets
    the scratch; otherwise the case the key tile selects, run over what the point before left in the scratch. -/
def outsAt1 (c : Dev nD) : (n : ℕ) → n < cfg1.N → Vec F S1024x256 .f32 × Vec F S1024x1 .f32 × Vec F S1024x1 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a first key tile: the resetting case. -/
theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle key tile: the update over what the point before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the last key tile: the update over what the point before left, and the output block. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (every scratch array at anything); afterwards the
    three scratch arrays at what the point before left, every other scoped buffer at anything, and the generator
    register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ Others (F := F) c) ∗ (∃ r, prngReg c r))

/-- Before the first point the invariant is the class invariant. -/
theorem PhiS_zero (c : Dev nD) (n : ℕ) (h : n ≤ cfg1.N) (hz : n = 0) : PhiS V c n h = Pipeline.ΦA spec1 c := by
  subst hz; rfl

/-- After point `n` the invariant holds the scratch arrays at what point `n` left. -/
theorem PhiS_succ (c : Dev nD) (n : ℕ) (hn : n < cfg1.N) :
    PhiS V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ Others (F := F) c) ∗ (∃ r, prngReg c r)) := rfl

/-- At any position but the first the invariant holds the three scratch arrays at what the point before left. -/
theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ Others (F := F) c) ∗ (∃ r, prngReg c r)) := by
  cases n with
  | zero => exact absurd rfl hz
  | succ n => rfl

/-! ## The proof data -/

/-- The region's proof data on core `c`: the arrays as the region finds them; after the body at point `t` each
    input's buffer at its block and the output's at the accumulation's first component; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The proof data's invariant before point `t` is the region invariant at position `t`. -/
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, transferred there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the key tile says which case the point is in; the
    invariant hands the body the scratch arrays at what the point before left (at anything before the first point)
    and takes them back at this point's values; the output block is handed back untouched except at the last key
    tile, where it is stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      ·
        rw [PhiS_castSucc V c t, PhiS_zero V c _ _ hz, PhiA1_eq]
        iintro ⟨⟨⟨⟨HS0, HS1, HS2⟩, HO⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_A_0 c _ _ _ _ _ _ _ _ _ _ _ _ _ _ _ _ _ _ _ _)
              isplitl [HS1]
              ·
                unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1, HS2⟩, HO⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_A_0 c _ _ _ _ _ _ _ _ _ _ _ _ _ _ _ _ _ _ _ _)
              isplitl [HS1]
              ·
                unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      ·
        rw [PhiS_castSucc V c t, PhiS_pos V c _ _ hz]
        iintro ⟨⟨⟨⟨HS0, HS1, HS2⟩, HO⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              ·
                unfold owns; iexists _; isplitr
                swap; · iexact HS1
                ipureintro; exact View.read_writes_of_cover _ _ _ _ _ (scover1_C_1 c _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      ·
        rw [PhiS_castSucc V c t, PhiS_pos V c _ _ hz]
        iintro ⟨⟨⟨⟨HS0, HS1, HS2⟩, HO⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              ·
                unfold owns; iexists _; isplitr
                swap; · iexact HS1
                ipureintro; exact View.read_writes_of_cover _ _ _ _ _ (scover1_B_1 c _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch's values are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, HO⟩, Hg⟩
  isplitl [HS0 HS1 HS2 HO]
  · isplitl [HS0 HS1 HS2]
    · isplitl [HS0]; · iexists _; iexact HS0
      isplitl [HS1]; · iexists _; iexact HS1
      iexists _; iexact HS2
    iexact HO
  iexact Hg

/-- After the last point the invariant gives the class invariant back. -/
theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.R1

end
-- ==== Proof.KB.Run.lean ====
/-
  The whole program's run: @main is a stretch of host operations (the transposes, the scaling of the query weights by
  16, the cast of the value weights), then the projection region, then the flash-attention region.  The contents of
  every unscoped buffer are followed through the three items: after the host stretch, after region 0 (its three
  output arrays at what its write-backs leave), after region 1 (the result array at what its write-backs leave).  Every
  weakly fair execution terminates with every unscoped buffer at the last of these.
-/
import proofs.«151722_j14164802142301_2_alg».proof.Proof.KB.Region0
import proofs.«151722_j14164802142301_2_alg».proof.Proof.KB.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
/-- After the host stretch (region 0's entry). -/
abbrev E1 : Dev nD → Valuation τ sig (Elt F) := fun c => StableHlo.after hostOps0 (E0 m ρ c)
abbrev U1 : (c : Dev nD) → (b : Ref sig .tc) → Buf (Elt F) ((c : Thread nD τ).loc b) := fun c b => E1 m ρ c b
/-- After region 0 (region 1's entry): its arrays at what the pipeline leaves, every other buffer as entered. -/
def E2 (c : Dev nD) : Valuation τ sig (Elt F) :=
  Pipeline.withArrays spec0 c (E1 m ρ c) fun w => (R0.dat0 (U1 m ρ) c).arrAt w cfg0.N
/-- After region 0 each of its windows' arrays holds what its write-backs leave. -/
theorem E2_arr (c : Dev nD) (w : Fin cfg0.W) :
    E2 m ρ c (Proc.devRef .tc (Pipeline.arrRef spec0 w)) = (R0.dat0 (U1 m ρ) c).arrAt w cfg0.N := by
  unfold E2; exact Pipeline.withArrays_arr spec0 launch0.win.arr_inj c _ _ w
/-- After region 0 a buffer that is no window's array holds what it held on entry. -/
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev U2 : (c : Dev nD) → (b : Ref sig .tc) → Buf (Elt F) ((c : Thread nD τ).loc b) := fun c b => E2 m ρ c b
/-- The same two facts in the form region 0's segment asks. -/
theorem hF0 (c : Dev nD) (w : Fin cfg0.W) : (R0.dat0 (U1 m ρ) c).arrAt w cfg0.N = U2 m ρ c (Pipeline.arrRef spec0 w) :=
  (E2_arr m ρ c w).symm
theorem hrest0 (c : Dev nD) : ∀ b, b ∉ Finset.univ.image (Pipeline.arrRef spec0) → U2 m ρ c b = U1 m ρ c b :=
  fun b hb => E2_of_ne m ρ c b fun w e => hb (Finset.mem_image.mpr ⟨w, Finset.mem_univ _, e⟩)
/-- After region 1. -/
def E3 (c : Dev nD) : Valuation τ sig (Elt F) :=
  Pipeline.withArrays spec1 c (E2 m ρ c) fun w => (R1.dat1 (U2 m ρ) c).arrAt w cfg1.N
/-- After region 1 each of its windows' arrays holds what its write-backs leave. -/
theorem E3_arr (c : Dev nD) (w : Fin cfg1.W) :
    E3 m ρ c (Proc.devRef .tc (Pipeline.arrRef spec1 w)) = (R1.dat1 (U2 m ρ) c).arrAt w cfg1.N := by
  unfold E3; exact Pipeline.withArrays_arr spec1 launch1.win.arr_inj c _ _ w
/-- After region 1 a buffer that is no window's array holds what it held on entry. -/
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
abbrev U3 : (c : Dev nD) → (b : Ref sig .tc) → Buf (Elt F) ((c : Thread nD τ).loc b) := fun c b => E3 m ρ c b
/-- The same two facts in the form region 1's segment asks. -/
theorem hF1 (c : Dev nD) (w : Fin cfg1.W) : (R1.dat1 (U2 m ρ) c).arrAt w cfg1.N = U3 m ρ c (Pipeline.arrRef spec1 w) :=
  (E3_arr m ρ c w).symm
theorem hrest1 (c : Dev nD) : ∀ b, b ∉ Finset.univ.image (Pipeline.arrRef spec1) → U3 m ρ c b = U2 m ρ c b :=
  fun b hb => E3_of_ne m ρ c b fun w e => hb (Finset.mem_image.mpr ⟨w, Finset.mem_univ _, e⟩)

/-! ### No item writes an argument -/

/-- The first argument array ends as launched: region 1 has no window on it, region 0 only reads it (an input window's array ends as entered), and no host operation writes it. -/
theorem E3_main_arg0 (c : Dev nD) : E3 m ρ c (Proc.devRef .tc main_arg0) = m ((c : Thread nD τ).loc main_arg0) :=
  calc E3 m ρ c (Proc.devRef .tc main_arg0)
    _ = E2 m ρ c (Proc.devRef .tc main_arg0) := E3_of_ne m ρ c main_arg0 (by decide)
    _ = E1 m ρ c (Proc.devRef .tc main_arg0) := (E2_arr m ρ c 0).trans (((R0.dat0 (U1 m ρ) c).arrAt_in 0 rfl _).trans (R0.A_eq0 (U1 m ρ) c 0))
    _ = E0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The second argument array ends as launched: neither region has a window on it and no host operation writes it. -/
theorem E3_main_arg1 (c : Dev nD) : E3 m ρ c (Proc.devRef .tc main_arg1) = m ((c : Thread nD τ).loc main_arg1) :=
  calc E3 m ρ c (Proc.devRef .tc main_arg1)
    _ = E2 m ρ c (Proc.devRef .tc main_arg1) := E3_of_ne m ρ c main_arg1 (by decide)
    _ = E1 m ρ c (Proc.devRef .tc main_arg1) := E2_of_ne m ρ c main_arg1 (by decide)
    _ = E0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The third argument array ends as launched, for the same reason. -/
theorem E3_main_arg2 (c : Dev nD) : E3 m ρ c (Proc.devRef .tc main_arg2) = m ((c : Thread nD τ).loc main_arg2) :=
  calc E3 m ρ c (Proc.devRef .tc main_arg2)
    _ = E2 m ρ c (Proc.devRef .tc main_arg2) := E3_of_ne m ρ c main_arg2 (by decide)
    _ = E1 m ρ c (Proc.devRef .tc main_arg2) := E2_of_ne m ρ c main_arg2 (by decide)
    _ = E0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The fourth argument array ends as launched, for the same reason. -/
theorem E3_main_arg3 (c : Dev nD) : E3 m ρ c (Proc.devRef .tc main_arg3) = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what region 1's write-backs leave. -/
theorem E3_main_v7 (c : Dev nD) : E3 m ρ c (Proc.devRef .tc main_v7) = (R1.dat1 (U2 m ρ) c).arrAt 3 cfg1.N :=
  E3_arr m ρ c 3

/-! ## The proof data family and the thread state -/

abbrev adm : (p : Fin 2) → (pcfgs (F := F) p).Adm := fun p => (cfgs p).toPCfg_adm
/-- The two regions' proof data, each at its own region's entry contents. -/
def pdats : (p : Fin 2) → (c : Dev nD) → Dat τ (Elt F) Unit ℕ (UR sig nD τ) ℕ (Pipeline.pin (pcfgs (F := F)) adm p) c
  | ⟨0, _⟩ => fun c => R0.dat0 (U1 m ρ) c
  | ⟨1, _⟩ => fun c => R1.dat1 (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment: the operations touch unscoped buffers only and allocate nothing; beside them ride the generator register and nothing owed. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation before the first region allocates. -/
theorem hostOps0_noalloc : (hostOps0 : List (HloOp τ sig (Elt F))).Forall fun op => op.fresh = ∅ := by
  simp only [List.Forall]; repeat' constructor
/-- A buffer that is not scoped is among the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the end: every unscoped buffer at the last boundary's contents, the generator register at some state. -/
abbrev Tₙ (c : Dev nD) : sProp 𝕄 := iprop(StableHlo.held (c : Thread nD τ) (Pipeline.ucRefs τ sig) (E3 m ρ c) ∗ ∃ r, prngReg c r)

/-! ## The regions as segments -/

set_option backward.isDefEq.respectTransparency.types false in
/-- Region 0 over the thread state: entered from every unscoped buffer at its entry contents, left at its exit
    contents.  Its arrays are split out of the unscoped buffers and put back at what the pipeline leaves; the generator
    register goes into the region invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U1 m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents.  Its arrays are split out of the unscoped buffers and put back at what the pipeline leaves; the generator
    register goes into the region invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U2 m ρ) c).loose
  hwaits := Pipeline.hwaits_of_owed_zero _ _ _ _ L lv 1 fun _ _ => rfl
  pre c := iprop(StableHlo.held (c : Thread nD τ) (Pipeline.ucRefs τ sig) (E2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (R1.hin1 (U2 m ρ) c)
    unfold Pipeline.ΦA
    iintro ⟨Hp, -, Hr⟩
    isplitl [Hr]; · iexact Hr
    iexact Hp
  hout c := by
    rw [Pipeline.ownSems0_none]
    refine (R1.hout1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main as its three segments: the host stretch, the projection region, the flash-attention region. -/
abbrev segs : List (Pipeline.Seg (pcfgs (F := F)) adm (pdats m ρ) () defs₀ 𝒱₀ L lv) :=
  [ .host (hseg hostOps0 hostOps0_sub hostOps0_noalloc (E0 m ρ)),
    .region (reg0 m ρ),
    .region (reg1 m ρ) ]
/-- @main is the run of these segments in order. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (E3_main_arg0 m ρ c),
     (h c _ (mem_uc main_arg1 (by decide))).trans (E3_main_arg1 m ρ c),
     (h c _ (mem_uc main_arg2 (by decide))).trans (E3_main_arg2 m ρ c),
     (h c _ (mem_uc main_arg3 (by decide))).trans (E3_main_arg3 m ρ c)⟩) (run_all m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v7) = (R1.dat1 (U2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7 (by decide))).trans (E3_main_v7 m ρ c),
     (h c _ (mem_uc main_arg0 (by decide))).trans (E3_main_arg0 m ρ c),
     (h c _ (mem_uc main_arg1 (by decide))).trans (E3_main_arg1 m ρ c),
     (h c _ (mem_uc main_arg2 (by decide))).trans (E3_main_arg2 m ρ c),
     (h c _ (mem_uc main_arg3 (by decide))).trans (E3_main_arg3 m ρ c)⟩) (run_all m ρ)

end Cert.Kernel.Run

end
-- ==== Proof.KI.Region0.lean ====
/- The QKV projection kernel's half of the frame argument, at the buffer contents the region is entered with.

   The kernel runs over 32 row blocks. At each block it reads four staged inputs whole — a 256×1024 block of the
   activations and three 1024×256 weight matrices whose block never moves — and writes three 256×256 outputs, each
   by ONE store through the rectangle that is the whole staging buffer. So what the body leaves in an output buffer
   is a closed function of the input blocks at the point: the store's payload laid over the buffer, which the single
   whole-buffer piece covers. What it finds in an input buffer is that window's block at the point, whether or not
   the block was transferred there: where it was not, the block index has not moved since the previous point, and the
   body leaves its inputs as it found them.

   Stated here, generically in the float instance: each window's block at a point; each output's contents after the
   body as the canonical contents of its one covering piece; the body's triple over whole staging memrefs; the proof
   data (arrays at the entry contents, inputs left at their blocks, outputs at the canonical contents, nothing owed,
   full shares); and the body obligation at every point. -/
import proofs.«151722_j14164802142301_2_alg».proof.Proof.Gen.KernelIdeal.Launch
import proofs.«151722_j14164802142301_2_alg».proof.Proof.Gen.KernelIdeal.Skeleton
import proofs.«151722_j14164802142301_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter everything below is stated at
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, transferred there or not, for any proof
    data whose array is the entry contents and whose body leaves the block in place: where no transfer happened the
    block index has not moved. Window 0 (the activations' row block, a new block at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the scaled query weights: one block, the same at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the key weights: one block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Window 3 (the value weights: one block). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_x : Rect S256x1024 := Rect.unit (s := S256x1024) ![0, 0] S256x1024.size inb_S256x1024_S256x1024_0_0
abbrev r0_w : Rect S1024x256 := Rect.unit (s := S1024x256) ![0, 0] S1024x256.size inb_S1024x256_S1024x256_0_0
abbrev r0_o : Rect S256x256 := Rect.unit (s := S256x256) ![0, 0] S256x256.size inb_S256x256_S256x256_0_0

/-! ## What the body leaves in each output window's buffer -/

/-- The query block's buffer after the body: its one store, the product of the activations' block and the scaled
    query weights, as a single piece over the whole buffer. -/
def out0_4 (x0 : Vec F S256x1024 .f32) (x1 : Vec F S1024x256 .f32) : Vec F S256x256 .f32 :=
  View.canon [⟨r0_o, k0_pay1 (View.ld x0 r0_x) (View.ld x1 r0_w)⟩]
/-- The key block's buffer after the body: the product with the key weights. -/
def out0_5 (x0 : Vec F S256x1024 .f32) (x2 : Vec F S1024x256 .f32) : Vec F S256x256 .f32 :=
  View.canon [⟨r0_o, k0_pay2 (View.ld x0 r0_x) (View.ld x2 r0_w)⟩]
/-- The value block's buffer after the body: the product with the value weights, in the narrow format. -/
def out0_6 (x0 : Vec F S256x1024 .f32) (x3 : Vec F S1024x256 .bf16) : Vec F S256x256 .bf16 :=
  View.canon [⟨r0_o, k0_pay3 (View.ld x0 r0_x) (View.ld x3 r0_w)⟩]

/-- The one store tiles the buffer, so it covers it. -/
theorem cover0_4 (p0 : Vec F S256x256 .f32) (y : S256x256.Idx) :
    ∃ pc ∈ ([⟨r0_o, p0⟩] : List (View.Piece (Elt F) S256x256 .f32)), y ∈ pc.1.set :=
  View.cover_of_tiled [⟨r0_o, p0⟩] S256x256.size (by rfl) y
/-- The same for the key block's buffer. -/
theorem cover0_5 (p0 : Vec F S256x256 .f32) (y : S256x256.Idx) :
    ∃ pc ∈ ([⟨r0_o, p0⟩] : List (View.Piece (Elt F) S256x256 .f32)), y ∈ pc.1.set :=
  View.cover_of_tiled [⟨r0_o, p0⟩] S256x256.size (by rfl) y
/-- The same for the value block's buffer. -/
theorem cover0_6 (p0 : Vec F S256x256 .bf16) (y : S256x256.Idx) :
    ∃ pc ∈ ([⟨r0_o, p0⟩] : List (View.Piece (Elt F) S256x256 .bf16)), y ∈ pc.1.set :=
  View.cover_of_tiled [⟨r0_o, p0⟩] S256x256.size (by rfl) y

/-! ## The body's triple -/

set_option maxHeartbeats 1000000 in
/-- The kernel body on whole staging memrefs, the inputs' at read contents and the outputs' at anything, runs to the
    continuation holding the inputs' as they were and each output's at the canonical contents of its one store over
    the inputs: each output buffer is read once before it is written (a read whose value nothing uses), and the
    store that follows covers the buffer, so what it held does not matter. -/
theorem sound_kernel0 (c : Dev nD) (E : Set ℕ) (i : grid0.Coords)
    (arg1 : Memref sig .tc .vmem S256x1024 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .bf16) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .bf16) (harg7 : arg7.IsWhole)
    (x0 : Vec F S256x1024 .f32) (x1 : Vec F S1024x256 .f32) (x2 : Vec F S1024x256 .f32) (x3 : Vec F S1024x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the projection pipeline on core `c`: the arrays at the entry contents; after the body at point
    `t` each input's buffer at its block and each output's at the canonical contents of its store over the input
    blocks; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, transferred there or not. -/
theorem before0_0 (c : Dev nD) (t : Fin cfg0.N) (d) : (dat0 V c).before 0 t d = iblk0 V c 0 t :=
  before0_0_of V (dat0 V c) (A_eq0 V c 0) (after0_0 V c) t d
/-- The same for the query weights' window. -/
theorem before0_1 (c : Dev nD) (t : Fin cfg0.N) (d) : (dat0 V c).before 1 t d = iblk0 V c 1 t :=
  before0_1_of V (dat0 V c) (A_eq0 V c 1) (after0_1 V c) t d
/-- The same for the key weights' window. -/
theorem before0_2 (c : Dev nD) (t : Fin cfg0.N) (d) : (dat0 V c).before 2 t d = iblk0 V c 2 t :=
  before0_2_of V (dat0 V c) (A_eq0 V c 2) (after0_2 V c) t d
/-- The same for the value weights' window. -/
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what is owed, and each window's current staging buffer
    at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.R0

end
-- ==== Proof.KI.R1Shared.lean ====
/-
  The flash-attention region (the second kernel of the program), what its per-case runs and its proof data share.
  The region's grid is 8 × 16: point t has query tile t / 16 and key tile t % 16.  The body branches twice on the key
  tile: at key tile 0 it resets the three carried scratch arrays (the running row maximum, the running row sum and the
  running weighted accumulator), and at key tile 15 it writes the normalised accumulator to the output block.  The
  output window is idle (neither stored nor written back) at every other point.
-/
import proofs.«151722_j14164802142301_2_alg».proof.Proof.Gen.KernelIdeal.Launch
import proofs.«151722_j14164802142301_2_alg».proof.Proof.Gen.KernelIdeal.Skeleton
import proofs.«151722_j14164802142301_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- The first branch (reset the carried scratch) is taken exactly where the key-tile coordinate is 0. -/
abbrev cond1_0 (i : grid1.Coords) : Prop := (Scalar.cmpi .ne (Scalar.extui (Scalar.cmpi .eq (BitVec.ofNat 32 (i 1).val) 0#32)) 0#32) = 1#1
/-- The first branch (reset the carried scratch) is taken exactly at the points whose key tile is 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch (write the output block) is taken exactly where the key-tile coordinate is 15. -/
abbrev cond1_1 (i : grid1.Coords) : Prop := k1_cond2 i = 1#1
/-- The second branch (write the output block) is taken exactly at the points whose key tile is 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The staging and scratch memrefs -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The three carried scratch arrays: the running row maximum, the running row sum, the running accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view
/-- One staging buffer of the output window, through which its contents are stated. -/
abbrev VO1_3 : View sig .tc .vmem S1024x256 .f32 := (Memref.whole cc1_stg3_0 : Memref sig .tc .vmem S1024x256 .f32).view

/-! ## The scoped rest: the three scratch arrays, and every other scoped buffer unopened -/

/-- The region's scoped rest splits into its three scratch arrays, each at some contents, and every other scoped buffer. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- Every scoped buffer other than this region's staging buffers and its three scratch arrays, at some contents. -/
abbrev Others (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the scratch arrays as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ Others (F := F) c) ∗ (∃ r, prngReg c r)) := by
  unfold Pipeline.ΦA; rw [scopedRest1_split]; simp only [scM1_0, scM1_1, scM1_2, owns_whole]; try rfl

end Cert.KernelIdeal.R1

end
-- ==== Proof.KI.R1RunB.lean ====
/-
  The body of the flash-attention region at a middle key tile (neither branch taken): the three scratch arrays come
  in at what the point before left, the query, key and value blocks are read, the scratch arrays are overwritten by
  the online-softmax update, and the output block is not touched.
-/
import proofs.«151722_j14164802142301_2_alg».proof.Proof.KI.R1Shared
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B (middle key tile): each scratch array ends at one covering store of the online-softmax update of what it held; the output block is left as found. -/
noncomputable def kernelRun1_B (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.R1

end
-- ==== Proof.KI.R1RunA.lean ====
/-
  The body of the flash-attention region at key tile 0 (the reset branch taken, the output branch not): whatever the
  scratch arrays held is overwritten by the reset values and then by the first online-softmax update; the output
  block is not touched.
-/
import proofs.«151722_j14164802142301_2_alg».proof.Proof.KI.R1RunB
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A (key tile 0). -/
noncomputable def kernelRun1_A (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.R1

end
-- ==== Proof.KI.R1RunC.lean ====
/-
  The body of the flash-attention region at key tile 15 (the reset branch not taken, the output branch taken): the
  scratch arrays come in at what the point before left and are updated once more, and the output block is stored: the
  accumulator times the reciprocal of the row sum.
-/
import proofs.«151722_j14164802142301_2_alg».proof.Proof.KI.R1RunA
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C (key tile 15). -/
noncomputable def kernelRun1_C (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.R1

end
-- ==== Proof.KI.R1Data.lean ====
/-
  The proof data of the flash-attention region: what each control case leaves in the output block and in the three
  carried scratch arrays, the accumulation of these over the grid's points in order, the region invariant (before
  the first point the scratch holds anything; after a point it holds that point's running maximum, running sum and
  running accumulator), and the body's obligation at every point.
-/
import proofs.«151722_j14164802142301_2_alg».proof.Proof.KI.R1RunC
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- What case A leaves in the output block's staging buffer: its stores read back: there are none, and the window is idle at these points, so this value is never read. -/
def out1_A_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's stores into the running row maximum cover it. -/
theorem scover1_A_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What case A leaves in the running row maximum: its stores read back. -/
def sout1_A_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into the running row sum cover it. -/
theorem scover1_A_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y

/-- What case A leaves in the running row sum: its stores read back. -/
def sout1_A_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into the running accumulator cover it. -/
theorem scover1_A_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  (y : S1024x256.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x256.size (by sl_kernel_rfl) y

/-- What case A leaves in the running accumulator: its stores read back. -/
def sout1_A_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16)  : Vec F S1024x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output block's staging buffer: its stores read back: there are none, and the window is idle at these points, so this value is never read. -/
def out1_B_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's stores into the running row maximum cover it. -/
theorem scover1_B_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What case B leaves in the running row maximum: its stores read back. -/
def sout1_B_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into the running row sum cover it. -/
theorem scover1_B_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y

/-- What case B leaves in the running row sum: its stores read back. -/
def sout1_B_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into the running accumulator cover it. -/
theorem scover1_B_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x256.size (by sl_kernel_rfl) y

/-- What case B leaves in the running accumulator: its stores read back. -/
def sout1_B_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's stores into the output block's staging buffer cover it. -/
theorem cover1_C_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x256.size (by sl_kernel_rfl) y

/-- What case C leaves in the output block's staging buffer: its stores read back. -/
def out1_C_3 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's stores into the running row maximum cover it. -/
theorem scover1_C_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What case C leaves in the running row maximum: its stores read back. -/
def sout1_C_0 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into the running row sum cover it. -/
theorem scover1_C_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What case C leaves in the running row sum: its stores read back. -/
def sout1_C_1 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into the running accumulator cover it. -/
theorem scover1_C_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x256.size (by sl_kernel_rfl) y

/-- What case C leaves in the running accumulator: its stores read back. -/
def sout1_C_2 (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output block and the scratch arrays hold after each point -/

/-- THE ACCUMULATION over the grid's points in order: after the body at position `n`, the output block's staging
    buffer and the three scratch arrays (row maximum, row sum, accumulator).  At a first key tile the case that resets
    the scratch; otherwise the case the key tile selects, run over what the point before left in the scratch. -/
def outsAt1 (c : Dev nD) : (n : ℕ) → n < cfg1.N → Vec F S1024x256 .f32 × Vec F S1024x1 .f32 × Vec F S1024x1 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a first key tile: the resetting case. -/
theorem outsAt1_A (c : Dev nD) (t : Fin cfg1.N) (h0 : t.val % 16 = 0) (h1 : ¬t.val % 16 = 15) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle key tile: the update over what the point before left. -/
theorem outsAt1_B (c : Dev nD) (t : Fin cfg1.N) (h0 : ¬t.val % 16 = 0) (h1 : ¬t.val % 16 = 15) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the last key tile: the update over what the point before left, and the output block. -/
theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (every scratch array at anything); afterwards the
    three scratch arrays at what the point before left, every other scoped buffer at anything, and the generator
    register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ Others (F := F) c) ∗ (∃ r, prngReg c r))

/-- Before the first point the invariant is the class invariant. -/
theorem PhiS_zero (c : Dev nD) (n : ℕ) (h : n ≤ cfg1.N) (hz : n = 0) : PhiS V c n h = Pipeline.ΦA spec1 c := by
  subst hz; rfl

/-- After point `n` the invariant holds the scratch arrays at what point `n` left. -/
theorem PhiS_succ (c : Dev nD) (n : ℕ) (hn : n < cfg1.N) :
    PhiS V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ Others (F := F) c) ∗ (∃ r, prngReg c r)) := rfl

/-- At any position but the first the invariant holds the three scratch arrays at what the point before left. -/
theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ Others (F := F) c) ∗ (∃ r, prngReg c r)) := by
  cases n with
  | zero => exact absurd rfl hz
  | succ n => rfl

/-! ## The proof data -/

/-- The region's proof data on core `c`: the arrays as the region finds them; after the body at point `t` each
    input's buffer at its block and the output's at the accumulation's first component; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The proof data's invariant before point `t` is the region invariant at position `t`. -/
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, transferred there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the key tile says which case the point is in; the
    invariant hands the body the scratch arrays at what the point before left (at anything before the first point)
    and takes them back at this point's values; the output block is handed back untouched except at the last key
    tile, where it is stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      ·
        rw [PhiS_castSucc V c t, PhiS_zero V c _ _ hz, PhiA1_eq]
        iintro ⟨⟨⟨⟨HS0, HS1, HS2⟩, HO⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_A_0 c _ _ _ _ _ _ _ _ _ _ _ _ _ _ _ _ _ _ _ _)
              isplitl [HS1]
              ·
                unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1, HS2⟩, HO⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_A_0 c _ _ _ _ _ _ _ _ _ _ _ _ _ _ _ _ _ _ _ _)
              isplitl [HS1]
              ·
                unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      ·
        rw [PhiS_castSucc V c t, PhiS_pos V c _ _ hz]
        iintro ⟨⟨⟨⟨HS0, HS1, HS2⟩, HO⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              ·
                unfold owns; iexists _; isplitr
                swap; · iexact HS1
                ipureintro; exact View.read_writes_of_cover _ _ _ _ _ (scover1_C_1 c _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      ·
        rw [PhiS_castSucc V c t, PhiS_pos V c _ _ hz]
        iintro ⟨⟨⟨⟨HS0, HS1, HS2⟩, HO⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HO Hg]
        · isplitl [HS0 HS1 HS2 HO]
          · isplitl [HS0 HS1 HS2]
            · isplitl [HS0]
              ·
                unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              ·
                unfold owns; iexists _; isplitr
                swap; · iexact HS1
                ipureintro; exact View.read_writes_of_cover _ _ _ _ _ (scover1_B_1 c _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _)
            iexact HO
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch's values are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, HO⟩, Hg⟩
  isplitl [HS0 HS1 HS2 HO]
  · isplitl [HS0 HS1 HS2]
    · isplitl [HS0]; · iexists _; iexact HS0
      isplitl [HS1]; · iexists _; iexact HS1
      iexists _; iexact HS2
    iexact HO
  iexact Hg

/-- After the last point the invariant gives the class invariant back. -/
theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.R1

end
-- ==== Proof.KI.Run.lean ====
/-
  The whole program's run: @main is a stretch of host operations (the transposes, the scaling of the query weights by
  16, the cast of the value weights), then the projection region, then the flash-attention region.  The contents of
  every unscoped buffer are followed through the three items: after the host stretch, after region 0 (its three
  output arrays at what its write-backs leave), after region 1 (the result array at what its write-backs leave).  Every
  weakly fair execution terminates with every unscoped buffer at the last of these.
-/
import proofs.«151722_j14164802142301_2_alg».proof.Proof.KI.Region0
import proofs.«151722_j14164802142301_2_alg».proof.Proof.KI.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
/-- After the host stretch (region 0's entry). -/
abbrev E1 : Dev nD → Valuation τ sig (Elt F) := fun c => StableHlo.after hostOps0 (E0 m ρ c)
abbrev U1 : (c : Dev nD) → (b : Ref sig .tc) → Buf (Elt F) ((c : Thread nD τ).loc b) := fun c b => E1 m ρ c b
/-- After region 0 (region 1's entry): its arrays at what the pipeline leaves, every other buffer as entered. -/
def E2 (c : Dev nD) : Valuation τ sig (Elt F) :=
  Pipeline.withArrays spec0 c (E1 m ρ c) fun w => (R0.dat0 (U1 m ρ) c).arrAt w cfg0.N
/-- After region 0 each of its windows' arrays holds what its write-backs leave. -/
theorem E2_arr (c : Dev nD) (w : Fin cfg0.W) :
    E2 m ρ c (Proc.devRef .tc (Pipeline.arrRef spec0 w)) = (R0.dat0 (U1 m ρ) c).arrAt w cfg0.N := by
  unfold E2; exact Pipeline.withArrays_arr spec0 launch0.win.arr_inj c _ _ w
/-- After region 0 a buffer that is no window's array holds what it held on entry. -/
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev U2 : (c : Dev nD) → (b : Ref sig .tc) → Buf (Elt F) ((c : Thread nD τ).loc b) := fun c b => E2 m ρ c b
/-- The same two facts in the form region 0's segment asks. -/
theorem hF0 (c : Dev nD) (w : Fin cfg0.W) : (R0.dat0 (U1 m ρ) c).arrAt w cfg0.N = U2 m ρ c (Pipeline.arrRef spec0 w) :=
  (E2_arr m ρ c w).symm
theorem hrest0 (c : Dev nD) : ∀ b, b ∉ Finset.univ.image (Pipeline.arrRef spec0) → U2 m ρ c b = U1 m ρ c b :=
  fun b hb => E2_of_ne m ρ c b fun w e => hb (Finset.mem_image.mpr ⟨w, Finset.mem_univ _, e⟩)
/-- After region 1. -/
def E3 (c : Dev nD) : Valuation τ sig (Elt F) :=
  Pipeline.withArrays spec1 c (E2 m ρ c) fun w => (R1.dat1 (U2 m ρ) c).arrAt w cfg1.N
/-- After region 1 each of its windows' arrays holds what its write-backs leave. -/
theorem E3_arr (c : Dev nD) (w : Fin cfg1.W) :
    E3 m ρ c (Proc.devRef .tc (Pipeline.arrRef spec1 w)) = (R1.dat1 (U2 m ρ) c).arrAt w cfg1.N := by
  unfold E3; exact Pipeline.withArrays_arr spec1 launch1.win.arr_inj c _ _ w
/-- After region 1 a buffer that is no window's array holds what it held on entry. -/
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
abbrev U3 : (c : Dev nD) → (b : Ref sig .tc) → Buf (Elt F) ((c : Thread nD τ).loc b) := fun c b => E3 m ρ c b
/-- The same two facts in the form region 1's segment asks. -/
theorem hF1 (c : Dev nD) (w : Fin cfg1.W) : (R1.dat1 (U2 m ρ) c).arrAt w cfg1.N = U3 m ρ c (Pipeline.arrRef spec1 w) :=
  (E3_arr m ρ c w).symm
theorem hrest1 (c : Dev nD) : ∀ b, b ∉ Finset.univ.image (Pipeline.arrRef spec1) → U3 m ρ c b = U2 m ρ c b :=
  fun b hb => E3_of_ne m ρ c b fun w e => hb (Finset.mem_image.mpr ⟨w, Finset.mem_univ _, e⟩)

/-! ### No item writes an argument -/

/-- The first argument array ends as launched: region 1 has no window on it, region 0 only reads it (an input window's array ends as entered), and no host operation writes it. -/
theorem E3_main_arg0 (c : Dev nD) : E3 m ρ c (Proc.devRef .tc main_arg0) = m ((c : Thread nD τ).loc main_arg0) :=
  calc E3 m ρ c (Proc.devRef .tc main_arg0)
    _ = E2 m ρ c (Proc.devRef .tc main_arg0) := E3_of_ne m ρ c main_arg0 (by decide)
    _ = E1 m ρ c (Proc.devRef .tc main_arg0) := (E2_arr m ρ c 0).trans (((R0.dat0 (U1 m ρ) c).arrAt_in 0 rfl _).trans (R0.A_eq0 (U1 m ρ) c 0))
    _ = E0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The second argument array ends as launched: neither region has a window on it and no host operation writes it. -/
theorem E3_main_arg1 (c : Dev nD) : E3 m ρ c (Proc.devRef .tc main_arg1) = m ((c : Thread nD τ).loc main_arg1) :=
  calc E3 m ρ c (Proc.devRef .tc main_arg1)
    _ = E2 m ρ c (Proc.devRef .tc main_arg1) := E3_of_ne m ρ c main_arg1 (by decide)
    _ = E1 m ρ c (Proc.devRef .tc main_arg1) := E2_of_ne m ρ c main_arg1 (by decide)
    _ = E0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The third argument array ends as launched, for the same reason. -/
theorem E3_main_arg2 (c : Dev nD) : E3 m ρ c (Proc.devRef .tc main_arg2) = m ((c : Thread nD τ).loc main_arg2) :=
  calc E3 m ρ c (Proc.devRef .tc main_arg2)
    _ = E2 m ρ c (Proc.devRef .tc main_arg2) := E3_of_ne m ρ c main_arg2 (by decide)
    _ = E1 m ρ c (Proc.devRef .tc main_arg2) := E2_of_ne m ρ c main_arg2 (by decide)
    _ = E0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The fourth argument array ends as launched, for the same reason. -/
theorem E3_main_arg3 (c : Dev nD) : E3 m ρ c (Proc.devRef .tc main_arg3) = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what region 1's write-backs leave. -/
theorem E3_main_v7 (c : Dev nD) : E3 m ρ c (Proc.devRef .tc main_v7) = (R1.dat1 (U2 m ρ) c).arrAt 3 cfg1.N :=
  E3_arr m ρ c 3

/-! ## The proof data family and the thread state -/

abbrev adm : (p : Fin 2) → (pcfgs (F := F) p).Adm := fun p => (cfgs p).toPCfg_adm
/-- The two regions' proof data, each at its own region's entry contents. -/
def pdats : (p : Fin 2) → (c : Dev nD) → Dat τ (Elt F) Unit ℕ (UR sig nD τ) ℕ (Pipeline.pin (pcfgs (F := F)) adm p) c
  | ⟨0, _⟩ => fun c => R0.dat0 (U1 m ρ) c
  | ⟨1, _⟩ => fun c => R1.dat1 (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment: the operations touch unscoped buffers only and allocate nothing; beside them ride the generator register and nothing owed. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation before the first region allocates. -/
theorem hostOps0_noalloc : (hostOps0 : List (HloOp τ sig (Elt F))).Forall fun op => op.fresh = ∅ := by
  simp only [List.Forall]; repeat' constructor
/-- A buffer that is not scoped is among the unscoped buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the end: every unscoped buffer at the last boundary's contents, the generator register at some state. -/
abbrev Tₙ (c : Dev nD) : sProp 𝕄 := iprop(StableHlo.held (c : Thread nD τ) (Pipeline.ucRefs τ sig) (E3 m ρ c) ∗ ∃ r, prngReg c r)

/-! ## The regions as segments -/

set_option backward.isDefEq.respectTransparency.types false in
/-- Region 0 over the thread state: entered from every unscoped buffer at its entry contents, left at its exit
    contents.  Its arrays are split out of the unscoped buffers and put back at what the pipeline leaves; the generator
    register goes into the region invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U1 m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents.  Its arrays are split out of the unscoped buffers and put back at what the pipeline leaves; the generator
    register goes into the region invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U2 m ρ) c).loose
  hwaits := Pipeline.hwaits_of_owed_zero _ _ _ _ L lv 1 fun _ _ => rfl
  pre c := iprop(StableHlo.held (c : Thread nD τ) (Pipeline.ucRefs τ sig) (E2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (R1.hin1 (U2 m ρ) c)
    unfold Pipeline.ΦA
    iintro ⟨Hp, -, Hr⟩
    isplitl [Hr]; · iexact Hr
    iexact Hp
  hout c := by
    rw [Pipeline.ownSems0_none]
    refine (R1.hout1 (U2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main as its three segments: the host stretch, the projection region, the flash-attention region. -/
abbrev segs : List (Pipeline.Seg (pcfgs (F := F)) adm (pdats m ρ) () defs₀ 𝒱₀ L lv) :=
  [ .host (hseg hostOps0 hostOps0_sub hostOps0_noalloc (E0 m ρ)),
    .region (reg0 m ρ),
    .region (reg1 m ρ) ]
/-- @main is the run of these segments in order. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (E3_main_arg0 m ρ c),
     (h c _ (mem_uc main_arg1 (by decide))).trans (E3_main_arg1 m ρ c),
     (h c _ (mem_uc main_arg2 (by decide))).trans (E3_main_arg2 m ρ c),
     (h c _ (mem_uc main_arg3 (by decide))).trans (E3_main_arg3 m ρ c)⟩) (run_all m ρ)

/-- The run with the result array named: it ends at what region 1's write-backs leave, the arguments as launched. -/
theorem run_result : θ_run defs (onTc (τ := τ) (main (F := F))) ⟨m, fun _ => 0, ρ⟩ (fun r => ∀ c : Dev nD,
      r.2.mem ((c.tc : Thread nD τ).loc main_v7) = (R1.dat1 (U2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7 (by decide))).trans (E3_main_v7 m ρ c),
     (h c _ (mem_uc main_arg0 (by decide))).trans (E3_main_arg0 m ρ c),
     (h c _ (mem_uc main_arg1 (by decide))).trans (E3_main_arg1 m ρ c),
     (h c _ (mem_uc main_arg2 (by decide))).trans (E3_main_arg2 m ρ c),
     (h c _ (mem_uc main_arg3 (by decide))).trans (E3_main_arg3 m ρ c)⟩) (run_all m ρ)

end Cert.KernelIdeal.Run

end
-- ==== Proof.KI.R1Pieces.lean ====
/-
  What each control case of the flash-attention region leaves, as terms of the step's stored values: at a middle key
  tile and at the last one the three carried arrays end at the online-softmax update of what came in (new running
  maximum; old sum rescaled plus the row sum of the weights; old accumulator rescaled plus the weights times the value
  block), and the last key tile also leaves the output block at the accumulator times the reciprocal of the sum; at the
  first key tile the same update runs over the reset values (-∞, 0, 0).  Each is one covering store whose loads read
  whole buffers, so the buffer reads back as the stored value.
-/
import proofs.«151722_j14164802142301_2_alg».proof.Proof.KI.R1Data
import Idealize.ShloMosaic.Lib.Pipeline.Value
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access. -/
theorem hz00 : (![0, 0] : Fin 2 → Nat) = fun _ => 0 := funext fun a => by fin_cases a <;> rfl

/-- Middle key tile: the running row maximum ends at the new maximum. -/
theorem sout1_B_0_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero (S := S1024x1) hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- Middle key tile: the running row sum ends at the rescaled old sum plus the row sum of the weights. -/
theorem sout1_B_1_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero (S := S1024x1) hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- Middle key tile: the running accumulator ends at the rescaled old one plus the weights times the value block. -/
theorem sout1_B_2_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 hc0 hc1 x0 x1 x2 xs0 xs1 xs2 = k1_pay1 (k1_pay12 x0 x1 xs0 xs0 x2 xs2) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero (S := S1024x256) hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- Last key tile: the carried arrays end as at a middle key tile. -/
theorem sout1_C_0_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x1) hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- Last key tile: the running row sum ends at the rescaled old sum plus the row sum of the weights. -/
theorem sout1_C_1_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x1) hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- Last key tile: the running accumulator ends at the rescaled old one plus the weights times the value block. -/
theorem sout1_C_2_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 hc0 hc1 x0 x1 x2 xs0 xs1 xs2 = k1_pay1 (k1_pay12 x0 x1 xs0 xs0 x2 xs2) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x256) hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- Last key tile: the output block is the new accumulator times the reciprocal of the new sum, both read back
    from the arrays just stored. -/
theorem out1_C_3_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .f32) (x1 : Vec F S512x256 .f32) (x2 : Vec F S512x256 .bf16) (xs0 : Vec F S1024x1 .f32) (xs1 : Vec F S1024x1 .f32) (xs2 : Vec F S1024x256 .f32) :
    out1_C_3 c i arg2 harg2 arg3 harg3 arg4 harg4 arg5 harg5 arg6 harg6 arg7 harg7 arg8 harg8 hc0 hc1 x0 x1 x2 xs0 xs1 xs2 = k1_pay3 (k1_pay1 (k1_pay12 x0 x1 xs0 xs0 x2 xs2)) (k1_pay11 x0 x1 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero (S := S1024x256) hz00, View.readCov_unit_zero (S := S1024x256) arg8.view hz00,
    View.readCov_unit_zero (S := S1024x1) arg7.view hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- First key tile: the update runs over the reset values, read back from the arrays just reset. -/
theorem sout1_A_0_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16) :
    sout1_A_0 c i arg2 harg2 arg3 harg3 arg4 harg4 arg5 harg5 arg6 harg6 arg7 harg7 arg8 harg8 hc0 hc1 x0 x1 x2 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) hz00, View.readCov_unit_zero (S := S1024x1) arg6.view hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- First key tile: the running row sum ends at the update of the reset values (maximum −∞, sum 0). -/
theorem sout1_A_1_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16) :
    sout1_A_1 c i arg2 harg2 arg3 harg3 arg4 harg4 arg5 harg5 arg6 harg6 arg7 harg7 arg8 harg8 hc0 hc1 x0 x1 x2 = k1_pay11 x0 x1 k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) hz00, View.readCov_unit_zero (S := S1024x1) arg6.view hz00,
    View.readCov_unit_zero (S := S1024x1) arg7.view hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

/-- First key tile: the running accumulator ends at the update of the reset values (maximum −∞, accumulator 0). -/
theorem sout1_A_2_eq (c : Dev nD) (i : grid1.Coords) (arg2 : Memref sig .tc .vmem S1024x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .f32) (x1 : Vec F S512x256 .f32) (x2 : Vec F S512x256 .bf16) :
    sout1_A_2 c i arg2 harg2 arg3 harg3 arg4 harg4 arg5 harg5 arg6 harg6 arg7 harg7 arg8 harg8 hc0 hc1 x0 x1 x2 = k1_pay1 (k1_pay12 x0 x1 k1_pay4 k1_pay4 x2 k1_pay6) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x256) hz00, View.readCov_unit_zero (S := S1024x1) arg6.view hz00,
    View.readCov_unit_zero (S := S1024x256) arg8.view hz00]
  simp only [View.readAt_eq_ld, harg2.read_unread, harg3.read_unread, harg4.read_unread, harg6.read_unread,
    harg7.read_unread, harg8.read_unread, View.ld_unit_zero (S := S1024x256) hz00, View.ld_unit_zero (S := S512x256) hz00,
    View.ld_unit_zero (S := S1024x1) hz00]

end Cert.KernelIdeal.R1

end
-- ==== Proof.KI.R1Blocks.lean ====
import proofs.«151722_j14164802142301_2_alg».proof.Proof.KI.R1Data
import Idealize.ShloMosaic.Lib.Pipeline.Value
import Idealize.ShloMosaic.Lib.ValueIdx

set_option maxRecDepth 16384

noncomputable section

namespace Cert.KernelIdeal.R1V

open Idealize.ShloMosaic Idealize.ShloMosaic.ValueIdx Idealize.ShloMosaic.TcCoe
open Idealize.ShloMosaic.Pipeline (Dat Cfg Window)
open Cert.KernelIdeal Cert.KernelIdeal.Gen Cert.KernelIdeal.R1

/-! ## Where the second region's blocks sit

The grid is 8 × 16; point t has query tile t / 16 and key tile t % 16. The query block and the output block are
rows [1024 (t / 16), 1024 (t / 16) + 1024) of their arrays, the key and value blocks rows [512 (t % 16), 512 (t % 16) + 512);
every block spans all 256 columns. -/

/-- The block indices of the four windows at every point of the grid. -/
theorem idx_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-- The grid has 128 points. -/
theorem lt_N (t : Fin cfg1.N) : t.val < 128 := lt_of_lt_of_eq t.isLt N_1

variable (V : (c : Dev nD) → (b : Ref sig .tc) → Buf (Elt Ideal) ((c : Thread nD τ).loc b))

/-- The query block at point t, row r, is row 1024 (t / 16) + r of the query array. -/
theorem iblk1_0_apply (c : Dev nD) (t : Fin cfg1.N) (r : Fin 1024) (d : Fin 256) (i : Fin 8192)
    (hi : i.val = (t.val / 16) * 1024 + r.val) :
    (iblk1 V c 0 t : Vec Ideal S1024x256 .f32) (ix2 r d) = (V c main_v6_0 : S8192x256.Idx → EReal) (ix2 i d) := by
  obtain ⟨e0, e1, -, -, -, -, -, -⟩ := idx_facts t
  unfold iblk1
  rw [View.read_apply]
  show V c main_v6_0 _ = V c main_v6_0 _
  congr 1
  funext a
  apply Fin.ext
  match a with
  | ⟨0, _⟩ => show win1_0.index t (0 : Fin 2) * 1024 + 1 * r.val = i.val; rw [e0, hi]; omega
  | ⟨1, _⟩ => show win1_0.index t (1 : Fin 2) * 256 + 1 * d.val = d.val; rw [e1]; omega

/-- The key block at point t, row j, is row 512 (t % 16) + j of the key array. -/
theorem iblk1_1_apply (c : Dev nD) (t : Fin cfg1.N) (j : Fin 512) (d : Fin 256) (jj : Fin 8192)
    (hj : jj.val = (t.val % 16) * 512 + j.val) :
    (iblk1 V c 1 t : Vec Ideal S512x256 .f32) (ix2 j d) = (V c main_v6_1 : S8192x256.Idx → EReal) (ix2 jj d) := by
  obtain ⟨-, -, e2, e3, -, -, -, -⟩ := idx_facts t
  unfold iblk1
  rw [View.read_apply]
  show V c main_v6_1 _ = V c main_v6_1 _
  congr 1
  funext a
  apply Fin.ext
  match a with
  | ⟨0, _⟩ => show win1_1.index t (0 : Fin 2) * 512 + 1 * j.val = jj.val; rw [e2, hj]; omega
  | ⟨1, _⟩ => show win1_1.index t (1 : Fin 2) * 256 + 1 * d.val = d.val; rw [e3]; omega

/-- The value block at point t, row j, is row 512 (t % 16) + j of the value array. -/
theorem iblk1_2_apply (c : Dev nD) (t : Fin cfg1.N) (j : Fin 512) (d : Fin 256) (jj : Fin 8192)
    (hj : jj.val = (t.val % 16) * 512 + j.val) :
    (iblk1 V c 2 t : Vec Ideal S512x256 .bf16) (ix2 j d) = (V c main_v6_2 : S8192x256.Idx → EReal) (ix2 jj d) := by
  obtain ⟨-, -, -, -, e4, e5, -, -⟩ := idx_facts t
  unfold iblk1
  rw [View.read_apply]
  show V c main_v6_2 _ = V c main_v6_2 _
  congr 1
  funext a
  apply Fin.ext
  match a with
  | ⟨0, _⟩ => show win1_2.index t (0 : Fin 2) * 512 + 1 * j.val = jj.val; rw [e4, hj]; omega
  | ⟨1, _⟩ => show win1_2.index t (1 : Fin 2) * 256 + 1 * d.val = d.val; rw [e5]; omega

/-! ## The output block, and the cover -/

/-- What point t writes back is block t of ONE whole-array function G, once what the body left in the output block
    is known entry by entry: entry (r, d) of the block is entry (1024 (t / 16) + r, d) of the array. -/
theorem flushed3_of (c : Dev nD) (t : Fin cfg1.N) (G : S8192x256.Idx → EReal)
    (h : ∀ (r : Fin 1024) (d : Fin 256) (i : Fin 8192), i.val = (t.val / 16) * 1024 + r.val →
      ((dat1 (F := Ideal) V c).after 3 t : Vec Ideal S1024x256 .f32) (ix2 r d) = G (ix2 i d)) :
    (dat1 (F := Ideal) V c).flushed 3 t = ((cfg1.win 3).blk t).view.read (Elt Ideal) G := by
  obtain ⟨-, -, -, -, -, -, e6, e7⟩ := idx_facts t
  have ht := lt_N t
  show (cfg1.win 3).cut (grid1.coords t) ((dat1 (F := Ideal) V c).after 3 t) = _
  funext y
  rw [View.read_apply]
  have hy0 : (y 0).val < 1024 := (y 0).isLt
  have hy1 : (y 1).val < 256 := (y 1).isLt
  have hh := h ⟨(y 0).val, hy0⟩ ⟨(y 1).val, hy1⟩ ⟨(t.val / 16) * 1024 + (y 0).val, by omega⟩ rfl
  show ((dat1 (F := Ideal) V c).after 3 t : Vec Ideal S1024x256 .f32) _ = G _
  refine Eq.trans (congrArg _ ?_) (hh.trans (congrArg G ?_))
  · funext a
    apply Fin.ext
    match a with
    | ⟨0, _⟩ => rfl
    | ⟨1, _⟩ => rfl
  · funext a
    apply Fin.ext
    match a with
    | ⟨0, _⟩ => show (t.val / 16) * 1024 + (y 0).val = win1_3.index t (0 : Fin 2) * 1024 + 1 * (y 0).val; rw [e6]; omega
    | ⟨1, _⟩ => show (y 1).val = win1_3.index t (1 : Fin 2) * 256 + 1 * (y 1).val; rw [e7]; omega

/-- An index of the output array is in point t's block iff each coordinate is in the block's range on its axis. -/
theorem mem_blk3 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v7).slice (win1_3.rect t)).set ↔ _
  rw [View.set_slice_whole, Rect.mem_set_unit]
  exact Iff.rfl

/-- Every index of the output array is in the block of a point that writes back: row i₀ is in query tile i₀ / 1024,
    whose last key tile is point 16 (i₀ / 1024) + 15. -/
theorem cover3 (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have hN : (i 0).val / 1024 * 16 + 15 < cfg1.N := lt_of_lt_of_eq (b := 128) (by omega) N_1.symm
  obtain ⟨-, -, -, -, -, -, e6, e7⟩ := idx_facts ⟨(i 0).val / 1024 * 16 + 15, hN⟩
  refine ⟨⟨(i 0).val / 1024 * 16 + 15, hN⟩, (flush1_3 _).mpr (by show ((i 0).val / 1024 * 16 + 15) % 16 = 15; omega), ?_⟩
  rw [mem_blk3]
  intro a
  match a with
  | ⟨0, _⟩ =>
    show win1_3.index ⟨(i 0).val / 1024 * 16 + 15, hN⟩ (0 : Fin 2) * 1024 ≤ (i 0).val ∧ (i 0).val < win1_3.index ⟨(i 0).val / 1024 * 16 + 15, hN⟩ (0 : Fin 2) * 1024 + 1024
    rw [e6]
    show ((i 0).val / 1024 * 16 + 15) / 16 * 1024 ≤ (i 0).val ∧ (i 0).val < ((i 0).val / 1024 * 16 + 15) / 16 * 1024 + 1024
    omega
  | ⟨1, _⟩ =>
    show win1_3.index ⟨(i 0).val / 1024 * 16 + 15, hN⟩ (1 : Fin 2) * 256 ≤ (i 1).val ∧ (i 1).val < win1_3.index ⟨(i 0).val / 1024 * 16 + 15, hN⟩ (1 : Fin 2) * 256 + 256
    rw [e7]
    omega

/-- THE OUTPUT ARRAY after the region is G, once at every point of the last key tile the body leaves block t of G. -/
theorem arrAt3_of (c : Dev nD) (G : S8192x256.Idx → EReal)
    (h : ∀ t : Fin cfg1.N, t.val % 16 = 15 → ∀ (r : Fin 1024) (d : Fin 256) (i : Fin 8192),
      i.val = (t.val / 16) * 1024 + r.val →
      ((dat1 (F := Ideal) V c).after 3 t : Vec Ideal S1024x256 .f32) (ix2 r d) = G (ix2 i d)) :
    (dat1 (F := Ideal) V c).arrAt 3 cfg1.N = G :=
  (dat1 (F := Ideal) V c).arrAt_eq_of_cover 3 G (fun t hf => flushed3_of V c t G (h t ((flush1_3 t).mp hf))) cover3

end Cert.KernelIdeal.R1V

end
-- ==== Proof.KI.Payloads.lean ====
import proofs.«151722_j14164802142301_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic ValueIdx Cert.KernelIdeal Cert.KernelIdeal.Gen
open scoped BigOperators

/-!
# The two kernels' stored values at an index, over the extended reals

Every value the kernels store is built from matrix products into a zero accumulator, row maxima, row sums,
exponentials and rescalings of what was read.  Read at an index: a product at (row, column) is the sum over the
contraction position of the operands' entries; a row maximum is the fold of max from −∞ and a row sum the sum over the
row; the narrowing format changes are the identity.  The flash-attention step's stored values and the three projections
follow.
-/

/-! ## The score product: a 1024 × 256 block against a 512 × 256 block, both contracted along their second axis

Its left operand is read at (row, contraction position) and its right operand at (column, contraction position). -/
theorem qk_lhs_0 (i : S1024x512.Idx) (c : dot_S1024x256_S512x256_S1024x512_1_1_0_0_n_n.contr.Idx) :
    (dot_S1024x256_S512x256_S1024x512_1_1_0_0_n_n.lhsIdx i c 0).val = (i 0).val := by
  unfold DotDims.lhsIdx
  rw [dif_neg (show ¬(0 : Fin S1024x256.rank) ∈ dot_S1024x256_S512x256_S1024x512_1_1_0_0_n_n.lhsBatch by decide),
    dif_pos (show (0 : Fin S1024x256.rank) ∈ dot_S1024x256_S512x256_S1024x512_1_1_0_0_n_n.lhsNonContracting by decide)]
  rfl
/-- and at the contraction position on the second. -/
theorem qk_lhs_1 (i : S1024x512.Idx) (c : dot_S1024x256_S512x256_S1024x512_1_1_0_0_n_n.contr.Idx) :
    (dot_S1024x256_S512x256_S1024x512_1_1_0_0_n_n.lhsIdx i c 1).val = (c ⟨0, by decide⟩).val :=
  dot_S1024x256_S512x256_S1024x512_1_1_0_0_n_n.lhsIdx_val_of_single rfl i c
/-- It reads its right operand at the result's COLUMN on the first axis (both operands are contracted along their second axis), -/
theorem qk_rhs_0 (i : S1024x512.Idx) (c : dot_S1024x256_S512x256_S1024x512_1_1_0_0_n_n.contr.Idx) :
    (dot_S1024x256_S512x256_S1024x512_1_1_0_0_n_n.rhsIdx i c 0).val = (i 1).val := by
  unfold DotDims.rhsIdx
  rw [dif_neg (show ¬(0 : Fin S512x256.rank) ∈ dot_S1024x256_S512x256_S1024x512_1_1_0_0_n_n.rhsBatch by decide),
    dif_pos (show (0 : Fin S512x256.rank) ∈ dot_S1024x256_S512x256_S1024x512_1_1_0_0_n_n.rhsNonContracting by decide)]
  rfl
/-- and at the contraction position on the second. -/
theorem qk_rhs_1 (i : S1024x512.Idx) (c : dot_S1024x256_S512x256_S1024x512_1_1_0_0_n_n.contr.Idx) :
    (dot_S1024x256_S512x256_S1024x512_1_1_0_0_n_n.rhsIdx i c 1).val = (c ⟨0, by decide⟩).val :=
  dot_S1024x256_S512x256_S1024x512_1_1_0_0_n_n.rhsIdx_val_of_single rfl i c

/-- The score product into the zero accumulator at (r, j): the sum over the 256 contraction positions d of the left operand at (r, d) times the right operand at (j, d), whatever the operands' formats. -/
theorem qk_apply {φ₁ φ₂ : FTy} (prec : Option ContractPrecision) (x : FVec Ideal S1024x256 φ₁) (y : FVec Ideal S512x256 φ₂)
    (r : Fin 1024) (j : Fin 512) :
    FloatOps.matmul dot_S1024x256_S512x256_S1024x512_1_1_0_0_n_n prec x y (constant (F := Ideal) S1024x512 .f32 0x00000000#32) (ix2 r j)
      = ∑ d : Fin 256, x (ix2 r d) * y (ix2 j d) := by
  rw [Ideal.matmul_constant_zero_apply, ← Equiv.sum_comp (contrEquiv1 dot_S1024x256_S512x256_S1024x512_1_1_0_0_n_n 256 rfl rfl).symm]
  refine Finset.sum_congr rfl fun d _ => ?_
  have hk := contrEquiv1_symm_val dot_S1024x256_S512x256_S1024x512_1_1_0_0_n_n 256 rfl rfl d
  have el : dot_S1024x256_S512x256_S1024x512_1_1_0_0_n_n.lhsIdx (ix2 r j) ((contrEquiv1 dot_S1024x256_S512x256_S1024x512_1_1_0_0_n_n 256 rfl rfl).symm d) = ix2 r d :=
    funext fun a => Fin.ext (by
      match a with
      | ⟨0, _⟩ => exact qk_lhs_0 _ _
      | ⟨1, _⟩ => exact (qk_lhs_1 _ _).trans hk)
  have er : dot_S1024x256_S512x256_S1024x512_1_1_0_0_n_n.rhsIdx (ix2 r j) ((contrEquiv1 dot_S1024x256_S512x256_S1024x512_1_1_0_0_n_n 256 rfl rfl).symm d) = ix2 j d :=
    funext fun a => Fin.ext (by
      match a with
      | ⟨0, _⟩ => exact qk_rhs_0 _ _
      | ⟨1, _⟩ => exact (qk_rhs_1 _ _).trans hk)
  rw [el, er]

/-! ## The weighted sum of values: a 1024 × 512 block times a 512 × 256 block, rows by columns -/
theorem pv_lhs_0 (i : S1024x256.Idx) (c : dot_S1024x512_S512x256_S1024x256_1_0_0_1_n_n.contr.Idx) :
    (dot_S1024x512_S512x256_S1024x256_1_0_0_1_n_n.lhsIdx i c 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
/-- and at the contraction position on the second; -/
theorem pv_lhs_1 (i : S1024x256.Idx) (c : dot_S1024x512_S512x256_S1024x256_1_0_0_1_n_n.contr.Idx) :
    (dot_S1024x512_S512x256_S1024x256_1_0_0_1_n_n.lhsIdx i c 1).val = (c ⟨0, by decide⟩).val :=
  dot_S1024x512_S512x256_S1024x256_1_0_0_1_n_n.lhsIdx_val_of_single rfl i c
/-- its right operand at the contraction position on the first axis, -/
theorem pv_rhs_0 (i : S1024x256.Idx) (c : dot_S1024x512_S512x256_S1024x256_1_0_0_1_n_n.contr.Idx) :
    (dot_S1024x512_S512x256_S1024x256_1_0_0_1_n_n.rhsIdx i c 0).val = (c ⟨0, by decide⟩).val :=
  dot_S1024x512_S512x256_S1024x256_1_0_0_1_n_n.rhsIdx_val_of_single rfl i c
/-- and at the result's column on the second. -/
theorem pv_rhs_1 (i : S1024x256.Idx) (c : dot_S1024x512_S512x256_S1024x256_1_0_0_1_n_n.contr.Idx) :
    (dot_S1024x512_S512x256_S1024x256_1_0_0_1_n_n.rhsIdx i c 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The weights-times-values product into the zero accumulator at (r, d): the sum over the 512 contraction positions j of the weight at (r, j) times the value at (j, d). -/
theorem pv_apply {φ₁ φ₂ : FTy} (prec : Option ContractPrecision) (x : FVec Ideal S1024x512 φ₁) (y : FVec Ideal S512x256 φ₂)
    (r : Fin 1024) (d : Fin 256) :
    FloatOps.matmul dot_S1024x512_S512x256_S1024x256_1_0_0_1_n_n prec x y (constant (F := Ideal) S1024x256 .f32 0x00000000#32) (ix2 r d)
      = ∑ j : Fin 512, x (ix2 r j) * y (ix2 j d) := by
  rw [Ideal.matmul_constant_zero_apply, ← Equiv.sum_comp (contrEquiv1 dot_S1024x512_S512x256_S1024x256_1_0_0_1_n_n 512 rfl rfl).symm]
  refine Finset.sum_congr rfl fun j _ => ?_
  have hk := contrEquiv1_symm_val dot_S1024x512_S512x256_S1024x256_1_0_0_1_n_n 512 rfl rfl j
  have el : dot_S1024x512_S512x256_S1024x256_1_0_0_1_n_n.lhsIdx (ix2 r d) ((contrEquiv1 dot_S1024x512_S512x256_S1024x256_1_0_0_1_n_n 512 rfl rfl).symm j) = ix2 r j :=
    funext fun a => Fin.ext (by
      match a with
      | ⟨0, _⟩ => exact pv_lhs_0 _ _
      | ⟨1, _⟩ => exact (pv_lhs_1 _ _).trans hk)
  have er : dot_S1024x512_S512x256_S1024x256_1_0_0_1_n_n.rhsIdx (ix2 r d) ((contrEquiv1 dot_S1024x512_S512x256_S1024x256_1_0_0_1_n_n 512 rfl rfl).symm j) = ix2 j d :=
    funext fun a => Fin.ext (by
      match a with
      | ⟨0, _⟩ => exact (pv_rhs_0 _ _).trans hk
      | ⟨1, _⟩ => exact pv_rhs_1 _ _)
  rw [el, er]

/-! ## The projections: a 256 × 1024 block of the input times a 1024 × 256 weight, rows by columns -/
theorem proj_lhs_0 (i : S256x256.Idx) (c : dot_S256x1024_S1024x256_S256x256_1_0_0_1_n_n.contr.Idx) :
    (dot_S256x1024_S1024x256_S256x256_1_0_0_1_n_n.lhsIdx i c 0).val = (i 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl
/-- and at the contraction position on the second; -/
theorem proj_lhs_1 (i : S256x256.Idx) (c : dot_S256x1024_S1024x256_S256x256_1_0_0_1_n_n.contr.Idx) :
    (dot_S256x1024_S1024x256_S256x256_1_0_0_1_n_n.lhsIdx i c 1).val = (c ⟨0, by decide⟩).val :=
  dot_S256x1024_S1024x256_S256x256_1_0_0_1_n_n.lhsIdx_val_of_single rfl i c
/-- its right operand at the contraction position on the first axis, -/
theorem proj_rhs_0 (i : S256x256.Idx) (c : dot_S256x1024_S1024x256_S256x256_1_0_0_1_n_n.contr.Idx) :
    (dot_S256x1024_S1024x256_S256x256_1_0_0_1_n_n.rhsIdx i c 0).val = (c ⟨0, by decide⟩).val :=
  dot_S256x1024_S1024x256_S256x256_1_0_0_1_n_n.rhsIdx_val_of_single rfl i c
/-- and at the result's column on the second. -/
theorem proj_rhs_1 (i : S256x256.Idx) (c : dot_S256x1024_S1024x256_S256x256_1_0_0_1_n_n.contr.Idx) :
    (dot_S256x1024_S1024x256_S256x256_1_0_0_1_n_n.rhsIdx i c 1).val = (i 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-- A projection into the zero accumulator at (p, q): the sum over the 1024 contraction positions c of the input at (p, c) times the weight at (c, q). -/
theorem proj_apply {φ₁ φ₂ : FTy} (prec : Option ContractPrecision) (x : FVec Ideal S256x1024 φ₁) (y : FVec Ideal S1024x256 φ₂)
    (p : Fin 256) (q : Fin 256) :
    FloatOps.matmul dot_S256x1024_S1024x256_S256x256_1_0_0_1_n_n prec x y (constant (F := Ideal) S256x256 .f32 0x00000000#32) (ix2 p q)
      = ∑ c : Fin 1024, x (ix2 p c) * y (ix2 c q) := by
  rw [Ideal.matmul_constant_zero_apply, ← Equiv.sum_comp (contrEquiv1 dot_S256x1024_S1024x256_S256x256_1_0_0_1_n_n 1024 rfl rfl).symm]
  refine Finset.sum_congr rfl fun c _ => ?_
  have hk := contrEquiv1_symm_val dot_S256x1024_S1024x256_S256x256_1_0_0_1_n_n 1024 rfl rfl c
  have el : dot_S256x1024_S1024x256_S256x256_1_0_0_1_n_n.lhsIdx (ix2 p q) ((contrEquiv1 dot_S256x1024_S1024x256_S256x256_1_0_0_1_n_n 1024 rfl rfl).symm c) = ix2 p c :=
    funext fun a => Fin.ext (by
      match a with
      | ⟨0, _⟩ => exact proj_lhs_0 _ _
      | ⟨1, _⟩ => exact (proj_lhs_1 _ _).trans hk)
  have er : dot_S256x1024_S1024x256_S256x256_1_0_0_1_n_n.rhsIdx (ix2 p q) ((contrEquiv1 dot_S256x1024_S1024x256_S256x256_1_0_0_1_n_n 1024 rfl rfl).symm c) = ix2 c q :=
    funext fun a => Fin.ext (by
      match a with
      | ⟨0, _⟩ => exact (proj_rhs_0 _ _).trans hk
      | ⟨1, _⟩ => exact proj_rhs_1 _ _)
  rw [el, er]

/-! ## Columns: a vector viewed as a column, a column spread along rows, a row reduction's inserted index -/

section Layout
variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Reducing the second axis of a 1024 × 512 block: the index over row `r` with `j` inserted is `(r, j)`. -/
theorem lift_row (r : Fin 1024) (j : Fin 512) : reduces_S1024x512_S1024.lift (ix1 r) j = ix2 r j := by
  funext c
  refine Fin.ext ?_
  match c with
  | ⟨0, _⟩ => rfl
  | ⟨1, _⟩ => rfl

/-- The word `0xFF800000` is `-∞`, the bottom of the extended reals. -/
theorem ofBits_neg_inf : Ideal.ofBits .f32 0xFF800000#32 = ⊥ := by simp [Ideal.ofBits, Ideal.ieee]

/-- A row maximum of a 1024 × 512 block started from `-∞`: the fold of `max` from `⊥` over the row. -/
theorem rowmax_apply (src : FVec Ideal S1024x512 .f32) (hφ : FKind.Formats .f32)
    (hacc : (0xFF800000#32 : BitVec 32) = 0xFF800000#32) (r : Fin 1024) :
    multiReduction .maximumf [1] S1024 src 0xFF800000#32 reduces_S1024x512_S1024 hφ hacc (ix1 r)
      = (Finset.univ : Finset (Fin 512)).fold max ⊥ (fun j => src (ix2 r j)) := by
  refine (Ideal.multiReduction_maximumf_single src 0xFF800000#32 reduces_S1024x512_S1024 hφ hacc (ix1 r)).trans ?_
  show (Finset.univ : Finset (Fin 512)).fold max (Ideal.ofBits .f32 0xFF800000#32) (src ∘ reduces_S1024x512_S1024.lift (ix1 r)) = _
  rw [ofBits_neg_inf]
  exact congrArg (fun f => (Finset.univ : Finset (Fin 512)).fold max ⊥ f)
    (funext fun j : Fin 512 => congrArg src (lift_row r j))

/-- A row sum of a 1024 × 512 block. -/
theorem rowsum_apply (src : FVec Ideal S1024x512 .f32) (hφ : FKind.Formats .f32)
    (hacc : (0x00000000#32 : BitVec 32) = 0x00000000#32) (r : Fin 1024) :
    multiReduction .add [1] S1024 src 0x00000000#32 reduces_S1024x512_S1024 hφ hacc (ix1 r)
      = ∑ j : Fin 512, src (ix2 r j) := by
  refine (Ideal.multiReduction_add_single src 0x00000000#32 reduces_S1024x512_S1024 hφ hacc (ix1 r)).trans ?_
  show ∑ j : Fin 512, src (reduces_S1024x512_S1024.lift (ix1 r) j) = _
  exact Finset.sum_congr rfl fun j _ => congrArg src (lift_row r j)

/-! ## The flash-attention step's stored values at an index -/

/-- The scores of one step: row `r` of the query block against row `j` of the key block. -/
theorem pay1_7 (q : Vec Ideal S1024x256 .f32) (k : Vec Ideal S512x256 .f32) (r : Fin 1024) (j : Fin 512) :
    k1_pay7 (F := Ideal) q k (ix2 r j) = ∑ d : Fin 256, q (ix2 r d) * k (ix2 j d) := by
  unfold k1_pay7
  simp only [matmul]
  rw [shapeCast_self, shapeCast_self]
  exact qk_apply _ q k r j

/-- The running maximum after the step: the old maximum against the row maximum of this step's scores. -/
theorem pay1_8 (q : Vec Ideal S1024x256 .f32) (k : Vec Ideal S512x256 .f32) (m : Vec Ideal S1024x1 .f32) (r : Fin 1024) :
    k1_pay8 (F := Ideal) q k m (ix2 r (0 : Fin 1))
      = max (m (ix2 r (0 : Fin 1)))
          ((Finset.univ : Finset (Fin 512)).fold max ⊥ (fun j => k1_pay7 (F := Ideal) q k (ix2 r j))) := by
  unfold k1_pay8
  refine congrArg (max (m (ix2 r (0 : Fin 1)))) ?_
  refine (shapeCast_a_a1_apply _ shapeCasts_S1024_S1024x1 r (0 : Fin 1)).trans ?_
  exact rowmax_apply _ _ _ r

/-- The step's weights: the exponential of each score less the new running maximum of its row. -/
theorem pay1_10 (q : Vec Ideal S1024x256 .f32) (k : Vec Ideal S512x256 .f32) (m : Vec Ideal S1024x1 .f32)
    (r : Fin 1024) (j : Fin 512) :
    k1_pay10 (F := Ideal) q k m (ix2 r j)
      = Ideal.exp (k1_pay7 (F := Ideal) q k (ix2 r j) - k1_pay8 (F := Ideal) q k m (ix2 r (0 : Fin 1))) := by
  unfold k1_pay10
  refine congrArg (fun t => Ideal.exp (k1_pay7 (F := Ideal) q k (ix2 r j) - t)) ?_
  exact broadcastTo_a1_ab_apply _ broadcasts_S1024x1_S1024x512 r j

/-- The running denominator after the step: the old one rescaled plus the row sum of the step's weights. -/
theorem pay1_11 (q : Vec Ideal S1024x256 .f32) (k : Vec Ideal S512x256 .f32) (m m12 l : Vec Ideal S1024x1 .f32)
    (r : Fin 1024) :
    k1_pay11 (F := Ideal) q k m m12 l (ix2 r (0 : Fin 1))
      = k1_pay9 (F := Ideal) q k m m12 (ix2 r (0 : Fin 1)) * l (ix2 r (0 : Fin 1))
          + ∑ j : Fin 512, k1_pay10 (F := Ideal) q k m (ix2 r j) := by
  unfold k1_pay11
  refine (congrFun (shapeCast_self _ shapeCasts_S1024x1_S1024x1) _).trans ?_
  refine congrArg (fun t => k1_pay9 (F := Ideal) q k m m12 (ix2 r (0 : Fin 1)) * l (ix2 r (0 : Fin 1)) + t) ?_
  refine (shapeCast_a_a1_apply _ shapeCasts_S1024_S1024x1 r (0 : Fin 1)).trans ?_
  exact rowsum_apply _ _ _ r

/-- The running numerator after the step: the old one rescaled plus the weights times the value block. -/
theorem pay1_12 (q : Vec Ideal S1024x256 .f32) (k : Vec Ideal S512x256 .f32) (m m12 : Vec Ideal S1024x1 .f32)
    (vb : Vec Ideal S512x256 .bf16) (acc : Vec Ideal S1024x256 .f32) (r : Fin 1024) (d : Fin 256) :
    k1_pay12 (F := Ideal) q k m m12 vb acc (ix2 r d)
      = k1_pay9 (F := Ideal) q k m m12 (ix2 r (0 : Fin 1)) * acc (ix2 r d)
          + ∑ j : Fin 512, k1_pay10 (F := Ideal) q k m (ix2 r j) * vb (ix2 j d) := by
  unfold k1_pay12
  simp only [matmul]
  rw [shapeCast_self]
  refine congrArg₂ (· + ·) ?_ ?_
  · exact congrArg (fun t => t * acc (ix2 r d)) (broadcastTo_a1_ab_apply _ broadcasts_S1024x1_S1024x256 r d)
  · exact pv_apply _ _ vb r d

/-- The factor that rescales what was accumulated under the old maximum `m12` to the new one. -/
theorem pay1_9 (q : Vec Ideal S1024x256 .f32) (k : Vec Ideal S512x256 .f32) (m m12 : Vec Ideal S1024x1 .f32) (r : Fin 1024) :
    k1_pay9 (F := Ideal) q k m m12 (ix2 r (0 : Fin 1))
      = Ideal.exp (m12 (ix2 r (0 : Fin 1)) - k1_pay8 (F := Ideal) q k m (ix2 r (0 : Fin 1))) := by
  unfold k1_pay9
  rfl

/-- The output at the last step: the numerator times the reciprocal of the denominator of its row. -/
theorem pay1_3 (acc : Vec Ideal S1024x256 .f32) (l : Vec Ideal S1024x1 .f32) (r : Fin 1024) (d : Fin 256) :
    k1_pay3 (F := Ideal) acc l (ix2 r d)
      = acc (ix2 r d) * Ideal.div (Ideal.ofBits .f32 0x3F800000#32) (l (ix2 r (0 : Fin 1))) := by
  unfold k1_pay3
  exact congrArg (fun t => acc (ix2 r d) * t) (broadcastTo_a1_ab_apply _ broadcasts_S1024x1_S1024x256 r d)

/-- The carried numerator and maximum are stored as they are. -/
theorem pay1_1 (acc : Vec Ideal S1024x256 .f32) : k1_pay1 (F := Ideal) acc = acc := shapeCast_self _ _
theorem pay1_2 (m : Vec Ideal S1024x1 .f32) : k1_pay2 (F := Ideal) m = m := shapeCast_self _ _

/-- At the first step the carried maximum is reset to `-∞`, the denominator and the numerator to zero. -/
theorem pay1_4 : k1_pay4 (F := Ideal) = fun _ => ⊥ := by
  unfold k1_pay4
  refine (shapeCast_self _ shapeCasts_S1024x1_S1024x1).trans ?_
  exact funext fun _ => ofBits_neg_inf
/-- The reset running denominator is zero at every row. -/
theorem pay1_5 : k1_pay5 (F := Ideal) = fun _ => 0 := by
  unfold k1_pay5
  refine (shapeCast_self _ shapeCasts_S1024x1_S1024x1).trans ?_
  exact funext fun _ => Ideal.ofBits_zero_f32
/-- The reset running numerator is zero at every entry. -/
theorem pay1_6 : k1_pay6 (F := Ideal) = fun _ => 0 := by
  unfold k1_pay6
  refine (shapeCast_self _ shapeCasts_S1024x256_S1024x256).trans ?_
  exact funext fun _ => Ideal.ofBits_zero_f32

/-! ## The projection kernel's stored values at an index

Each projection is the input block times its weight. The third rounds its operands and its result to a narrower
format, which changes nothing on the extended reals. -/

/-- The query projection's stored value at (p, q): row p of the input block against column q of the scaled query weight. -/
theorem pay0_1 (x0 : Vec Ideal S256x1024 .f32) (w : Vec Ideal S1024x256 .f32) (p q : Fin 256) :
    k0_pay1 (F := Ideal) x0 w (ix2 p q) = ∑ c : Fin 1024, x0 (ix2 p c) * w (ix2 c q) := by
  unfold k0_pay1
  simp only [matmul]
  rw [shapeCast_self]
  exact proj_apply _ x0 w p q
/-- The key projection's stored value at (p, q): row p of the input block against column q of the key weight. -/
theorem pay0_2 (x0 : Vec Ideal S256x1024 .f32) (w : Vec Ideal S1024x256 .f32) (p q : Fin 256) :
    k0_pay2 (F := Ideal) x0 w (ix2 p q) = ∑ c : Fin 1024, x0 (ix2 p c) * w (ix2 c q) := by
  unfold k0_pay2
  simp only [matmul]
  rw [shapeCast_self]
  exact proj_apply _ x0 w p q
/-- The value projection's stored value at (p, q): row p of the input block against column q of the value weight; the narrowings of the operands and of the product are the identity. -/
theorem pay0_3 (x0 : Vec Ideal S256x1024 .f32) (w : Vec Ideal S1024x256 .bf16) (p q : Fin 256) :
    k0_pay3 (F := Ideal) x0 w (ix2 p q) = ∑ c : Fin 1024, x0 (ix2 p c) * w (ix2 c q) := by
  unfold k0_pay3
  simp only [matmul]
  rw [shapeCast_self]
  exact proj_apply _ _ w p q

end Cert.KernelIdeal.Pay

end
-- ==== Proof.LibOnlineSoftmax.lean ====
import Mathlib
import Idealize.ShloMosaic.PureOps.Ideal

/-!
# The online softmax over the extended reals

A row of extended reals (each entry real or `⊥`, never `⊤`) is read block by block.  A running
state `(m, l)` holds the maximum `m` seen so far and the sum `l = ∑ e^(x - m)` over the entries seen
so far.  Reading one more block with block maximum `b` replaces `m` by `m' = max m b`, rescales the
old sum by `e^(m - m')` and adds the new block's terms `e^(x - m')`.

This file proves that after `n ≥ 1` blocks the state is `(M, ∑ e^(x - M))` with `M` the maximum of
all entries read, a real number, and the sum a positive real; that a sum (or a maximum) over
`Fin (B * K)` is the sum (maximum) over `B` blocks of `K`; and that the blocked computation agrees
with the one-pass one.  The three facts behind it:

* `e^a · e^b = e^(a + b)` on the reals;
* `⊥ - M = ⊥` and `e^⊥ = 0`, so a `⊥` entry, and the start state `(⊥, 0)`, contribute `0`;
* the coercion `ℝ → EReal` commutes with finite sums.
-/

namespace OnlineSoftmax

open Idealize.ShloMosaic
open scoped BigOperators

/-! ## Coercions and the shifted exponential -/

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion `ℝ → EReal` commutes with `max` (it is monotone). -/
theorem coe_max (a b : ℝ) : ((max a b : ℝ) : EReal) = max (a : EReal) (b : EReal) :=
  EReal.coe_strictMono.monotone.map_max

/-- `e^(x - M)` as a real number, for `x` real or `⊥`; at `⊥` it is `0`. -/
noncomputable def expShift (x : EReal) (M : ℝ) : ℝ :=
  if x = ⊥ then 0 else Real.exp (x.toReal - M)

/-- For `x ≠ ⊤` and real `M`, the extended exponential of `x - M` is the real `expShift x M`:
    `⊥ - M = ⊥` and `e^⊥ = 0`; on reals the subtraction and the exponential are the real ones. -/
theorem exp_sub_coe {x : EReal} (hx : x ≠ ⊤) (M : ℝ) :
    Ideal.exp (x - (M : EReal)) = (expShift x M : EReal) := by
  induction x using EReal.rec with
  | bot => simp [expShift]
  | top => exact absurd rfl hx
  | coe r =>
    rw [← EReal.coe_sub, Ideal.exp_coe]
    simp [expShift]

theorem expShift_nonneg (x : EReal) (M : ℝ) : 0 ≤ expShift x M := by
  unfold expShift; split_ifs
  · exact le_rfl
  · exact (Real.exp_pos _).le

theorem expShift_pos {x : EReal} (hx : x ≠ ⊥) (M : ℝ) : 0 < expShift x M := by
  unfold expShift; rw [if_neg hx]; exact Real.exp_pos _

/-- Rescaling: `e^(M - M') · e^(x - M) = e^(x - M')`. -/
theorem exp_mul_expShift (x : EReal) (M M' : ℝ) :
    Real.exp (M - M') * expShift x M = expShift x M' := by
  unfold expShift; split_ifs
  · simp
  · rw [← Real.exp_add]; congr 1; ring

/-! ## The maximum of a finite family -/

/-- The fold of `max` from `⊥` is the finite supremum. -/
theorem fold_max_eq_sup {ι : Type*} (s : Finset ι) (f : ι → EReal) :
    s.fold max ⊥ f = s.sup f := rfl

/-- A finite family with no `⊤` entry and some entry other than `⊥` has a real maximum: the fold of
    `max` from `⊥` is a real `b`, every entry is `≤ b`, and some entry equals `b`. -/
theorem exists_real_max {ι : Type*} [Fintype ι] (w : ι → EReal)
    (htop : ∀ i, w i ≠ ⊤) (hbot : ∃ i, w i ≠ ⊥) :
    ∃ b : ℝ, Finset.univ.fold max ⊥ w = (b : EReal) ∧ (∀ i, w i ≤ (b : EReal)) ∧
      ∃ i, w i = (b : EReal) := by
  obtain ⟨i0, hi0⟩ := hbot
  have hne : (Finset.univ : Finset ι).Nonempty := ⟨i0, Finset.mem_univ _⟩
  obtain ⟨i1, _, hi1⟩ := Finset.exists_mem_eq_sup Finset.univ hne w
  have hle : ∀ i, w i ≤ Finset.univ.sup w := fun i => Finset.le_sup (Finset.mem_univ i)
  have hsb : Finset.univ.sup w ≠ ⊥ := fun h => hi0 (le_bot_iff.mp (h ▸ hle i0))
  have hst : Finset.univ.sup w ≠ ⊤ := hi1 ▸ htop i1
  refine ⟨(Finset.univ.sup w).toReal, ?_, ?_, ?_⟩
  · rw [fold_max_eq_sup, EReal.coe_toReal hst hsb]
  · intro i; rw [EReal.coe_toReal hst hsb]; exact hle i
  · exact ⟨i1, by rw [EReal.coe_toReal hst hsb]; exact hi1.symm⟩

/-! ## The online update -/

/-- One online update: the new maximum is the old one joined with the block's; the old sum is
    rescaled by `e^(m - m')` and the block's terms `e^(x - m')` are added. -/
noncomputable def step {K : ℕ} (v : Fin K → EReal) (s : EReal × EReal) : EReal × EReal :=
  let m' := max s.1 (Finset.univ.fold max ⊥ v)
  (m', Ideal.exp (s.1 - m') * s.2 + ∑ c, Ideal.exp (v c - m'))

/-- The state after `n` blocks, from the start state `(⊥, 0)`. -/
noncomputable def run {K : ℕ} (v : ℕ → Fin K → EReal) : ℕ → EReal × EReal
  | 0 => (⊥, 0)
  | n + 1 => step (v n) (run v n)

@[simp] theorem run_zero {K : ℕ} (v : ℕ → Fin K → EReal) : run v 0 = (⊥, 0) := rfl
@[simp] theorem run_succ {K : ℕ} (v : ℕ → Fin K → EReal) (n : ℕ) :
    run v (n + 1) = step (v n) (run v n) := rfl

/-- The first update, from `(⊥, 0)`: `max ⊥ b = b`, `e^(⊥ - b) = e^⊥ = 0`, `0 · 0 = 0`, so the state
    becomes `(b, ∑ e^(x - b))`. -/
theorem step_init {K : ℕ} (v : Fin K → EReal) (b : ℝ)
    (hb : Finset.univ.fold max ⊥ v = (b : EReal)) (htop : ∀ c, v c ≠ ⊤) :
    step v (⊥, 0) = ((b : EReal), ((∑ c, expShift (v c) b : ℝ) : EReal)) := by
  simp only [step, hb]
  rw [max_eq_right (bot_le : (⊥ : EReal) ≤ (b : EReal))]
  rw [EReal.bot_sub, Ideal.exp_bot, zero_mul, zero_add, coe_finset_sum]
  congr 1
  exact Finset.sum_congr rfl fun c _ => exp_sub_coe (htop c) b

/-- A later update, from a real state `(M, L)`: with `M' = max M b` the state becomes
    `(M', e^(M - M') · L + ∑ e^(x - M'))`, all real. -/
theorem step_real {K : ℕ} (v : Fin K → EReal) (b : ℝ)
    (hb : Finset.univ.fold max ⊥ v = (b : EReal)) (htop : ∀ c, v c ≠ ⊤) (M Lr : ℝ) :
    step v ((M : EReal), (Lr : EReal)) =
      (((max M b : ℝ) : EReal),
        ((Real.exp (M - max M b) * Lr + ∑ c, expShift (v c) (max M b) : ℝ) : EReal)) := by
  have hm : max (M : EReal) (b : EReal) = ((max M b : ℝ) : EReal) := (coe_max M b).symm
  simp only [step, hb, hm]
  rw [← EReal.coe_sub, Ideal.exp_coe, ← EReal.coe_mul, EReal.coe_add, coe_finset_sum]
  congr 2
  exact Finset.sum_congr rfl fun c _ => exp_sub_coe (htop c) _

/-- The state after `n + 1` blocks, in real terms: the maximum is a real `M`, the maximum of all
    entries read, and the sum is the real `∑ e^(x - M)` over all entries read.  By induction on `n`:
    the first block by `step_init`; a later block by `step_real`, the rescaling
    `e^(M - M') · e^(x - M) = e^(x - M')` termwise, and `max M b` being attained by whichever is larger. -/
theorem run_spec_real {K : ℕ} (v : ℕ → Fin K → EReal) :
    ∀ n : ℕ, (∀ j < n + 1, ∀ c, v j c ≠ ⊤) → (∀ j < n + 1, ∃ c, v j c ≠ ⊥) →
    ∃ M : ℝ, (run v (n + 1)).1 = (M : EReal) ∧ (∀ j < n + 1, ∀ c, v j c ≤ (M : EReal)) ∧
      (∃ j < n + 1, ∃ c, v j c = (M : EReal)) ∧
      (run v (n + 1)).2 =
        ((∑ j ∈ Finset.range (n + 1), ∑ c, expShift (v j c) M : ℝ) : EReal) := by
  intro n
  induction n with
  | zero =>
    intro htop hbot
    obtain ⟨b, hb, hle, c0, hc0⟩ :=
      exists_real_max (v 0) (htop 0 (by omega)) (hbot 0 (by omega))
    have hrun : run v (0 + 1) = ((b : EReal), ((∑ c, expShift (v 0 c) b : ℝ) : EReal)) :=
      step_init (v 0) b hb (htop 0 (by omega))
    refine ⟨b, by rw [hrun], ?_, ⟨0, by omega, c0, hc0⟩, ?_⟩
    · intro j hj c
      have hj0 : j = 0 := by omega
      subst hj0; exact hle c
    · rw [hrun]; simp
  | succ n ih =>
    intro htop hbot
    obtain ⟨M, hM1, hMle, ⟨j0, hj0, c0, hc0⟩, hM2⟩ :=
      ih (fun j hj => htop j (by omega)) (fun j hj => hbot j (by omega))
    obtain ⟨b, hb, hle, c1, hc1⟩ :=
      exists_real_max (v (n + 1)) (htop (n + 1) (by omega)) (hbot (n + 1) (by omega))
    have hrun : run v (n + 1 + 1) = step (v (n + 1)) ((M : EReal),
        ((∑ j ∈ Finset.range (n + 1), ∑ c, expShift (v j c) M : ℝ) : EReal)) := by
      rw [run_succ v (n + 1), ← hM1, ← hM2]
    rw [step_real _ b hb (htop (n + 1) (by omega))] at hrun
    refine ⟨max M b, by rw [hrun], ?_, ?_, ?_⟩
    · intro j hj c
      rw [coe_max]
      rcases Nat.lt_succ_iff_lt_or_eq.mp hj with h | h
      · exact le_max_of_le_left (hMle j h c)
      · subst h; exact le_max_of_le_right (hle c)
    · rcases le_total M b with h | h
      · exact ⟨n + 1, by omega, c1, by rw [max_eq_right h]; exact hc1⟩
      · exact ⟨j0, by omega, c0, by rw [max_eq_left h]; exact hc0⟩
    · rw [hrun]
      show ((_ : ℝ) : EReal) = _
      congr 1
      rw [Finset.sum_range_succ _ (n + 1), Finset.mul_sum]
      congr 1
      refine Finset.sum_congr rfl fun j _ => ?_
      rw [Finset.mul_sum]
      exact Finset.sum_congr rfl fun c _ => exp_mul_expShift _ _ _

/-- The sum of the extended exponentials `e^(x - M)` over blocks `0 … n-1` is the coercion of the real
    sum, when no entry is `⊤`. -/
theorem sum_exp_eq_coe {K : ℕ} (v : ℕ → Fin K → EReal) (n : ℕ)
    (htop : ∀ j < n, ∀ c, v j c ≠ ⊤) (M : ℝ) :
    ∑ j ∈ Finset.range n, ∑ c, Ideal.exp (v j c - (M : EReal)) =
      ((∑ j ∈ Finset.range n, ∑ c, expShift (v j c) M : ℝ) : EReal) := by
  rw [coe_finset_sum]
  refine Finset.sum_congr rfl fun j hj => ?_
  rw [coe_finset_sum]
  exact Finset.sum_congr rfl fun c _ => exp_sub_coe (htop j (Finset.mem_range.mp hj) c) M

/-- **The online softmax is the one-pass softmax.**  If every entry of blocks `0 … n-1` is real or `⊥`
    and each of these blocks has an entry other than `⊥`, then after `n ≥ 1` updates the running
    maximum is a real `M`, every entry read is `≤ M` and some entry read equals `M`, the running sum is
    `∑ e^(x - M)` over all entries read, and that sum is a positive real. -/
theorem run_spec {K : ℕ} (v : ℕ → Fin K → EReal) (n : ℕ) (hn : 1 ≤ n)
    (htop : ∀ j < n, ∀ c, v j c ≠ ⊤) (hbot : ∀ j < n, ∃ c, v j c ≠ ⊥) :
    ∃ M : ℝ, (run v n).1 = (M : EReal) ∧ (∀ j < n, ∀ c, v j c ≤ (M : EReal)) ∧
      (∃ j < n, ∃ c, v j c = (M : EReal)) ∧
      (run v n).2 = ∑ j ∈ Finset.range n, ∑ c, Ideal.exp (v j c - (M : EReal)) ∧
      ∃ L : ℝ, 0 < L ∧ (run v n).2 = (L : EReal) := by
  obtain ⟨m, rfl⟩ : ∃ m, n = m + 1 := ⟨n - 1, by omega⟩
  obtain ⟨M, h1, hle, ⟨j0, hj0, c0, hc0⟩, h2⟩ := run_spec_real v m htop hbot
  refine ⟨M, h1, hle, ⟨j0, hj0, c0, hc0⟩, ?_, _, ?_, h2⟩
  · rw [h2, sum_exp_eq_coe v (m + 1) htop M]
  · refine Finset.sum_pos' (fun j _ => Finset.sum_nonneg fun c _ => expShift_nonneg _ _)
      ⟨j0, Finset.mem_range.mpr hj0, ?_⟩
    refine Finset.sum_pos' (fun c _ => expShift_nonneg _ _) ⟨c0, Finset.mem_univ _, ?_⟩
    exact expShift_pos (by rw [hc0]; exact EReal.coe_ne_bot M) M

/-- The same with the hypotheses on every block (not only the first `n`). -/
theorem run_spec' {K : ℕ} (v : ℕ → Fin K → EReal)
    (htop : ∀ j c, v j c ≠ ⊤) (hbot : ∀ j, ∃ c, v j c ≠ ⊥) (n : ℕ) (hn : 1 ≤ n) :
    ∃ M : ℝ, (run v n).1 = (M : EReal) ∧ (∀ j < n, ∀ c, v j c ≤ (M : EReal)) ∧
      (∃ j < n, ∃ c, v j c = (M : EReal)) ∧
      (run v n).2 = ∑ j ∈ Finset.range n, ∑ c, Ideal.exp (v j c - (M : EReal)) ∧
      ∃ L : ℝ, 0 < L ∧ (run v n).2 = (L : EReal) :=
  run_spec v n hn (fun j _ c => htop j c) (fun j _ => hbot j)

/-! ## Re-blocking: `Fin (B * K)` as `B` blocks of `K` -/

/-- The flat index `j · K + c` of entry `c` of block `j` is below `B · K`. -/
theorem reblock_lt {B K : ℕ} (j : Fin B) (c : Fin K) : j.val * K + c.val < B * K := by
  have h1 : j.val * K + c.val < (j.val + 1) * K := by
    rw [Nat.add_mul, Nat.one_mul]; exact Nat.add_lt_add_left c.isLt _
  exact lt_of_lt_of_le h1 (Nat.mul_le_mul_right K j.isLt)

/-- A sum over `Fin (B * K)` is the sum over the `B` blocks of the sums over each block's `K`
    entries; entry `c` of block `j` is at flat index `j · K + c`. -/
theorem sum_reblock {α : Type*} [AddCommMonoid α] {B K : ℕ} (f : Fin (B * K) → α) :
    ∑ i, f i = ∑ j : Fin B, ∑ c : Fin K, f ⟨j.val * K + c.val, reblock_lt j c⟩ := by
  rw [← Equiv.sum_comp finProdFinEquiv f, Fintype.sum_prod_type]
  refine Finset.sum_congr rfl fun j _ => Finset.sum_congr rfl fun c _ => ?_
  congr 1
  apply Fin.ext
  simp only [finProdFinEquiv_apply_val]
  ring

/-- A maximum over `Fin (B * K)` is the maximum over the `B` blocks of each block's maximum. -/
theorem sup_reblock {B K : ℕ} (f : Fin (B * K) → EReal) :
    Finset.univ.sup f =
      Finset.univ.sup fun j : Fin B => Finset.univ.sup fun c : Fin K =>
        f ⟨j.val * K + c.val, reblock_lt j c⟩ := by
  apply le_antisymm
  · refine Finset.sup_le fun i _ => ?_
    have hi : i = ⟨(finProdFinEquiv.symm i).1.val * K + (finProdFinEquiv.symm i).2.val,
        reblock_lt _ _⟩ := by
      conv_lhs => rw [← finProdFinEquiv.apply_symm_apply i]
      apply Fin.ext
      simp only [finProdFinEquiv_apply_val]
      ring
    rw [hi]
    exact le_trans
      (Finset.le_sup (f := fun c : Fin K =>
        f ⟨(finProdFinEquiv.symm i).1.val * K + c.val, reblock_lt _ c⟩) (Finset.mem_univ _))
      (Finset.le_sup (f := fun j : Fin B => Finset.univ.sup fun c : Fin K =>
        f ⟨j.val * K + c.val, reblock_lt j c⟩) (Finset.mem_univ _))
  · exact Finset.sup_le fun j _ => Finset.sup_le fun c _ => Finset.le_sup (Finset.mem_univ _)

/-- The same for the fold of `max` from `⊥`. -/
theorem fold_max_reblock {B K : ℕ} (f : Fin (B * K) → EReal) :
    Finset.univ.fold max ⊥ f =
      Finset.univ.fold max ⊥ fun j : Fin B => Finset.univ.fold max ⊥ fun c : Fin K =>
        f ⟨j.val * K + c.val, reblock_lt j c⟩ :=
  sup_reblock f

/-- `8192 = 8 · 1024`: a sum over `Fin 8192` as eight blocks of `1024`. -/
theorem sum_reblock_8_1024 {α : Type*} [AddCommMonoid α] (f : Fin 8192 → α) :
    ∑ i, f i = ∑ j : Fin 8, ∑ c : Fin 1024, f ⟨j.val * 1024 + c.val, by omega⟩ :=
  sum_reblock (B := 8) (K := 1024) f

/-- `8192 = 8 · 1024`: a maximum over `Fin 8192` as eight blocks of `1024`. -/
theorem fold_max_reblock_8_1024 (f : Fin 8192 → EReal) :
    Finset.univ.fold max ⊥ f =
      Finset.univ.fold max ⊥ fun j : Fin 8 => Finset.univ.fold max ⊥ fun c : Fin 1024 =>
        f ⟨j.val * 1024 + c.val, by omega⟩ :=
  fold_max_reblock (B := 8) (K := 1024) f

/-! ## The closing identity -/

/-- For real `M`, `n` and positive real `L`: `(M + log L) - n = -((n - M) - log L)` as extended reals;
    the logarithm of a positive real is real, so all of it is real arithmetic. -/
theorem closing_identity (M n L : ℝ) (hL : 0 < L) :
    ((M : EReal) + Ideal.log (L : EReal)) - (n : EReal) =
      -(((n : EReal) - (M : EReal)) - Ideal.log (L : EReal)) := by
  rw [Ideal.log_coe, if_neg (not_le.mpr hL)]
  rw [← EReal.coe_add, ← EReal.coe_sub, ← EReal.coe_sub, ← EReal.coe_sub, ← EReal.coe_neg]
  congr 1
  ring

/-! ## The one-pass form, and the blocked computation against it -/

/-- The one-pass softmax denominators: for a finite family with no `⊤` entry and some entry other
    than `⊥`, the maximum `Mw` (the fold of `max` from `⊥`) is real, every entry is `≤ Mw`, some entry
    equals `Mw`, and `∑ e^(w i - Mw)` is a positive real. -/
theorem onepass_spec {ι : Type*} [Fintype ι] (w : ι → EReal)
    (htop : ∀ i, w i ≠ ⊤) (hbot : ∃ i, w i ≠ ⊥) :
    ∃ Mw : ℝ, Finset.univ.fold max ⊥ w = (Mw : EReal) ∧ (∀ i, w i ≤ (Mw : EReal)) ∧
      (∃ i, w i = (Mw : EReal)) ∧
      ∃ L : ℝ, 0 < L ∧ ∑ i, Ideal.exp (w i - (Mw : EReal)) = (L : EReal) := by
  obtain ⟨Mw, hM, hle, i0, hi0⟩ := exists_real_max w htop hbot
  refine ⟨Mw, hM, hle, ⟨i0, hi0⟩, ∑ i, expShift (w i) Mw, ?_, ?_⟩
  · refine Finset.sum_pos' (fun i _ => expShift_nonneg _ _) ⟨i0, Finset.mem_univ _, ?_⟩
    exact expShift_pos (by rw [hi0]; exact EReal.coe_ne_bot Mw) Mw
  · rw [coe_finset_sum]
    exact Finset.sum_congr rfl fun i _ => exp_sub_coe (htop i) Mw

/-- **Blocked against one-pass.**  Let `w` be a row of `B · K` entries, none `⊤`, each of its `B ≥ 1`
    blocks of `K` having an entry other than `⊥`, and let `v j c = w (j · K + c)` for `j < B`.  Then the
    online computation over the `B` blocks ends in the one-pass maximum `Mw` of the whole row (a real)
    and the one-pass sum `∑ e^(w i - Mw)` (a positive real). -/
theorem run_eq_onepass {B K : ℕ} (hB : 1 ≤ B) (w : Fin (B * K) → EReal)
    (v : ℕ → Fin K → EReal)
    (hv : ∀ (j : Fin B) (c : Fin K), v j.val c = w ⟨j.val * K + c.val, reblock_lt j c⟩)
    (htop : ∀ i, w i ≠ ⊤)
    (hbot : ∀ j : Fin B, ∃ c : Fin K, w ⟨j.val * K + c.val, reblock_lt j c⟩ ≠ ⊥) :
    ∃ Mw L : ℝ, 0 < L ∧ Finset.univ.fold max ⊥ w = (Mw : EReal) ∧
      (run v B).1 = (Mw : EReal) ∧
      (run v B).2 = ∑ i, Ideal.exp (w i - (Mw : EReal)) ∧
      (run v B).2 = (L : EReal) := by
  have htop' : ∀ j < B, ∀ c, v j c ≠ ⊤ := fun j hj c => by
    rw [hv ⟨j, hj⟩ c]; exact htop _
  have hbot' : ∀ j < B, ∃ c, v j c ≠ ⊥ := fun j hj => by
    obtain ⟨c, hc⟩ := hbot ⟨j, hj⟩
    exact ⟨c, by rw [hv ⟨j, hj⟩ c]; exact hc⟩
  obtain ⟨M, h1, hle, ⟨j0, hj0, c0, hc0⟩, h2, L, hL, h3⟩ := run_spec v B hB htop' hbot'
  have hMw : Finset.univ.fold max ⊥ w = (M : EReal) := by
    rw [fold_max_eq_sup, sup_reblock]
    apply le_antisymm
    · refine Finset.sup_le fun j _ => Finset.sup_le fun c _ => ?_
      rw [← hv j c]; exact hle j.val j.isLt c
    · rw [← hc0, hv ⟨j0, hj0⟩ c0]
      exact le_trans
        (Finset.le_sup (f := fun c : Fin K => w ⟨j0 * K + c.val, reblock_lt ⟨j0, hj0⟩ c⟩)
          (Finset.mem_univ c0))
        (Finset.le_sup (f := fun j : Fin B => Finset.univ.sup fun c : Fin K =>
          w ⟨j.val * K + c.val, reblock_lt j c⟩) (Finset.mem_univ ⟨j0, hj0⟩))
  refine ⟨M, L, hL, hMw, h1, ?_, h3⟩
  rw [h2, sum_reblock (fun i => Ideal.exp (w i - (M : EReal))),
    Finset.sum_range (fun j => ∑ c, Ideal.exp (v j c - (M : EReal)))]
  refine Finset.sum_congr rfl fun j _ => Finset.sum_congr rfl fun c _ => ?_
  rw [hv j c]

/-- `8192 = 8 · 1024`: the online computation over eight blocks of `1024` against the one-pass one. -/
theorem run_eq_onepass_8_1024 (w : Fin 8192 → EReal) (v : ℕ → Fin 1024 → EReal)
    (hv : ∀ (j : Fin 8) (c : Fin 1024), v j.val c = w ⟨j.val * 1024 + c.val, by omega⟩)
    (htop : ∀ i, w i ≠ ⊤)
    (hbot : ∀ j : Fin 8, ∃ c : Fin 1024, w ⟨j.val * 1024 + c.val, by omega⟩ ≠ ⊥) :
    ∃ Mw L : ℝ, 0 < L ∧ Finset.univ.fold max ⊥ w = (Mw : EReal) ∧
      (run v 8).1 = (Mw : EReal) ∧
      (run v 8).2 = ∑ i, Ideal.exp (w i - (Mw : EReal)) ∧
      (run v 8).2 = (L : EReal) :=
  run_eq_onepass (B := 8) (K := 1024) (by norm_num) w v hv htop hbot

end OnlineSoftmax
-- ==== Proof.LibOnlineAttention.lean ====
import Mathlib
import Idealize.ShloMosaic.PureOps.Ideal
import proofs.«151722_j14164802142301_2_alg».proof.Proof.LibOnlineSoftmax

/-!
# The online softmax with a weighted accumulator, over the extended reals

A row of real scores `w` and a row of real values `y` are read block by block.  Beside the running
maximum `m` and the running sum `l = ∑ e^(w - m)` of the online softmax, a third component carries
the weighted sum `a = ∑ e^(w - m) · y` over the entries read so far.  Reading one more block with
block maximum `b` replaces `m` by `m' = max m b`, rescales both `l` and `a` by `e^(m - m')` and adds
the new block's terms `e^(w - m')` and `e^(w - m') · y`.

This file proves that after all blocks are read, `a · (1 / l)` is the one-pass softmax-weighted sum
`∑ (e^(w i - M) / ∑ e^(w i' - M)) · y i` with `M` the maximum of the whole row.  The facts behind it:

* the first two components are the online softmax itself, so they end in `M` and `L = ∑ e^(w - M)`,
  a positive real;
* the rescaling `e^(M - M') · e^(x - M) = e^(x - M')` applies termwise to the weighted sum as it does
  to the plain one, so the accumulator ends in `∑ e^(w i - M) · y i`, a real;
* over the reals, `(∑ eᵢ · yᵢ) · (1 / L) = ∑ (eᵢ · (1 / L)) · yᵢ`, and dividing by a nonzero real is
  multiplying by its reciprocal.

It also holds small facts about sums of products of reals seen as extended reals, and the values of
three bit patterns.
-/

namespace OnlineAttention

open Idealize.ShloMosaic
open OnlineSoftmax
open scoped BigOperators

/-! ## The online update with an accumulator -/

/-- One online update of `(m, l, a)`: the new maximum `m'` is the old one joined with the block's;
    the old sum `l` and the old weighted sum `a` are rescaled by `e^(m - m')`; the block's terms
    `e^(x - m')` are added to `l` and its weighted terms `e^(x - m') · u` to `a`. -/
noncomputable def step3 {K : ℕ} (v u : Fin K → EReal) (s : EReal × EReal × EReal) :
    EReal × EReal × EReal :=
  let m' := max s.1 (Finset.univ.fold max ⊥ v)
  (m', Ideal.exp (s.1 - m') * s.2.1 + ∑ c, Ideal.exp (v c - m'),
    Ideal.exp (s.1 - m') * s.2.2 + ∑ c, Ideal.exp (v c - m') * u c)

/-- The state after `n` blocks, from the start state `(⊥, 0, 0)`. -/
noncomputable def run3 {K : ℕ} (v u : ℕ → Fin K → EReal) : ℕ → EReal × EReal × EReal
  | 0 => (⊥, 0, 0)
  | n + 1 => step3 (v n) (u n) (run3 v u n)

/-- Before any block the state is `(⊥, 0, 0)`. -/
@[simp] theorem run3_zero {K : ℕ} (v u : ℕ → Fin K → EReal) : run3 v u 0 = (⊥, 0, 0) := rfl

/-- The state after `n + 1` blocks is one update of the state after `n`. -/
@[simp] theorem run3_succ {K : ℕ} (v u : ℕ → Fin K → EReal) (n : ℕ) :
    run3 v u (n + 1) = step3 (v n) (u n) (run3 v u n) := rfl

/-- The new maximum of one update. -/
theorem step3_fst {K : ℕ} (v u : Fin K → EReal) (s : EReal × EReal × EReal) :
    (step3 v u s).1 = max s.1 (Finset.univ.fold max ⊥ v) := rfl

/-- The new accumulator of one update: it depends on the old maximum and the old accumulator only. -/
theorem step3_acc {K : ℕ} (v u : Fin K → EReal) (s : EReal × EReal × EReal) :
    (step3 v u s).2.2 =
      Ideal.exp (s.1 - max s.1 (Finset.univ.fold max ⊥ v)) * s.2.2 +
        ∑ c, Ideal.exp (v c - max s.1 (Finset.univ.fold max ⊥ v)) * u c := rfl

/-- The first two components of one update are the online softmax update of the first two
    components: the accumulator does not feed back into the maximum or the sum. -/
theorem step3_fst_snd {K : ℕ} (v u : Fin K → EReal) (s : EReal × EReal × EReal) :
    ((step3 v u s).1, (step3 v u s).2.1) = OnlineSoftmax.step v (s.1, s.2.1) := rfl

/-- The first two components of the run are the online softmax run, by induction on the number of
    blocks. -/
theorem run3_fst {K : ℕ} (v u : ℕ → Fin K → EReal) (n : ℕ) :
    ((run3 v u n).1, (run3 v u n).2.1) = OnlineSoftmax.run v n := by
  induction n with
  | zero => rfl
  | succ n ih => rw [run3_succ, OnlineSoftmax.run_succ, ← ih, step3_fst_snd]

/-- The accumulator after `n + 1` blocks, in real terms: the maximum is a real `M` and the
    accumulator is the real `∑ e^(x - M) · u` over all entries read.  By induction on `n`: from the
    start state `e^(⊥ - b) · 0 = 0` so the first block leaves its own weighted sum; a later block
    rescales the old weighted sum termwise by `e^(M - M') · e^(x - M) = e^(x - M')`. -/
theorem run3_acc_real {K : ℕ} (v u : ℕ → Fin K → EReal) (ur : ℕ → Fin K → ℝ) :
    ∀ n : ℕ, (∀ j < n + 1, ∀ c, v j c ≠ ⊤) → (∀ j < n + 1, ∃ c, v j c ≠ ⊥) →
    (∀ j < n + 1, ∀ c, u j c = (ur j c : EReal)) →
    ∃ M : ℝ, (run3 v u (n + 1)).1 = (M : EReal) ∧
      (run3 v u (n + 1)).2.2 =
        ((∑ j ∈ Finset.range (n + 1), ∑ c, expShift (v j c) M * ur j c : ℝ) : EReal) := by
  intro n
  induction n with
  | zero =>
    intro htop hbot hu
    obtain ⟨b, hb, -, -⟩ := exists_real_max (v 0) (htop 0 (by omega)) (hbot 0 (by omega))
    have hm : max (⊥ : EReal) (b : EReal) = (b : EReal) := max_eq_right bot_le
    refine ⟨b, ?_, ?_⟩
    · rw [run3_succ, step3_fst, run3_zero, hb, hm]
    · rw [run3_succ, step3_acc, run3_zero, hb, hm, mul_zero, zero_add, Finset.range_one,
        Finset.sum_singleton, coe_finset_sum]
      refine Finset.sum_congr rfl fun c _ => ?_
      rw [exp_sub_coe (htop 0 (by omega) c) b, hu 0 (by omega) c, EReal.coe_mul]
  | succ n ih =>
    intro htop hbot hu
    obtain ⟨M, hM1, hM2⟩ := ih (fun j hj => htop j (by omega)) (fun j hj => hbot j (by omega))
      (fun j hj => hu j (by omega))
    obtain ⟨b, hb, -, -⟩ :=
      exists_real_max (v (n + 1)) (htop (n + 1) (by omega)) (hbot (n + 1) (by omega))
    have hm : max (M : EReal) (b : EReal) = ((max M b : ℝ) : EReal) := (coe_max M b).symm
    refine ⟨max M b, ?_, ?_⟩
    · rw [run3_succ v u (n + 1), step3_fst, hM1, hb, hm]
    · have hsum : ∑ c, Ideal.exp (v (n + 1) c - ((max M b : ℝ) : EReal)) * u (n + 1) c =
          ((∑ c, expShift (v (n + 1) c) (max M b) * ur (n + 1) c : ℝ) : EReal) := by
        rw [coe_finset_sum]
        refine Finset.sum_congr rfl fun c _ => ?_
        rw [exp_sub_coe (htop (n + 1) (by omega) c), hu (n + 1) (by omega) c, EReal.coe_mul]
      rw [run3_succ v u (n + 1), step3_acc, hM1, hM2, hb, hm, ← EReal.coe_sub, Ideal.exp_coe,
        ← EReal.coe_mul, hsum, ← EReal.coe_add]
      congr 1
      rw [Finset.sum_range_succ _ (n + 1), Finset.mul_sum]
      congr 1
      refine Finset.sum_congr rfl fun j _ => ?_
      rw [Finset.mul_sum]
      refine Finset.sum_congr rfl fun c _ => ?_
      rw [← mul_assoc, exp_mul_expShift]

/-- The same after `n ≥ 1` blocks. -/
theorem run3_acc {K : ℕ} (v u : ℕ → Fin K → EReal) (ur : ℕ → Fin K → ℝ) (n : ℕ) (hn : 1 ≤ n)
    (htop : ∀ j < n, ∀ c, v j c ≠ ⊤) (hbot : ∀ j < n, ∃ c, v j c ≠ ⊥)
    (hu : ∀ j < n, ∀ c, u j c = (ur j c : EReal)) :
    ∃ M : ℝ, (run3 v u n).1 = (M : EReal) ∧
      (run3 v u n).2.2 =
        ((∑ j ∈ Finset.range n, ∑ c, expShift (v j c) M * ur j c : ℝ) : EReal) := by
  obtain ⟨m, rfl⟩ : ∃ m, n = m + 1 := ⟨n - 1, by omega⟩
  exact run3_acc_real v u ur m htop hbot hu

/-! ## The blocked computation against the one-pass softmax-weighted sum -/

/-- **Online attention is one-pass attention.**  Let `w` be a row of `B · K` real scores and `y` a row
    of `B · K` real values, read as `B ≥ 1` blocks of `K ≥ 1`: `v j c = w (j · K + c)` and
    `u j c = y (j · K + c)`.  With `M` the real maximum of `w` and `L = ∑ e^(w i - M) > 0`, the online
    computation ends in `(M, L, ∑ e^(w i - M) · y i)`, so its accumulator times `1 / L` is
    `(∑ eᵢ · yᵢ) · (1 / L) = ∑ (eᵢ / L) · yᵢ`, the softmax-weighted sum of `y`; all of it real
    arithmetic, division by the nonzero real `L` being multiplication by `1 / L`. -/
theorem run3_final {B K : ℕ} (hB : 1 ≤ B) (hK : 1 ≤ K) (w : Fin (B * K) → EReal)
    (y : Fin (B * K) → EReal) (v u : ℕ → Fin K → EReal)
    (hv : ∀ (j : Fin B) (c : Fin K), v j.val c = w ⟨j.val * K + c.val, OnlineSoftmax.reblock_lt j c⟩)
    (hu : ∀ (j : Fin B) (c : Fin K), u j.val c = y ⟨j.val * K + c.val, OnlineSoftmax.reblock_lt j c⟩)
    (hw : ∀ i, ∃ r : ℝ, w i = (r : EReal)) (hy : ∀ i, ∃ r : ℝ, y i = (r : EReal)) :
    (run3 v u B).2.2 * Ideal.div 1 (run3 v u B).2.1
      = ∑ i : Fin (B * K), Ideal.div (Ideal.exp (w i - Finset.univ.fold max ⊥ w))
          (∑ i', Ideal.exp (w i' - Finset.univ.fold max ⊥ w)) * y i := by
  choose wr hwr using hw
  choose yr hyr using hy
  have htop : ∀ i, w i ≠ ⊤ := fun i => by rw [hwr i]; exact EReal.coe_ne_top _
  have hbotw : ∀ i, w i ≠ ⊥ := fun i => by rw [hwr i]; exact EReal.coe_ne_bot _
  have hbot : ∀ j : Fin B, ∃ c : Fin K, w ⟨j.val * K + c.val, reblock_lt j c⟩ ≠ ⊥ :=
    fun j => ⟨⟨0, hK⟩, hbotw _⟩
  -- the maximum and the sum: the online softmax against the one-pass one
  obtain ⟨Mw, L, hL, hfold, h1, h2, h3⟩ := run_eq_onepass hB w v hv htop hbot
  have hfs := run3_fst v u B
  have h1' : (run3 v u B).1 = (Mw : EReal) := by rw [← h1, ← hfs]
  have h3' : (run3 v u B).2.1 = (L : EReal) := by rw [← h3, ← hfs]
  have hsumL : ∑ i, Ideal.exp (w i - (Mw : EReal)) = (L : EReal) := h2.symm.trans h3
  -- the accumulator
  have htop' : ∀ j < B, ∀ c, v j c ≠ ⊤ := fun j hj c => by rw [hv ⟨j, hj⟩ c]; exact htop _
  have hbot' : ∀ j < B, ∃ c, v j c ≠ ⊥ := fun j hj =>
    ⟨⟨0, hK⟩, by rw [hv ⟨j, hj⟩ ⟨0, hK⟩]; exact hbotw _⟩
  have hu' : ∀ j < B, ∀ c, u j c = (((fun j c => (u j c).toReal) j c : ℝ) : EReal) :=
    fun j hj c => by
      show u j c = (((u j c).toReal : ℝ) : EReal)
      rw [hu ⟨j, hj⟩ c, hyr, EReal.toReal_coe]
  obtain ⟨M, hM1, hM2⟩ := run3_acc v u (fun j c => (u j c).toReal) B hB htop' hbot' hu'
  have hMM : M = Mw := EReal.coe_injective (hM1.symm.trans h1')
  subst hMM
  -- both sides as one real
  have hne : L ≠ 0 := hL.ne'
  rw [hM2, h3', Ideal.div_coe hne, one_mul, ← EReal.coe_mul, hfold, hsumL]
  have hterm : ∀ i, Ideal.div (Ideal.exp (w i - (M : EReal))) (L : EReal) * y i =
      ((expShift (w i) M * (1 / L) * yr i : ℝ) : EReal) := fun i => by
    rw [Ideal.div_coe hne, exp_sub_coe (htop i), hyr i, ← EReal.coe_mul, ← EReal.coe_mul]
  rw [Finset.sum_congr rfl fun i _ => hterm i, ← coe_finset_sum]
  congr 1
  rw [sum_reblock (fun i => expShift (w i) M * (1 / L) * yr i),
    Finset.sum_range (fun j => ∑ c, expShift (v j c) M * (u j c).toReal), Finset.sum_mul]
  refine Finset.sum_congr rfl fun j _ => ?_
  rw [Finset.sum_mul]
  refine Finset.sum_congr rfl fun c _ => ?_
  rw [hv j c, hu j c, hyr, EReal.toReal_coe]
  ring

/-- `8192 = 16 · 512`: the online computation over sixteen blocks of `512` against the one-pass
    softmax-weighted sum over `Fin 8192`. -/
theorem run3_final_16_512 (w y : Fin 8192 → EReal) (v u : ℕ → Fin 512 → EReal)
    (hv : ∀ (j : Fin 16) (c : Fin 512), v j.val c = w ⟨j.val * 512 + c.val, by omega⟩)
    (hu : ∀ (j : Fin 16) (c : Fin 512), u j.val c = y ⟨j.val * 512 + c.val, by omega⟩)
    (hw : ∀ i, ∃ r : ℝ, w i = (r : EReal)) (hy : ∀ i, ∃ r : ℝ, y i = (r : EReal)) :
    (run3 v u 16).2.2 * Ideal.div 1 (run3 v u 16).2.1
      = ∑ i : Fin 8192, Ideal.div (Ideal.exp (w i - Finset.univ.fold max ⊥ w))
          (∑ i', Ideal.exp (w i' - Finset.univ.fold max ⊥ w)) * y i :=
  run3_final (B := 16) (K := 512) (by norm_num) (by norm_num) w y v u hv hu hw hy

/-! ## Sums of products of reals, seen as extended reals -/

/-- A finite sum of products of reals is a real: the coercion commutes with products and finite
    sums. -/
theorem real_sum_mul {C : ℕ} (x w : Fin C → EReal) (hx : ∀ c, ∃ r : ℝ, x c = r)
    (hw : ∀ c, ∃ r : ℝ, w c = r) : ∃ r : ℝ, ∑ c, x c * w c = r := by
  choose xr hxr using hx
  choose wr hwr using hw
  refine ⟨∑ c, xr c * wr c, ?_⟩
  rw [coe_finset_sum]
  refine Finset.sum_congr rfl fun c _ => ?_
  rw [hxr c, hwr c, EReal.coe_mul]

/-- A real scale factor on one side of a double contraction comes out in front:
    `∑_d (∑_c x_c · (wq_{d c} · s)) · k_d = s · ∑_d (∑_c x_c · wq_{d c}) · k_d`, for reals, by
    commutativity, associativity and distributivity of real arithmetic. -/
theorem scale_fold {C D : ℕ} (x : Fin C → EReal) (wq : Fin D → Fin C → EReal) (k : Fin D → EReal)
    (s : EReal) (hx : ∀ c, ∃ r : ℝ, x c = r) (hwq : ∀ d c, ∃ r : ℝ, wq d c = r)
    (hk : ∀ d, ∃ r : ℝ, k d = r) (hs : ∃ r : ℝ, s = r) :
    ∑ d, (∑ c, x c * (wq d c * s)) * k d = s * ∑ d, (∑ c, x c * wq d c) * k d := by
  choose xr hxr using hx
  choose wqr hwqr using hwq
  choose kr hkr using hk
  obtain ⟨sr, rfl⟩ := hs
  have hl : ∀ d, (∑ c, x c * (wq d c * (sr : EReal))) * k d =
      (((∑ c, xr c * (wqr d c * sr)) * kr d : ℝ) : EReal) := fun d => by
    rw [EReal.coe_mul, coe_finset_sum, hkr d]
    congr 1
    refine Finset.sum_congr rfl fun c _ => ?_
    rw [hxr c, hwqr d c, EReal.coe_mul, EReal.coe_mul]
  have hr : ∀ d, (∑ c, x c * wq d c) * k d =
      (((∑ c, xr c * wqr d c) * kr d : ℝ) : EReal) := fun d => by
    rw [EReal.coe_mul, coe_finset_sum, hkr d]
    congr 1
    refine Finset.sum_congr rfl fun c _ => ?_
    rw [hxr c, hwqr d c, EReal.coe_mul]
  rw [Finset.sum_congr rfl fun d _ => hl d, Finset.sum_congr rfl fun d _ => hr d,
    ← coe_finset_sum, ← coe_finset_sum, ← EReal.coe_mul]
  congr 1
  rw [Finset.mul_sum]
  refine Finset.sum_congr rfl fun d _ => ?_
  rw [← mul_assoc, Finset.mul_sum, Finset.sum_mul, Finset.sum_mul]
  refine Finset.sum_congr rfl fun c _ => ?_
  ring

/-! ## Three bit patterns -/

/-- The single-precision pattern `0x41800000` (sign `0`, exponent `131`, fraction `0`) denotes
    `2^(131 - 127) = 16`. -/
theorem ofBits_16 : Ideal.ofBits .f32 0x41800000#32 = ((16 : ℝ) : EReal) := by
  simp [Ideal.ofBits, Ideal.ieee, -EReal.coe_mul]; norm_num

/-- The single-precision pattern `0x3F800000` (sign `0`, exponent `127`, fraction `0`) denotes `1`. -/
theorem ofBits_one : Ideal.ofBits .f32 0x3F800000#32 = 1 := by
  simp [Ideal.ofBits, Ideal.ieee, -EReal.coe_mul]; norm_num

/-- The single-precision pattern `0xFF800000` (sign `1`, exponent all ones, fraction `0`) denotes
    `-∞`. -/
theorem ofBits_neg_inf : Ideal.ofBits .f32 0xFF800000#32 = ⊥ := by
  simp [Ideal.ofBits, Ideal.ieee]

end OnlineAttention
-- ==== Proof.KI.R1Step.lean ====
/-
  One point of the flash-attention region, read at a row and a column over the extended reals: the three values the
  body leaves in the scratch arrays are ONE online-softmax update of the values it found there, over the row's 512
  scores against the key block and the value block's column.  And the per-row sequences the sixteen updates run over:
  row `i` of the queries against key block `ki`, and column `d` of value block `ki`.
-/
import proofs.«151722_j14164802142301_2_alg».proof.Proof.KI.Payloads
import proofs.«151722_j14164802142301_2_alg».proof.Proof.LibOnlineAttention
import Idealize.ShloMosaic.Lib.ValueIdx

noncomputable section

namespace Cert.KernelIdeal.R1V

open Idealize.ShloMosaic ValueIdx Cert.KernelIdeal Cert.KernelIdeal.Gen OnlineAttention

/-- The online update, at row `r` and column `d` of a point: the new running maximum, running sum and accumulator
    entry are `step3` of the old ones, over the scores `∑ q·k` of the row against the key block's 512 rows and the value
    block's column. -/
theorem step_eq (q : Vec Ideal S1024x256 .f32) (k : Vec Ideal S512x256 .f32) (vb : Vec Ideal S512x256 .bf16)
    (m l : Vec Ideal S1024x1 .f32) (acc : Vec Ideal S1024x256 .f32) (r : Fin 1024) (d : Fin 256) :
    ((k1_pay2 (F := Ideal) (k1_pay8 (F := Ideal) q k m) (ix2 r (0 : Fin 1)),
      k1_pay11 (F := Ideal) q k m m l (ix2 r (0 : Fin 1)),
      k1_pay1 (F := Ideal) (k1_pay12 (F := Ideal) q k m m vb acc) (ix2 r d)) : EReal × EReal × EReal)
    = step3 (fun c : Fin 512 => ∑ d' : Fin 256, q (ix2 r d') * k (ix2 c d')) (fun c : Fin 512 => vb (ix2 c d))
        (m (ix2 r (0 : Fin 1)), l (ix2 r (0 : Fin 1)), acc (ix2 r d)) := by
  rw [Pay.pay1_2, Pay.pay1_1, Pay.pay1_11, Pay.pay1_12, Pay.pay1_9, Pay.pay1_8]
  simp only [Pay.pay1_10, Pay.pay1_8, Pay.pay1_7, step3]

/-- Row `c` of key (or value) block `ki` as a row of the whole 8192-row array. -/
def kidx (ki : ℕ) (c : Fin 512) : Fin 8192 :=
  ⟨(ki % 16) * 512 + c.val, by have := c.isLt; have := Nat.mod_lt ki (by norm_num : 0 < 16); omega⟩

/-- Its position: key block `ki mod 16`, row `c` of the block. -/
theorem kidx_val (ki : ℕ) (c : Fin 512) : (kidx ki c).val = (ki % 16) * 512 + c.val := rfl

/-- The scores of query row `i` against key block `ki`. -/
def vrow (Q K : S8192x256.Idx → EReal) (i : Fin 8192) (ki : ℕ) (c : Fin 512) : EReal :=
  ∑ d' : Fin 256, Q (ix2 i d') * K (ix2 (kidx ki c) d')

/-- Column `d` of value block `ki`. -/
def ucol (Vv : S8192x256.Idx → EReal) (d : Fin 256) (ki : ℕ) (c : Fin 512) : EReal :=
  Vv (ix2 (kidx ki c) d)

/-- The region's result at row `i`, column `d`: the accumulator after the sixteen updates times the reciprocal of the
    running sum. -/
def flash (Q K Vv : S8192x256.Idx → EReal) (i : Fin 8192) (d : Fin 256) : EReal :=
  (run3 (vrow Q K i) (ucol Vv d) 16).2.2
    * Ideal.div (Ideal.ofBits .f32 0x3F800000#32) (run3 (vrow Q K i) (ucol Vv d) 16).2.1

/-- The same as one function on the result array's indices. -/
def Flash (Q K Vv : S8192x256.Idx → EReal) : S8192x256.Idx → EReal :=
  fun idx => flash Q K Vv ⟨(idx 0).val, (idx 0).isLt⟩ ⟨(idx 1).val, (idx 1).isLt⟩

/-- At an index built from its coordinates the array function is the entry function. -/
theorem Flash_apply (Q K Vv : S8192x256.Idx → EReal) (i : Fin 8192) (d : Fin 256) :
    Flash Q K Vv (ix2 i d) = flash Q K Vv i d := rfl

end Cert.KernelIdeal.R1V

end
-- ==== Proof.KI.R1Final.lean ====
/-
  The flash-attention region's result array in closed form over the extended reals.  By induction over the grid's
  points in order, after point `n` the three scratch arrays hold — at a row and a column — the online-softmax state
  after the first `n % 16 + 1` key blocks of that row: at key block 0 the state is restarted from (-∞, 0, 0), at a later
  key block it is one more update of what the point before left.  At key block 15 the stored output entry is the
  accumulator times the reciprocal of the running sum; these blocks cover the result array.
-/
import proofs.«151722_j14164802142301_2_alg».proof.Proof.KI.R1Pieces
import proofs.«151722_j14164802142301_2_alg».proof.Proof.KI.R1Blocks
import proofs.«151722_j14164802142301_2_alg».proof.Proof.KI.R1Step

set_option maxRecDepth 16384

noncomputable section

namespace Cert.KernelIdeal.R1V

open Idealize.ShloMosaic ValueIdx TcCoe Cert.KernelIdeal Cert.KernelIdeal.Gen Cert.KernelIdeal.R1 OnlineAttention
open Idealize.SL.Sem

variable (V : (c : Dev nD) → (b : Ref sig .tc) → Buf (Elt Ideal) ((c : Thread nD τ).loc b))

/-- The query, key and value blocks the body finds at point `t`. -/
abbrev qb (c : Dev nD) (t : Fin cfg1.N) : Vec Ideal S1024x256 .f32 := iblk1 V c 0 t
abbrev kb (c : Dev nD) (t : Fin cfg1.N) : Vec Ideal S512x256 .f32 := iblk1 V c 1 t
abbrev vbk (c : Dev nD) (t : Fin cfg1.N) : Vec Ideal S512x256 .bf16 := iblk1 V c 2 t

/-- The three scratch entries at a row and a column after point `n`, as one triple. -/
def stAt (c : Dev nD) (n : ℕ) (h : n < cfg1.N) (r : Fin 1024) (d : Fin 256) : EReal × EReal × EReal :=
  (((outsAt1 V c n h).2.1 : Vec Ideal S1024x1 .f32) (ix2 r (0 : Fin 1)),
   ((outsAt1 V c n h).2.2.1 : Vec Ideal S1024x1 .f32) (ix2 r (0 : Fin 1)),
   ((outsAt1 V c n h).2.2.2 : Vec Ideal S1024x256 .f32) (ix2 r d))

/-- A key block's row depends on the point only through its key tile, `n` mod 16. -/
theorem kidx_mod (n : ℕ) (cc : Fin 512) : kidx (n % 16) cc = kidx n cc := by
  apply Fin.ext; simp only [kidx_val, Nat.mod_mod]

/-- The scores and the value column the body sees at point `t`, row `r`, column `d`, are those of row `i` of the
    whole arrays against key block `t % 16`. -/
theorem blocks_eq (c : Dev nD) (t : Fin cfg1.N) (r : Fin 1024) (d : Fin 256) (i : Fin 8192) (hi : i.val = (t.val / 16) * 1024 + r.val) :
    (fun cc : Fin 512 => ∑ d' : Fin 256, qb V c t (ix2 r d') * kb V c t (ix2 cc d'))
      = vrow (V c main_v6_0) (V c main_v6_1) i (t.val % 16)
    ∧ (fun cc : Fin 512 => vbk V c t (ix2 cc d)) = ucol (V c main_v6_2) d (t.val % 16) := by
  constructor
  · funext cc
    unfold vrow
    refine Finset.sum_congr rfl fun d' _ => ?_
    exact congrArg₂ (· * ·) (iblk1_0_apply V c t r d' i hi) (iblk1_1_apply V c t cc d' (kidx (t.val % 16) cc) (by rw [kidx_val, Nat.mod_mod]))
  · funext cc
    unfold ucol
    exact iblk1_2_apply V c t cc d (kidx (t.val % 16) cc) (by rw [kidx_val, Nat.mod_mod])

/-- THE RECURRENCE. After point `n` the scratch arrays hold, at row `r` (row `i` of the whole arrays) and column `d`, the
    online-softmax state after the first `n % 16 + 1` key blocks. -/
theorem scratch_eq (c : Dev nD) : ∀ (n : ℕ) (h : n < cfg1.N) (r : Fin 1024) (d : Fin 256) (i : Fin 8192), i.val = (n / 16) * 1024 + r.val →
    stAt V c n h r d = run3 (vrow (V c main_v6_0) (V c main_v6_1) i) (ucol (V c main_v6_2) d) (n % 16 + 1) := by
  intro n
  induction n with
  | zero =>
    intro h r d i hi
    obtain ⟨hb1, hb2⟩ := blocks_eq V c ⟨0, h⟩ r d i hi
    unfold stAt
    rw [outsAt1_A V c ⟨0, h⟩ rfl (by dsimp only; omega)]
    dsimp only
    rw [sout1_A_0_eq, sout1_A_1_eq, sout1_A_2_eq]
    refine (step_eq _ _ _ _ _ _ r d).trans ?_
    rw [hb1, hb2, Pay.pay1_4, Pay.pay1_5, Pay.pay1_6]
    rfl
  | succ k ih =>
    intro h r d i hi
    have hN : k + 1 < 128 := lt_of_lt_of_eq h (show cfg1.N = 128 from N_1)
    obtain ⟨hb1, hb2⟩ := blocks_eq V c ⟨k + 1, h⟩ r d i hi
    by_cases h0 : (k + 1) % 16 = 0
    · unfold stAt
      rw [outsAt1_A V c ⟨k + 1, h⟩ h0 (by dsimp only; omega)]
      dsimp only
      rw [sout1_A_0_eq, sout1_A_1_eq, sout1_A_2_eq]
      refine (step_eq _ _ _ _ _ _ r d).trans ?_
      rw [hb1, hb2, Pay.pay1_4, Pay.pay1_5, Pay.pay1_6]
      rw [h0]
      rfl
    · have hk : (k + 1) % 16 = k % 16 + 1 := by omega
      have hq : (k + 1) / 16 = k / 16 := by omega
      have ihk := ih (Nat.lt_of_succ_lt h) r d i (by rw [hi, hq])
      unfold stAt at ihk
      by_cases h1 : (k + 1) % 16 = 15
      · unfold stAt
        rw [outsAt1_C V c ⟨k + 1, h⟩ h0 h1]
        dsimp only
        rw [sout1_C_0_eq, sout1_C_1_eq, sout1_C_2_eq]
        refine (step_eq _ _ _ _ _ _ r d).trans ?_
        rw [hb1, hb2]
        show step3 _ _ (((outsAt1 V c k _).2.1 : Vec Ideal S1024x1 .f32) (ix2 r (0 : Fin 1)), ((outsAt1 V c k _).2.2.1 : Vec Ideal S1024x1 .f32) (ix2 r (0 : Fin 1)), ((outsAt1 V c k _).2.2.2 : Vec Ideal S1024x256 .f32) (ix2 r d)) = _
        rw [ihk, hk]
        rfl
      · unfold stAt
        rw [outsAt1_B V c ⟨k + 1, h⟩ h0 h1]
        dsimp only
        rw [sout1_B_0_eq, sout1_B_1_eq, sout1_B_2_eq]
        refine (step_eq _ _ _ _ _ _ r d).trans ?_
        rw [hb1, hb2]
        show step3 _ _ (((outsAt1 V c k _).2.1 : Vec Ideal S1024x1 .f32) (ix2 r (0 : Fin 1)), ((outsAt1 V c k _).2.2.1 : Vec Ideal S1024x1 .f32) (ix2 r (0 : Fin 1)), ((outsAt1 V c k _).2.2.2 : Vec Ideal S1024x256 .f32) (ix2 r d)) = _
        rw [ihk, hk]
        rfl

/-- At the last key block the stored output entry is the region's result at that row and column. -/
theorem after3_eq (c : Dev nD) (t : Fin cfg1.N) (h15 : t.val % 16 = 15) (r : Fin 1024) (d : Fin 256) (i : Fin 8192)
    (hi : i.val = (t.val / 16) * 1024 + r.val) :
    ((dat1 (F := Ideal) V c).after 3 t : Vec Ideal S1024x256 .f32) (ix2 r d)
      = Flash (V c main_v6_0) (V c main_v6_1) (V c main_v6_2) (ix2 i d) := by
  have h0 : ¬t.val % 16 = 0 := by omega
  have hs := scratch_eq V c t.val t.isLt r d i hi
  unfold stAt at hs
  rw [outsAt1_C V c t h0 h15] at hs
  dsimp only at hs
  rw [sout1_C_0_eq, sout1_C_1_eq, sout1_C_2_eq, h15] at hs
  have h2 := congrArg (fun s : EReal × EReal × EReal => s.2.1) hs
  have h3 := congrArg (fun s : EReal × EReal × EReal => s.2.2) hs
  dsimp only at h2 h3
  rw [after1_3, outsAt1_C V c t h0 h15]
  dsimp only
  rw [out1_C_3_eq]
  refine (Pay.pay1_3 _ _ r d).trans ?_
  rw [Flash_apply]
  unfold flash
  rw [h2, h3]

/-- THE RESULT ARRAY of the region: at every row and column, the online-softmax accumulator over the row's sixteen key
    blocks times the reciprocal of its running sum. -/
theorem arrAt1_3 (c : Dev nD) :
    (dat1 (F := Ideal) V c).arrAt 3 cfg1.N = Flash (V c main_v6_0) (V c main_v6_1) (V c main_v6_2) :=
  arrAt3_of V c _ fun t h15 r d i hi => after3_eq V c t h15 r d i hi

end Cert.KernelIdeal.R1V

end
-- ==== Proof.RefSpec.lean ====
import proofs.«151722_j14164802142301_2_alg».proof.Defs
import proofs.«151722_j14164802142301_2_alg».proof.Proof.Gen.ReferenceIdeal
import proofs.«151722_j14164802142301_2_alg».proof.Proof.Gen.Pre_finite_inputs
import proofs.«151722_j14164802142301_2_alg».proof.Proof.Gen.ReferenceIdeal.Read
import Idealize.ShloMosaic.Lib.ValueIdx
import Idealize.ShloMosaic.PureOps.Ideal.Laws
import Idealize.ShloMosaic.PureOps.Reduce

noncomputable section

namespace Cert.RefSpec

open Idealize.ShloMosaic Idealize.ShloMosaic.ValueIdx Idealize.ShloMosaic.TcCoe Idealize.SL.Sem
open Cert.ReferenceIdeal Cert.ReferenceIdeal.Gen Cert.ReferenceIdeal.Read
open scoped BigOperators

/-!
# The reference program computes the softmax attention of the three projections

The specification `G`: entry (i, d) of the result is ∑_j softmax_j(16·⟨q_i, k_j⟩)·v_{j d}, with q, k, v the projections of
x by the three weights, the row maximum a fold from −∞ and the normaliser the row sum of the exponentials.  Each stage of
the reference is read at an index, its last stage is `G` of the four argument arrays, and so the reference's run ends with
its result at `G` of the launch contents, the arguments unchanged.
-/

/-! ## The specification: softmax attention of the three projections, index by index -/

/-- A projection: row i of x against row d of the weight (the weight enters transposed). -/
def proj (x : S8192x1024.Idx → EReal) (w : S256x1024.Idx → EReal) (i : Fin 8192) (d : Fin 256) : EReal :=
  ∑ c : Fin 1024, x (ix2 i c) * w (ix2 d c)

/-- The scaled score of query row i against key row j. -/
def score (x : S8192x1024.Idx → EReal) (wq wk : S256x1024.Idx → EReal) (i j : Fin 8192) : EReal :=
  (Ideal.ofBits .f32 0x41800000#32 : EReal) * ∑ d : Fin 256, proj x wq i d * proj x wk j d

/-- The maximum of row i of the scores, folded from −∞. -/
def rowMax (x : S8192x1024.Idx → EReal) (wq wk : S256x1024.Idx → EReal) (i : Fin 8192) : EReal :=
  (Finset.univ : Finset (Fin 8192)).fold max ⊥ (fun j => score x wq wk i j)

/-- The normaliser of row i: the sum over the row of the exponentials of the scores less the row's maximum. -/
def rowSum (x : S8192x1024.Idx → EReal) (wq wk : S256x1024.Idx → EReal) (i : Fin 8192) : EReal :=
  ∑ j : Fin 8192, Ideal.exp (score x wq wk i j - rowMax x wq wk i)

/-- The result at row i, column d: the softmax weights of row i against column d of the values. -/
def out (x : S8192x1024.Idx → EReal) (wq wk wv : S256x1024.Idx → EReal) (i : Fin 8192) (d : Fin 256) : EReal :=
  ∑ j : Fin 8192, Ideal.div (Ideal.exp (score x wq wk i j - rowMax x wq wk i)) (rowSum x wq wk i) * proj x wv j d

/-- The whole result array: entry (i, d) is the result at row i, column d. -/
def G (x : S8192x1024.Idx → EReal) (wq wk wv : S256x1024.Idx → EReal) : S8192x256.Idx → EReal :=
  fun idx => out x wq wk wv ⟨(idx 0).val, (idx 0).isLt⟩ ⟨(idx 1).val, (idx 1).isLt⟩

/-- At an index built from its coordinates, G is the softmax-weighted sum over the key rows. -/
theorem G_apply (x : S8192x1024.Idx → EReal) (wq wk wv : S256x1024.Idx → EReal) (i : Fin 8192) (d : Fin 256) :
    G x wq wk wv (ix2 i d) = ∑ j : Fin 8192, Ideal.div (Ideal.exp (score x wq wk i j - rowMax x wq wk i)) (rowSum x wq wk i) * proj x wv j d := rfl

/-! ## The reference's stages at an index

Each stage of the reference reads its operands at indices computed from the result's index; at an index built from its
coordinates those are again indices built from coordinates (a transpose swaps the two, a contraction puts the summed
coordinate on the contracted axis, a broadcast drops the new axis). -/

variable (x0 : S8192x1024.Idx → EReal) (x1 x2 x3 : S256x1024.Idx → EReal)

theorem lidx1 (i : Fin 8192) (d : Fin 256) (k : Fin 1024) : lidx_main_v1 (ix2 i d) k = ix2 i k :=
  funext fun a => by match a with | ⟨0, _⟩ => rfl | ⟨1, _⟩ => rfl
theorem ridx1 (i : Fin 8192) (d : Fin 256) (k : Fin 1024) : idx_main_v0 (ridx_main_v1 (ix2 i d) k) = ix2 d k :=
  funext fun a => by match a with | ⟨0, _⟩ => rfl | ⟨1, _⟩ => rfl
theorem lidx3 (i : Fin 8192) (d : Fin 256) (k : Fin 1024) : lidx_main_v3 (ix2 i d) k = ix2 i k :=
  funext fun a => by match a with | ⟨0, _⟩ => rfl | ⟨1, _⟩ => rfl
theorem ridx3 (i : Fin 8192) (d : Fin 256) (k : Fin 1024) : idx_main_v2 (ridx_main_v3 (ix2 i d) k) = ix2 d k :=
  funext fun a => by match a with | ⟨0, _⟩ => rfl | ⟨1, _⟩ => rfl
theorem lidx5 (i : Fin 8192) (d : Fin 256) (k : Fin 1024) : lidx_main_v5 (ix2 i d) k = ix2 i k :=
  funext fun a => by match a with | ⟨0, _⟩ => rfl | ⟨1, _⟩ => rfl
theorem ridx5 (i : Fin 8192) (d : Fin 256) (k : Fin 1024) : idx_main_v4 (ridx_main_v5 (ix2 i d) k) = ix2 d k :=
  funext fun a => by match a with | ⟨0, _⟩ => rfl | ⟨1, _⟩ => rfl
theorem lidx7 (i j : Fin 8192) (k : Fin 256) : lidx_main_v7 (ix2 i j) k = ix2 i k :=
  funext fun a => by match a with | ⟨0, _⟩ => rfl | ⟨1, _⟩ => rfl
theorem ridx7 (i j : Fin 8192) (k : Fin 256) : idx_main_v6 (ridx_main_v7 (ix2 i j) k) = ix2 j k :=
  funext fun a => by match a with | ⟨0, _⟩ => rfl | ⟨1, _⟩ => rfl
theorem idx14 (i j : Fin 8192) : idx_main_v13 (idx_main_v14 (ix2 i j)) = ix1 i :=
  funext fun a => by match a with | ⟨0, _⟩ => rfl
theorem idx17 (i k : Fin 8192) : idx_main_v17 (ix1 i) k = ix2 i k :=
  funext fun a => by match a with | ⟨0, _⟩ => rfl | ⟨1, _⟩ => rfl
theorem idx19 (i j : Fin 8192) : idx_main_v18 (idx_main_v19 (ix2 i j)) = ix1 i :=
  funext fun a => by match a with | ⟨0, _⟩ => rfl
theorem lidx21 (i : Fin 8192) (d : Fin 256) (k : Fin 8192) : lidx_main_v21 (ix2 i d) k = ix2 i k :=
  funext fun a => by match a with | ⟨0, _⟩ => rfl | ⟨1, _⟩ => rfl
theorem ridx21 (i : Fin 8192) (d : Fin 256) (k : Fin 8192) : ridx_main_v21 (ix2 i d) k = ix2 k d :=
  funext fun a => by match a with | ⟨0, _⟩ => rfl | ⟨1, _⟩ => rfl

/-- The query projection: x against the transposed first weight. -/
theorem v1_at (i : Fin 8192) (d : Fin 256) : val_main_v1 (F := Ideal) x0 x1 (ix2 i d) = proj x0 x1 i d := by
  rw [val_main_v1_apply]
  refine Finset.sum_congr rfl fun k _ => ?_
  rw [val_main_v0_apply, lidx1, ridx1]

/-- The key projection. -/
theorem v3_at (i : Fin 8192) (d : Fin 256) : val_main_v3 (F := Ideal) x0 x2 (ix2 i d) = proj x0 x2 i d := by
  rw [val_main_v3_apply]
  refine Finset.sum_congr rfl fun k _ => ?_
  rw [val_main_v2_apply, lidx3, ridx3]

/-- The value projection. -/
theorem v5_at (i : Fin 8192) (d : Fin 256) : val_main_v5 (F := Ideal) x0 x3 (ix2 i d) = proj x0 x3 i d := by
  rw [val_main_v5_apply]
  refine Finset.sum_congr rfl fun k _ => ?_
  rw [val_main_v4_apply, lidx5, ridx5]

/-- Queries against the transposed keys: the inner product of query row i and key row j. -/
theorem v7_at (i j : Fin 8192) :
    val_main_v7 (F := Ideal) x0 x1 x2 (ix2 i j) = ∑ d : Fin 256, proj x0 x1 i d * proj x0 x2 j d := by
  rw [val_main_v7_apply]
  refine Finset.sum_congr rfl fun k _ => ?_
  rw [val_main_v6_apply, lidx7, ridx7, v1_at, v3_at]

/-- The scaled scores. -/
theorem v9_at (i j : Fin 8192) : val_main_v9 (F := Ideal) x0 x1 x2 (ix2 i j) = score x0 x1 x2 i j := by
  rw [val_main_v9_apply, val_main_v8_apply, val_main_cst_apply, v7_at]
  rfl

/-- Dropping the second axis of a square array of side 8192 leaves its rows. -/
theorem reduces_d1 : S8192x8192.Reduces [1] S8192 := by decide

/-- Row i with column k put back is (i, k). -/
theorem lift_d1 (i : Fin 8192) (k : Fin (S8192x8192.size 1)) :
    reduces_d1.lift (ix1 i) k = ix2 i (⟨k.val, k.isLt⟩ : Fin 8192) := by
  funext c; apply Fin.ext
  fin_cases c <;> rfl

/-- A reduction by maximum along the rows of a square array is, at row i, the fold of the maximum over the row from the
    initial value. -/
theorem hostMax_row (y : S8192x8192.Idx → EReal) (init : S_.Idx → EReal) (h' : S8192x8192.ReducesTo [1] S8192)
    (hu : 0 < S_.numel) (i : Fin 8192) :
    Host.reduce (FloatOps.maximumf (F := Ideal) (φ := .f32)) y init h' hu (ix1 i)
      = (Finset.univ : Finset (Fin 8192)).fold max (init (Shape.Idx.first hu)) (fun j => y (ix2 i j)) := by
  rw [Host.reduce_eq_fold_single (FloatOps.maximumf (F := Ideal) (φ := .f32)) y init h' reduces_d1 hu]
  have hf : (y ∘ reduces_d1.lift (ix1 i)) = fun k : Fin 8192 => y (ix2 i k) :=
    funext fun k => congrArg y (lift_d1 i k)
  exact congrArg (fun f => Finset.fold max (init (Shape.Idx.first hu)) f (Finset.univ : Finset (Fin 8192))) hf

/-- The word of −∞ is the bottom extended real. -/
theorem ofBits_negInf : (Ideal.ofBits .f32 0xFF800000#32 : EReal) = ⊥ := by simp [Ideal.ofBits, Ideal.ieee]

/-- The row maximum as the reference reduces it. -/
theorem v10_at (i : Fin 8192) : val_main_v10 (F := Ideal) x0 x1 x2 (ix1 i) = rowMax x0 x1 x2 i := by
  unfold val_main_v10 rowMax
  rw [hostMax_row, val_main_cst_0_apply, Ideal.ofBits_def, ofBits_negInf]
  exact congrArg (fun f => Finset.fold max ⊥ f (Finset.univ : Finset (Fin 8192))) (funext fun j => v9_at x0 x1 x2 i j)

/-- The maximum with the broadcast −∞ changes nothing: −∞ is below every extended real. -/
theorem v12_at (i : Fin 8192) : val_main_v12 (F := Ideal) x0 x1 x2 (ix1 i) = rowMax x0 x1 x2 i := by
  rw [val_main_v12_apply, val_main_v11_apply, val_main_cst_1_apply, v10_at, Ideal.ofBits_def, Ideal.maximumf_def,
    ofBits_negInf]
  exact max_eq_right bot_le

/-- The row maximum broadcast back over the row. -/
theorem v14_at (i j : Fin 8192) : val_main_v14 (F := Ideal) x0 x1 x2 (ix2 i j) = rowMax x0 x1 x2 i := by
  rw [val_main_v14_apply, val_main_v13_apply, idx14, v12_at]

/-- The exponential of the score less the row's maximum. -/
theorem v16_at (i j : Fin 8192) :
    val_main_v16 (F := Ideal) x0 x1 x2 (ix2 i j) = Ideal.exp (score x0 x1 x2 i j - rowMax x0 x1 x2 i) := by
  rw [val_main_v16_apply, val_main_v15_apply, v9_at, v14_at]
  rfl

/-- The row's normaliser: the sum starts from the zero word, which adds nothing. -/
theorem v17_at (i : Fin 8192) : val_main_v17 (F := Ideal) x0 x1 x2 (ix1 i) = rowSum x0 x1 x2 i := by
  rw [val_main_v17_apply, val_main_cst_2_apply, Ideal.ofBits_def, Ideal.ofBits_zero_f32, zero_add]
  refine Finset.sum_congr rfl fun k _ => ?_
  rw [idx17, v16_at]

/-- The normaliser broadcast back over the row. -/
theorem v19_at (i j : Fin 8192) : val_main_v19 (F := Ideal) x0 x1 x2 (ix2 i j) = rowSum x0 x1 x2 i := by
  rw [val_main_v19_apply, val_main_v18_apply, idx19, v17_at]

/-- The softmax weight of key row j for query row i. -/
theorem v20_at (i j : Fin 8192) :
    val_main_v20 (F := Ideal) x0 x1 x2 (ix2 i j)
      = Ideal.div (Ideal.exp (score x0 x1 x2 i j - rowMax x0 x1 x2 i)) (rowSum x0 x1 x2 i) := by
  rw [val_main_v20_apply, v16_at, v19_at]
  rfl

/-- The weights against the values. -/
theorem v21_at (i : Fin 8192) (d : Fin 256) :
    val_main_v21 (F := Ideal) x0 x1 x2 x3 (ix2 i d) = out x0 x1 x2 x3 i d := by
  rw [val_main_v21_apply]
  refine Finset.sum_congr rfl fun k _ => ?_
  rw [lidx21, ridx21, v20_at, v5_at]

/-- THE REFERENCE IS THE SPECIFICATION: its last stage, as a function of the four argument arrays, is G of them. -/
theorem ref_eq : val_main_v21 (F := Ideal) x0 x1 x2 x3 = G x0 x1 x2 x3 := by
  funext idx
  obtain ⟨i, d, rfl⟩ : ∃ (i : Fin 8192) (d : Fin 256), idx = ix2 i d := ⟨idx 0, idx 1, eq_ix2 idx⟩
  exact v21_at x0 x1 x2 x3 i d

/-! ## The reference's run -/

/-- The reference runs and leaves its arguments unchanged. -/
theorem frame_ref : Cert.frame_ReferenceIdeal := fun m ρ _ =>
  (θ_run Cert.ReferenceIdeal.defs _ _).mono (fun _ h c => (h c).2) (Cert.ReferenceIdeal.Value.run (F := Ideal) m ρ)

/-- The reference's run ends with its result at G of the arguments' launch contents, the arguments unchanged. -/
theorem ref_run_G (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21)
            = G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v21_eq _ _ _ _).trans (ref_eq _ _ _ _)), (h c).2⟩)
    (Cert.ReferenceIdeal.Value.run (F := Ideal) m' g')

end Cert.RefSpec

end
-- ==== Proof.KI.RealAlg.lean ====
import Mathlib
import Idealize.ShloMosaic.PureOps.Ideal
import proofs.«151722_j14164802142301_2_alg».proof.Proof.LibOnlineAttention

/-!
# Real numbers inside the extended reals: closure under the arithmetic used

An extended real is *real* when it is the image of a real number, `∃ r : ℝ, x = r`.  The reals are
closed under sum, product, negation, difference and finite sums, because the inclusion `ℝ → EReal`
commutes with each of these.  A real is neither `+∞` nor `-∞`.  From these follow: a contraction
`∑ x · w` of real families is real, a product with the constant `16` is real, and a scaled score
`∑_d (∑_c x_c · (wq_{d c} · s)) · k_d` of real families is real.
-/

namespace RealAlg

open Idealize.ShloMosaic
open scoped BigOperators

/-- A real number, seen as an extended real, is real. -/
theorem real_coe (r : ℝ) : ∃ r' : ℝ, (r : EReal) = (r' : EReal) := ⟨r, rfl⟩

/-- Zero is real. -/
theorem real_zero : ∃ r : ℝ, (0 : EReal) = (r : EReal) := ⟨0, rfl⟩

/-- One is real. -/
theorem real_one : ∃ r : ℝ, (1 : EReal) = (r : EReal) := ⟨1, rfl⟩

/-- A real is not `+∞`. -/
theorem ne_top {a : EReal} (ha : ∃ r : ℝ, a = (r : EReal)) : a ≠ ⊤ := by
  obtain ⟨r, rfl⟩ := ha; exact EReal.coe_ne_top r

/-- A real is not `-∞`. -/
theorem ne_bot {a : EReal} (ha : ∃ r : ℝ, a = (r : EReal)) : a ≠ ⊥ := by
  obtain ⟨r, rfl⟩ := ha; exact EReal.coe_ne_bot r

/-- An extended real that is neither `+∞` nor `-∞` is real. -/
theorem real_of_ne {a : EReal} (ht : a ≠ ⊤) (hb : a ≠ ⊥) : ∃ r : ℝ, a = (r : EReal) :=
  ⟨a.toReal, (EReal.coe_toReal ht hb).symm⟩

/-- The sum of two reals is real. -/
theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The product of two reals is real. -/
theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- The negation of a real is real. -/
theorem real_neg {a : EReal} (ha : ∃ r : ℝ, a = (r : EReal)) : ∃ r : ℝ, -a = (r : EReal) := by
  obtain ⟨x, rfl⟩ := ha; exact ⟨-x, (EReal.coe_neg x).symm⟩

/-- The difference of two reals is real. -/
theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

/-- A finite sum of reals is real: the inclusion commutes with finite sums. -/
theorem real_sum {ι : Type*} (s : Finset ι) (f : ι → EReal)
    (hf : ∀ i ∈ s, ∃ r : ℝ, f i = (r : EReal)) : ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s))
      (ih fun i hi => hf i (Finset.mem_insert_of_mem hi))

/-- A sum of reals over a whole finite index type is real. -/
theorem real_sum_univ {ι : Type*} [Fintype ι] (f : ι → EReal)
    (hf : ∀ i, ∃ r : ℝ, f i = (r : EReal)) : ∃ r : ℝ, ∑ i, f i = (r : EReal) :=
  real_sum Finset.univ f fun i _ => hf i

/-- A contraction `∑ x · w` of two real families over any finite index type is real. -/
theorem real_sum_mul₂ {ι : Type*} [Fintype ι] (x w : ι → EReal)
    (hx : ∀ c, ∃ r : ℝ, x c = (r : EReal)) (hw : ∀ c, ∃ r : ℝ, w c = (r : EReal)) :
    ∃ r : ℝ, ∑ c, x c * w c = (r : EReal) :=
  real_sum_univ _ fun c => real_mul (hx c) (hw c)

/-- The constant `16` (the single-precision pattern `0x41800000`) is real. -/
theorem real_ofBits_16 : ∃ r : ℝ, Ideal.ofBits .f32 0x41800000#32 = (r : EReal) :=
  ⟨16, OnlineAttention.ofBits_16⟩

/-- A real times the constant `16` is real. -/
theorem real_mul_16 {a : EReal} (ha : ∃ r : ℝ, a = (r : EReal)) :
    ∃ r : ℝ, a * Ideal.ofBits .f32 0x41800000#32 = (r : EReal) :=
  real_mul ha real_ofBits_16

/-- The constant `16` times a real is real. -/
theorem real_16_mul {a : EReal} (ha : ∃ r : ℝ, a = (r : EReal)) :
    ∃ r : ℝ, Ideal.ofBits .f32 0x41800000#32 * a = (r : EReal) :=
  real_mul real_ofBits_16 ha

/-- The scaled score `∑_d (∑_c x_c · (wq_{d c} · s)) · k_d` of real families and a real scale is
    real. -/
theorem real_score_scaled {C D : ℕ} (x : Fin C → EReal) (wq : Fin D → Fin C → EReal)
    (k : Fin D → EReal) (s : EReal) (hx : ∀ c, ∃ r : ℝ, x c = (r : EReal))
    (hwq : ∀ d c, ∃ r : ℝ, wq d c = (r : EReal)) (hk : ∀ d, ∃ r : ℝ, k d = (r : EReal))
    (hs : ∃ r : ℝ, s = (r : EReal)) :
    ∃ r : ℝ, ∑ d, (∑ c, x c * (wq d c * s)) * k d = (r : EReal) :=
  real_sum_univ _ fun d =>
    real_mul (real_sum_univ _ fun c => real_mul (hx c) (real_mul (hwq d c) hs)) (hk d)

/-- The score with the scale in front, `s · ∑_d (∑_c x_c · wq_{d c}) · k_d`, of real families and a
    real scale is real. -/
theorem real_score {C D : ℕ} (x : Fin C → EReal) (wq : Fin D → Fin C → EReal)
    (k : Fin D → EReal) (s : EReal) (hx : ∀ c, ∃ r : ℝ, x c = (r : EReal))
    (hwq : ∀ d c, ∃ r : ℝ, wq d c = (r : EReal)) (hk : ∀ d, ∃ r : ℝ, k d = (r : EReal))
    (hs : ∃ r : ℝ, s = (r : EReal)) :
    ∃ r : ℝ, s * ∑ d, (∑ c, x c * wq d c) * k d = (r : EReal) :=
  real_mul hs (real_sum_univ _ fun d =>
    real_mul (real_sum_univ _ fun c => real_mul (hx c) (hwq d c)) (hk d))

/-- Adding a real sum of products to zero, as a contraction accumulated from zero does, is real. -/
theorem real_zero_add_sum_mul {ι : Type*} [Fintype ι] (x w : ι → EReal)
    (hx : ∀ c, ∃ r : ℝ, x c = (r : EReal)) (hw : ∀ c, ∃ r : ℝ, w c = (r : EReal)) :
    ∃ r : ℝ, 0 + ∑ c, x c * w c = (r : EReal) :=
  real_add real_zero (real_sum_mul₂ x w hx hw)

end RealAlg
-- ==== Proof.KI.FlashIsG.lean ====
import proofs.«151722_j14164802142301_2_alg».proof.Proof.KI.R1Step
import proofs.«151722_j14164802142301_2_alg».proof.Proof.RefSpec
import proofs.«151722_j14164802142301_2_alg».proof.Proof.LibOnlineAttention
import proofs.«151722_j14164802142301_2_alg».proof.Proof.KI.RealAlg
import Idealize.ShloMosaic.Lib.ValueIdx

/-!
# The blocked attention is the softmax attention of the specification, on real inputs

Row `i` of the queries, with the scale `16` folded into the query weights, scores against key row `j`
as `∑_d (∑_c x_{i c} · (wq_{d c} · 16)) · (∑_c x_{j c} · wk_{d c})`, which is
`16 · ∑_d (∑_c x_{i c} · wq_{d c}) · (∑_c x_{j c} · wk_{d c})`, the specification's score, by real
arithmetic.  All scores and values are real, so the sixteen online updates over blocks of `512` end in
the one-pass softmax-weighted sum of column `d` of the values; the maximum and the normaliser are the
specification's row maximum and row sum, being the same fold and the same sum of the same scores.
-/

noncomputable section

namespace Cert.KernelIdeal.Alg

open Idealize.ShloMosaic ValueIdx OnlineAttention RealAlg
open scoped BigOperators

/-- A query projection with the scale folded into the weight, `∑_c x_c · (wq_c · 16)`, of real
    families is real. -/
theorem real_qproj (x : Cert.ReferenceIdeal.S8192x1024.Idx → EReal) (wq : Cert.ReferenceIdeal.S256x1024.Idx → EReal)
    (hx : ∀ idx, ∃ r : ℝ, x idx = (r : EReal)) (hwq : ∀ idx, ∃ r : ℝ, wq idx = (r : EReal))
    (i : Fin 8192) (d : Fin 256) :
    ∃ r : ℝ, ∑ c : Fin 1024, x (ix2 i c) * (wq (ix2 d c) * Ideal.ofBits .f32 0x41800000#32) = (r : EReal) :=
  real_sum_univ _ fun c => real_mul (hx _) (real_mul_16 (hwq _))

/-- A projection `∑_c x_c · w_c` of real families is real. -/
theorem real_proj (x : Cert.ReferenceIdeal.S8192x1024.Idx → EReal) (w : Cert.ReferenceIdeal.S256x1024.Idx → EReal)
    (hx : ∀ idx, ∃ r : ℝ, x idx = (r : EReal)) (hw : ∀ idx, ∃ r : ℝ, w idx = (r : EReal))
    (j : Fin 8192) (d : Fin 256) :
    ∃ r : ℝ, ∑ c : Fin 1024, x (ix2 j c) * w (ix2 d c) = (r : EReal) :=
  real_sum_univ _ fun c => real_mul (hx _) (hw _)

/-- The blocked result at row `i`, column `d` is the specification's: the scores are the
    specification's scores (the scale comes out of the double contraction), they and the values are
    real, and the online computation over sixteen blocks of `512` is the one-pass softmax-weighted
    sum. -/
theorem flash_eq_out (x : Cert.ReferenceIdeal.S8192x1024.Idx → EReal) (wq wk wv : Cert.ReferenceIdeal.S256x1024.Idx → EReal)
    (hx : ∀ idx, ∃ r : ℝ, x idx = (r : EReal)) (hwq : ∀ idx, ∃ r : ℝ, wq idx = (r : EReal))
    (hwk : ∀ idx, ∃ r : ℝ, wk idx = (r : EReal)) (hwv : ∀ idx, ∃ r : ℝ, wv idx = (r : EReal))
    (Q K Vv : Cert.KernelIdeal.S8192x256.Idx → EReal)
    (hQ : ∀ (i : Fin 8192) (d : Fin 256), Q (ix2 i d) = ∑ c : Fin 1024, x (ix2 i c) * (wq (ix2 d c) * Ideal.ofBits .f32 0x41800000#32))
    (hK : ∀ (j : Fin 8192) (d : Fin 256), K (ix2 j d) = ∑ c : Fin 1024, x (ix2 j c) * wk (ix2 d c))
    (hV : ∀ (j : Fin 8192) (d : Fin 256), Vv (ix2 j d) = ∑ c : Fin 1024, x (ix2 j c) * wv (ix2 d c))
    (i : Fin 8192) (d : Fin 256) :
    Cert.KernelIdeal.R1V.flash Q K Vv i d = Cert.RefSpec.out x wq wk wv i d := by
  -- the row of scores is the specification's: the scale comes out of the double contraction
  have hscore : ∀ jj : Fin 8192,
      ∑ d' : Fin 256, Q (ix2 i d') * K (ix2 jj d') = Cert.RefSpec.score x wq wk i jj := fun jj => by
    rw [Finset.sum_congr rfl fun d' _ => by rw [hQ i d', hK jj d']]
    exact scale_fold (fun c => x (ix2 i c)) (fun d' c => wq (ix2 d' c))
      (fun d' => ∑ c : Fin 1024, x (ix2 jj c) * wk (ix2 d' c)) _ (fun c => hx _) (fun d' c => hwq _)
      (fun d' => real_proj x wk hx hwk jj d') real_ofBits_16
  -- the blocks are the row of scores and the column of values cut in sixteen
  have hkidx : ∀ (j : Fin 16) (c : Fin 512),
      Cert.KernelIdeal.R1V.kidx j.val c = ⟨j.val * 512 + c.val, by omega⟩ := fun j c =>
    Fin.ext (by rw [Cert.KernelIdeal.R1V.kidx_val, Nat.mod_eq_of_lt j.isLt])
  have hv : ∀ (j : Fin 16) (c : Fin 512), Cert.KernelIdeal.R1V.vrow Q K i j.val c
      = (fun jj : Fin 8192 => Cert.RefSpec.score x wq wk i jj) ⟨j.val * 512 + c.val, by omega⟩ :=
    fun j c => by rw [← hkidx j c]; exact hscore _
  have hu : ∀ (j : Fin 16) (c : Fin 512), Cert.KernelIdeal.R1V.ucol Vv d j.val c
      = (fun jj : Fin 8192 => Cert.RefSpec.proj x wv jj d) ⟨j.val * 512 + c.val, by omega⟩ :=
    fun j c => by rw [← hkidx j c]; exact hV _ d
  -- scores and values are real
  have hw : ∀ jj : Fin 8192, ∃ r : ℝ,
      (fun jj : Fin 8192 => Cert.RefSpec.score x wq wk i jj) jj = (r : EReal) := fun jj =>
    real_mul real_ofBits_16 (real_sum_univ _ fun d' =>
      real_mul (real_proj x wq hx hwq i d') (real_proj x wk hx hwk jj d'))
  have hy : ∀ jj : Fin 8192, ∃ r : ℝ,
      (fun jj : Fin 8192 => Cert.RefSpec.proj x wv jj d) jj = (r : EReal) := fun jj =>
    real_proj x wv hx hwv jj d
  unfold Cert.KernelIdeal.R1V.flash
  rw [ofBits_one]
  exact run3_final_16_512 _ _ (Cert.KernelIdeal.R1V.vrow Q K i) (Cert.KernelIdeal.R1V.ucol Vv d) hv hu hw hy

/-- **The blocked attention is the specification.**  On real inputs, with `Q` the scaled query
    projection, `K` the key projection and `Vv` the value projection, the array of blocked results is
    the specification's array, entry by entry. -/
theorem flash_eq_G (x : Cert.ReferenceIdeal.S8192x1024.Idx → EReal) (wq wk wv : Cert.ReferenceIdeal.S256x1024.Idx → EReal)
    (hx : ∀ idx, ∃ r : ℝ, x idx = (r : EReal)) (hwq : ∀ idx, ∃ r : ℝ, wq idx = (r : EReal))
    (hwk : ∀ idx, ∃ r : ℝ, wk idx = (r : EReal)) (hwv : ∀ idx, ∃ r : ℝ, wv idx = (r : EReal))
    (Q K Vv : Cert.KernelIdeal.S8192x256.Idx → EReal)
    (hQ : ∀ (i : Fin 8192) (d : Fin 256), Q (ix2 i d) = ∑ c : Fin 1024, x (ix2 i c) * (wq (ix2 d c) * Ideal.ofBits .f32 0x41800000#32))
    (hK : ∀ (j : Fin 8192) (d : Fin 256), K (ix2 j d) = ∑ c : Fin 1024, x (ix2 j c) * wk (ix2 d c))
    (hV : ∀ (j : Fin 8192) (d : Fin 256), Vv (ix2 j d) = ∑ c : Fin 1024, x (ix2 j c) * wv (ix2 d c)) :
    Cert.KernelIdeal.R1V.Flash Q K Vv = Cert.RefSpec.G x wq wk wv :=
  funext fun idx =>
    flash_eq_out x wq wk wv hx hwq hwk hwv Q K Vv hQ hK hV ⟨(idx 0).val, (idx 0).isLt⟩ ⟨(idx 1).val, (idx 1).isLt⟩

end Cert.KernelIdeal.Alg

end
-- ==== Proof.KI.Region0Value.lean ====
/- The projection kernel's three output arrays after its 32 row blocks, in closed form at the exact (extended-real)
   instance: entry (i, d) of each is the inner product of row i of the activations with column d of the staged weight
   matrix, ∑ over the 1024 contraction indices.

   Each point t writes back, for each output, the 256×256 product of the activations' row block t with the whole
   weight matrix — a matrix product into a zero accumulator, which at this instance IS the sum of products over the
   contraction index, the narrowing format changes being the identity. That block is block t of ONE function of the
   whole arrays (row 256·t + p of the activations is row p of block t; the weights' block is the whole matrix), and the
   32 blocks cover every row (row r lies in block r / 256), so the array ends holding that function. -/
import proofs.«151722_j14164802142301_2_alg».proof.Proof.KI.Region0
import Idealize.ShloMosaic.Lib.Pipeline.Value
import Idealize.ShloMosaic.Lib.ValueIdx
import Idealize.ShloMosaic.PureOps.Ideal.Laws

noncomputable section

namespace Cert.KernelIdeal.R0V

open Cert.KernelIdeal Cert.KernelIdeal.Gen Idealize.ShloMosaic Idealize.ShloMosaic.TcCoe Idealize.SL.Sem
open Idealize.ShloMosaic.Pipeline (Dat)
open Idealize.ShloMosaic.ValueIdx

/-! ## The matrix product at an entry -/

/-- The kernel's contraction: rows of the left operand against columns of the right, over one axis of 1024. -/
abbrev DD := dot_S256x1024_S1024x256_S256x256_1_0_0_1_n_n

/-- The projection reads its left operand at the result's row on the first axis, -/
theorem lhs_0 (j : S256x256.Idx) (q : DD.contr.Idx) : (DD.lhsIdx j q 0).val = (j 0).val := by
  unfold DotDims.lhsIdx
  rw [dif_neg (show ¬(0 : Fin S256x1024.rank) ∈ DD.lhsBatch by decide), dif_pos (show (0 : Fin S256x1024.rank) ∈ DD.lhsNonContracting by decide)]
  rfl
/-- and at the contraction position on the second; -/
theorem lhs_1 (j : S256x256.Idx) (q : DD.contr.Idx) : (DD.lhsIdx j q 1).val = (q ⟨0, by decide⟩).val :=
  DD.lhsIdx_val_of_single rfl j q
/-- its right operand at the contraction position on the first axis, -/
theorem rhs_0 (j : S256x256.Idx) (q : DD.contr.Idx) : (DD.rhsIdx j q 0).val = (q ⟨0, by decide⟩).val :=
  DD.rhsIdx_val_of_single rfl j q
/-- and at the result's column on the second. -/
theorem rhs_1 (j : S256x256.Idx) (q : DD.contr.Idx) : (DD.rhsIdx j q 1).val = (j 1).val := by
  unfold DotDims.rhsIdx
  rw [dif_neg (show ¬(1 : Fin S1024x256.rank) ∈ DD.rhsBatch by decide), dif_pos (show (1 : Fin S1024x256.rank) ∈ DD.rhsNonContracting by decide)]
  rfl

/-- A product into the zero accumulator, at an entry: the sum over the contraction index of the products of the left
    operand's row entry and the right operand's column entry, whatever the operands' formats. -/
theorem matmul_zero_apply {φ₁ φ₂ : FTy} (prec : Option ContractPrecision) (a : FVec Ideal S256x1024 φ₁) (b : FVec Ideal S1024x256 φ₂) (p q : Fin 256) :
    (FloatOps.matmul DD prec a b (constant S256x256 .f32 0x00000000#32) : FVec Ideal S256x256 .f32) (ix2 p q)
      = ∑ k : Fin 1024, a (ix2 p k) * b (ix2 k q) := by
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 p q) ((contrEquiv1 DD 1024 rfl rfl).symm k) = ix2 p k := funext fun x => Fin.ext (by
    match x with
    | ⟨0, _⟩ => exact lhs_0 _ _
    | ⟨1, _⟩ => exact (lhs_1 _ _).trans hk)
  have er : DD.rhsIdx (ix2 p q) ((contrEquiv1 DD 1024 rfl rfl).symm k) = ix2 k q := funext fun x => Fin.ext (by
    match x with
    | ⟨0, _⟩ => exact (rhs_0 _ _).trans hk
    | ⟨1, _⟩ => exact rhs_1 _ _)
  rw [el, er]

/-- The query block's payload at an entry. -/
theorem pay1_apply (x0 : Vec Ideal S256x1024 .f32) (w : Vec Ideal S1024x256 .f32) (p q : Fin 256) :
    k0_pay1 (F := Ideal) x0 w (ix2 p q) = ∑ k : Fin 1024, x0 (ix2 p k) * w (ix2 k q) := by
  unfold k0_pay1
  rw [shapeCast_self]
  exact matmul_zero_apply (some .fp32) x0 w p q
/-- The key block's payload at an entry. -/
theorem pay2_apply (x0 : Vec Ideal S256x1024 .f32) (w : Vec Ideal S1024x256 .f32) (p q : Fin 256) :
    k0_pay2 (F := Ideal) x0 w (ix2 p q) = ∑ k : Fin 1024, x0 (ix2 p k) * w (ix2 k q) := by
  unfold k0_pay2
  rw [shapeCast_self]
  exact matmul_zero_apply (some .fp32) x0 w p q
/-- The value block's payload at an entry: the narrowings of the left operand and of the product are the identity. -/
theorem pay3_apply (x0 : Vec Ideal S256x1024 .f32) (w : Vec Ideal S1024x256 .bf16) (p q : Fin 256) :
    k0_pay3 (F := Ideal) x0 w (ix2 p q) = ∑ k : Fin 1024, x0 (ix2 p k) * w (ix2 k q) := by
  unfold k0_pay3
  rw [shapeCast_self]
  refine (truncf_apply _ bitsLt_bf16_f32 (ix2 p q)).trans ?_
  refine (matmul_zero_apply (φ₁ := .bf16) (φ₂ := .bf16) none (truncf .bf16 x0 bitsLt_bf16_f32) w p q).trans ?_
  exact Finset.sum_congr rfl fun k _ => by rw [truncf_apply]

/-! ## The index maps, decided over the grid -/

theorem hz : (![0, 0] : Fin 2 → Nat) = fun _ => 0 := funext fun a => by fin_cases a <;> rfl

/-- The printed index maps over the 32 points: the activations' block and each output's block are at block row `t`
    and block column 0; each weight matrix's block is always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The function every output array ends holding: entry (i, d) is row i of the left array against column d of the right. -/
abbrev GG (A : S8192x1024.Idx → EReal) (B : S1024x256.Idx → EReal) : S8192x256.Idx → EReal :=
  fun i => ∑ k : Fin 1024, A (ix2 (⟨(i 0).val, (i 0).isLt⟩ : Fin 8192) k) * B (ix2 k (⟨(i 1).val, (i 1).isLt⟩ : Fin 256))

/-- A row block's product is the block of `GG`: if the left block is rows `256·r …` of `A` and the right block is
    all of `B`, an entry of the product whose row sits at `256·r +` its row in the block is `GG A B` there. -/
theorem block_apply (A : S8192x1024.Idx → EReal) (B : S1024x256.Idx → EReal)
    (X : S256x1024.Idx → EReal) (W : S1024x256.Idx → EReal) (P : S256x256.Idx → EReal)
    (hP : ∀ p q : Fin 256, P (ix2 p q) = ∑ k : Fin 1024, X (ix2 p k) * W (ix2 k q))
    (r : Nat)
    (hX : ∀ (p : Fin 256) (k : Fin 1024) (i : S8192x1024.Idx), (i 0).val = r * 256 + p.val → (i 1).val = k.val → X (ix2 p k) = A i)
    (hW : ∀ (k : Fin 1024) (q : Fin 256), W (ix2 k q) = B (ix2 k q))
    (j : S256x256.Idx) (i : S8192x256.Idx) (hi0 : (i 0).val = r * 256 + (j 0).val) (hi1 : (i 1).val = (j 1).val) :
    P j = GG A B i := by
  obtain ⟨p, q, rfl⟩ : ∃ p q : Fin 256, j = ix2 p q := ⟨j 0, j 1, eq_ix2 j⟩
  have hi0' : (i 0).val = r * 256 + p.val := hi0
  obtain rfl : q = (⟨(i 1).val, (i 1).isLt⟩ : Fin 256) := Fin.ext hi1.symm
  rw [hP]
  refine Finset.sum_congr rfl fun k _ => ?_
  rw [hX p k (ix2 (⟨(i 0).val, (i 0).isLt⟩ : Fin 8192) k) hi0' rfl, hW]

/-! ## Output window 4 -/

/-- What point `t` writes back is block `t` of `GG` of the arrays as the region finds them. -/
theorem flushed4_eq (V : (c : Dev nD) → (b : Ref sig .tc) → Buf (Elt Ideal) ((c : Thread nD τ).loc b)) (c : Dev nD) (t : Fin cfg0.N) :
    (R0.dat0 (F := Ideal) V c).flushed 4 t = ((cfg0.win 4).blk t).view.read (Elt Ideal) (GG (V c main_arg0) (V c main_v2)) := by
  show (cfg0.win 4).cut (grid0.coords t) ((R0.dat0 (F := Ideal) V c).after 4 t) = _
  rw [R0.after0_4]
  unfold R0.out0_4
  rw [View.canon_unit_zero hz]
  simp only [View.ld_unit_zero (S := S256x1024) hz, View.ld_unit_zero (S := S1024x256) hz]
  obtain ⟨e00, e01, e10, e11, e20, e21, e30, e31, e40, e41, e50, e51, e60, e61⟩ := idx_facts t
  funext j
  refine block_apply (V c main_arg0) (V c main_v2) (R0.iblk0 V c 0 t) (R0.iblk0 V c 1 t) _ (pay1_apply _ _) t.val ?_ ?_ j _ ?_ ?_
  · intro p k i h0 h1
    show V c main_arg0 (((cfg0.win 0).blk t).view.emb (ix2 p k)) = V c main_arg0 i
    congr 1
    funext a
    apply Fin.ext
    match a with
    | ⟨0, _⟩ => show win0_0.index t (0 : Fin 2) * 256 + 1 * p.val = (i 0).val; omega
    | ⟨1, _⟩ => show win0_0.index t (1 : Fin 2) * 1024 + 1 * k.val = (i 1).val; omega
  · intro k q
    show V c main_v2 (((cfg0.win 1).blk t).view.emb (ix2 k q)) = V c main_v2 (ix2 k q)
    congr 1
    funext a
    apply Fin.ext
    match a with
    | ⟨0, _⟩ => show win0_1.index t (0 : Fin 2) * 1024 + 1 * k.val = k.val; omega
    | ⟨1, _⟩ => show win0_1.index t (1 : Fin 2) * 256 + 1 * q.val = q.val; omega
  · show win0_4.index t (0 : Fin 2) * 256 + 1 * (j 0).val = t.val * 256 + (j 0).val; omega
  · show win0_4.index t (1 : Fin 2) * 256 + 1 * (j 1).val = (j 1).val; omega

/-- An index of the array is in point `t`'s block iff each coordinate is in the block's range on its axis. -/
theorem mem_blk4 (t : Fin cfg0.N) (i : S8192x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v6_0).slice (win0_4.rect t)).set ↔ _
  rw [View.set_slice_whole, Rect.mem_set_unit]
  exact Iff.rfl

/-- Every index is in some point's block: row `r` is in block `r / 256`. -/
theorem cover4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 32 := N_0
  refine ⟨⟨(i 0).val / 256, by rw [hN]; omega⟩, flush0_4 _, ?_⟩
  rw [mem_blk4]
  obtain ⟨e00, e01, e10, e11, e20, e21, e30, e31, e40, e41, e50, e51, e60, e61⟩ := idx_facts ⟨(i 0).val / 256, by rw [hN]; omega⟩
  intro a
  match a with
  | ⟨0, _⟩ => show win0_4.index _ (0 : Fin 2) * 256 ≤ (i 0).val ∧ (i 0).val < win0_4.index _ (0 : Fin 2) * 256 + 256; rw [e40]; show (i 0).val / 256 * 256 ≤ (i 0).val ∧ (i 0).val < (i 0).val / 256 * 256 + 256; omega
  | ⟨1, _⟩ => show win0_4.index _ (1 : Fin 2) * 256 ≤ (i 1).val ∧ (i 1).val < win0_4.index _ (1 : Fin 2) * 256 + 256; rw [e41]; omega

/-- The array after the region: `GG` of the arrays as the region finds them. -/
theorem arr4 (V : (c : Dev nD) → (b : Ref sig .tc) → Buf (Elt Ideal) ((c : Thread nD τ).loc b)) (c : Dev nD) :
    (R0.dat0 (F := Ideal) V c).arrAt 4 cfg0.N = GG (V c main_arg0) (V c main_v2) :=
  (R0.dat0 (F := Ideal) V c).arrAt_eq_of_cover 4 (GG (V c main_arg0) (V c main_v2)) (fun t _ => flushed4_eq V c t) cover4

/-- Entry (i, d): row i of the activations against column d of the staged weights. -/
theorem arrAt0_4 (V : (c : Dev nD) → (b : Ref sig .tc) → Buf (Elt Ideal) ((c : Thread nD τ).loc b)) (c : Dev nD) (i : Fin 8192) (d : Fin 256) :
    (R0.dat0 (F := Ideal) V c).arrAt 4 cfg0.N (ix2 i d)
      = Finset.sum (M := EReal) Finset.univ fun cc : Fin 1024 => HMul.hMul (α := EReal) (β := EReal) (γ := EReal) (V c main_arg0 (ix2 i cc)) (V c main_v2 (ix2 cc d)) :=
  congrFun (arr4 V c) (ix2 i d)

/-! ## Output window 5 -/

/-- What point `t` writes back is block `t` of `GG` of the arrays as the region finds them. -/
theorem flushed5_eq (V : (c : Dev nD) → (b : Ref sig .tc) → Buf (Elt Ideal) ((c : Thread nD τ).loc b)) (c : Dev nD) (t : Fin cfg0.N) :
    (R0.dat0 (F := Ideal) V c).flushed 5 t = ((cfg0.win 5).blk t).view.read (Elt Ideal) (GG (V c main_arg0) (V c main_v3)) := by
  show (cfg0.win 5).cut (grid0.coords t) ((R0.dat0 (F := Ideal) V c).after 5 t) = _
  rw [R0.after0_5]
  unfold R0.out0_5
  rw [View.canon_unit_zero hz]
  simp only [View.ld_unit_zero (S := S256x1024) hz, View.ld_unit_zero (S := S1024x256) hz]
  obtain ⟨e00, e01, e10, e11, e20, e21, e30, e31, e40, e41, e50, e51, e60, e61⟩ := idx_facts t
  funext j
  refine block_apply (V c main_arg0) (V c main_v3) (R0.iblk0 V c 0 t) (R0.iblk0 V c 2 t) _ (pay2_apply _ _) t.val ?_ ?_ j _ ?_ ?_
  · intro p k i h0 h1
    show V c main_arg0 (((cfg0.win 0).blk t).view.emb (ix2 p k)) = V c main_arg0 i
    congr 1
    funext a
    apply Fin.ext
    match a with
    | ⟨0, _⟩ => show win0_0.index t (0 : Fin 2) * 256 + 1 * p.val = (i 0).val; omega
    | ⟨1, _⟩ => show win0_0.index t (1 : Fin 2) * 1024 + 1 * k.val = (i 1).val; omega
  · intro k q
    show V c main_v3 (((cfg0.win 2).blk t).view.emb (ix2 k q)) = V c main_v3 (ix2 k q)
    congr 1
    funext a
    apply Fin.ext
    match a with
    | ⟨0, _⟩ => show win0_2.index t (0 : Fin 2) * 1024 + 1 * k.val = k.val; omega
    | ⟨1, _⟩ => show win0_2.index t (1 : Fin 2) * 256 + 1 * q.val = q.val; omega
  · show win0_5.index t (0 : Fin 2) * 256 + 1 * (j 0).val = t.val * 256 + (j 0).val; omega
  · show win0_5.index t (1 : Fin 2) * 256 + 1 * (j 1).val = (j 1).val; omega

/-- An index of the array is in point `t`'s block iff each coordinate is in the block's range on its axis. -/
theorem mem_blk5 (t : Fin cfg0.N) (i : S8192x256.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v6_1).slice (win0_5.rect t)).set ↔ _
  rw [View.set_slice_whole, Rect.mem_set_unit]
  exact Iff.rfl

/-- Every index is in some point's block: row `r` is in block `r / 256`. -/
theorem cover5 (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 32 := N_0
  refine ⟨⟨(i 0).val / 256, by rw [hN]; omega⟩, flush0_5 _, ?_⟩
  rw [mem_blk5]
  obtain ⟨e00, e01, e10, e11, e20, e21, e30, e31, e40, e41, e50, e51, e60, e61⟩ := idx_facts ⟨(i 0).val / 256, by rw [hN]; omega⟩
  intro a
  match a with
  | ⟨0, _⟩ => show win0_5.index _ (0 : Fin 2) * 256 ≤ (i 0).val ∧ (i 0).val < win0_5.index _ (0 : Fin 2) * 256 + 256; rw [e50]; show (i 0).val / 256 * 256 ≤ (i 0).val ∧ (i 0).val < (i 0).val / 256 * 256 + 256; omega
  | ⟨1, _⟩ => show win0_5.index _ (1 : Fin 2) * 256 ≤ (i 1).val ∧ (i 1).val < win0_5.index _ (1 : Fin 2) * 256 + 256; rw [e51]; omega

/-- The array after the region: `GG` of the arrays as the region finds them. -/
theorem arr5 (V : (c : Dev nD) → (b : Ref sig .tc) → Buf (Elt Ideal) ((c : Thread nD τ).loc b)) (c : Dev nD) :
    (R0.dat0 (F := Ideal) V c).arrAt 5 cfg0.N = GG (V c main_arg0) (V c main_v3) :=
  (R0.dat0 (F := Ideal) V c).arrAt_eq_of_cover 5 (GG (V c main_arg0) (V c main_v3)) (fun t _ => flushed5_eq V c t) cover5

/-- Entry (i, d): row i of the activations against column d of the staged weights. -/
theorem arrAt0_5 (V : (c : Dev nD) → (b : Ref sig .tc) → Buf (Elt Ideal) ((c : Thread nD τ).loc b)) (c : Dev nD) (i : Fin 8192) (d : Fin 256) :
    (R0.dat0 (F := Ideal) V c).arrAt 5 cfg0.N (ix2 i d)
      = Finset.sum (M := EReal) Finset.univ fun cc : Fin 1024 => HMul.hMul (α := EReal) (β := EReal) (γ := EReal) (V c main_arg0 (ix2 i cc)) (V c main_v3 (ix2 cc d)) :=
  congrFun (arr5 V c) (ix2 i d)

/-! ## Output window 6 -/

/-- What point `t` writes back is block `t` of `GG` of the arrays as the region finds them. -/
theorem flushed6_eq (V : (c : Dev nD) → (b : Ref sig .tc) → Buf (Elt Ideal) ((c : Thread nD τ).loc b)) (c : Dev nD) (t : Fin cfg0.N) :
    (R0.dat0 (F := Ideal) V c).flushed 6 t = ((cfg0.win 6).blk t).view.read (Elt Ideal) (GG (V c main_arg0) (V c main_v5)) := by
  show (cfg0.win 6).cut (grid0.coords t) ((R0.dat0 (F := Ideal) V c).after 6 t) = _
  rw [R0.after0_6]
  unfold R0.out0_6
  rw [View.canon_unit_zero hz]
  simp only [View.ld_unit_zero (S := S256x1024) hz, View.ld_unit_zero (S := S1024x256) hz]
  obtain ⟨e00, e01, e10, e11, e20, e21, e30, e31, e40, e41, e50, e51, e60, e61⟩ := idx_facts t
  funext j
  refine block_apply (V c main_arg0) (V c main_v5) (R0.iblk0 V c 0 t) (R0.iblk0 V c 3 t) _ (pay3_apply _ _) t.val ?_ ?_ j _ ?_ ?_
  · intro p k i h0 h1
    show V c main_arg0 (((cfg0.win 0).blk t).view.emb (ix2 p k)) = V c main_arg0 i
    congr 1
    funext a
    apply Fin.ext
    match a with
    | ⟨0, _⟩ => show win0_0.index t (0 : Fin 2) * 256 + 1 * p.val = (i 0).val; omega
    | ⟨1, _⟩ => show win0_0.index t (1 : Fin 2) * 1024 + 1 * k.val = (i 1).val; omega
  · intro k q
    show V c main_v5 (((cfg0.win 3).blk t).view.emb (ix2 k q)) = V c main_v5 (ix2 k q)
    congr 1
    funext a
    apply Fin.ext
    match a with
    | ⟨0, _⟩ => show win0_3.index t (0 : Fin 2) * 1024 + 1 * k.val = k.val; omega
    | ⟨1, _⟩ => show win0_3.index t (1 : Fin 2) * 256 + 1 * q.val = q.val; omega
  · show win0_6.index t (0 : Fin 2) * 256 + 1 * (j 0).val = t.val * 256 + (j 0).val; omega
  · show win0_6.index t (1 : Fin 2) * 256 + 1 * (j 1).val = (j 1).val; omega

/-- An index of the array is in point `t`'s block iff each coordinate is in the block's range on its axis. -/
theorem mem_blk6 (t : Fin cfg0.N) (i : S8192x256.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v6_2).slice (win0_6.rect t)).set ↔ _
  rw [View.set_slice_whole, Rect.mem_set_unit]
  exact Iff.rfl

/-- Every index is in some point's block: row `r` is in block `r / 256`. -/
theorem cover6 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 32 := N_0
  refine ⟨⟨(i 0).val / 256, by rw [hN]; omega⟩, flush0_6 _, ?_⟩
  rw [mem_blk6]
  obtain ⟨e00, e01, e10, e11, e20, e21, e30, e31, e40, e41, e50, e51, e60, e61⟩ := idx_facts ⟨(i 0).val / 256, by rw [hN]; omega⟩
  intro a
  match a with
  | ⟨0, _⟩ => show win0_6.index _ (0 : Fin 2) * 256 ≤ (i 0).val ∧ (i 0).val < win0_6.index _ (0 : Fin 2) * 256 + 256; rw [e60]; show (i 0).val / 256 * 256 ≤ (i 0).val ∧ (i 0).val < (i 0).val / 256 * 256 + 256; omega
  | ⟨1, _⟩ => show win0_6.index _ (1 : Fin 2) * 256 ≤ (i 1).val ∧ (i 1).val < win0_6.index _ (1 : Fin 2) * 256 + 256; rw [e61]; omega

/-- The array after the region: `GG` of the arrays as the region finds them. -/
theorem arr6 (V : (c : Dev nD) → (b : Ref sig .tc) → Buf (Elt Ideal) ((c : Thread nD τ).loc b)) (c : Dev nD) :
    (R0.dat0 (F := Ideal) V c).arrAt 6 cfg0.N = GG (V c main_arg0) (V c main_v5) :=
  (R0.dat0 (F := Ideal) V c).arrAt_eq_of_cover 6 (GG (V c main_arg0) (V c main_v5)) (fun t _ => flushed6_eq V c t) cover6

/-- Entry (i, d): row i of the activations against column d of the staged weights. -/
theorem arrAt0_6 (V : (c : Dev nD) → (b : Ref sig .tc) → Buf (Elt Ideal) ((c : Thread nD τ).loc b)) (c : Dev nD) (i : Fin 8192) (d : Fin 256) :
    (R0.dat0 (F := Ideal) V c).arrAt 6 cfg0.N (ix2 i d)
      = Finset.sum (M := EReal) Finset.univ fun cc : Fin 1024 => HMul.hMul (α := EReal) (β := EReal) (γ := EReal) (V c main_arg0 (ix2 i cc)) (V c main_v5 (ix2 cc d)) :=
  congrFun (arr6 V c) (ix2 i d)

end Cert.KernelIdeal.R0V

end
-- ==== Proof.KI.HostOps.lean ====
import proofs.«151722_j14164802142301_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Host

open Idealize.ShloMosaic Idealize.ShloMosaic.ValueIdx Idealize.ShloMosaic.TcCoe Cert.KernelIdeal Cert.KernelIdeal.Gen

/-! ## The operations before the first region, read at an index

Before its first region the program transposes the three weights, scales the first transposed weight by the
constant 16 (a scalar broadcast to the whole array), and changes the format of the third; on the extended reals the
format change is the identity. So at (cc, d) the three arrays hold the weights at (d, cc), the first times 16. -/

/-- A transposed 256 × 1024 array at (cc, d) is the array at (d, cc). -/
theorem transpose_at (x : S256x1024.Idx → EReal) (h : S256x1024.Transposes [1, 0] S1024x256) (cc : Fin 1024) (d : Fin 256) :
    transpose S1024x256 [1, 0] x h (ix2 cc d) = x (ix2 d cc) :=
  transpose_apply [1, 0] x h (ix2 cc d) (ix2 d cc) (fun b => match b with
    | ⟨0, _⟩ => rfl
    | ⟨1, _⟩ => rfl)

variable (W : Valuation τ sig (Elt Ideal))

/-- The scaled transposed first weight, as the operations' term. -/
theorem after_v2 :
    (StableHlo.after (hostOps0 (F := Ideal)) W (Proc.devRef .tc main_v2) : S1024x256.Idx → EReal)
      = mulf (F := Ideal) (φ := .f32)
          (transpose S1024x256 [1, 0] (W (Proc.devRef .tc main_arg1) : S256x1024.Idx → EReal) transposes_S256x1024_S1024x256_1_0)
          (broadcastInDim S1024x256 ![] bcast_S_S1024x256 (constant (F := Ideal) S_ .f32 0x41800000#32)) := by
  dsimp only [hostOps0]
  after_results

/-- The transposed second weight, as the operations' term. -/
theorem after_v3 :
    (StableHlo.after (hostOps0 (F := Ideal)) W (Proc.devRef .tc main_v3) : S1024x256.Idx → EReal)
      = transpose S1024x256 [1, 0] (W (Proc.devRef .tc main_arg2) : S256x1024.Idx → EReal) transposes_S256x1024_S1024x256_1_0 := by
  dsimp only [hostOps0]
  after_results

/-- The transposed third weight after its format change, as the operations' term. -/
theorem after_v5 :
    (StableHlo.after (hostOps0 (F := Ideal)) W (Proc.devRef .tc main_v5) : S1024x256.Idx → EReal)
      = truncf (F := Ideal) (φ := .f32) .bf16
          (transpose S1024x256 [1, 0] (W (Proc.devRef .tc main_arg3) : S256x1024.Idx → EReal) transposes_S256x1024_S1024x256_1_0)
          bitsLt_bf16_f32 := by
  dsimp only [hostOps0]
  after_results

/-- At (cc, d) the scaled transposed first weight is the first weight at (d, cc) times 16. -/
theorem host_v2 (cc : Fin 1024) (d : Fin 256) :
    (StableHlo.after (hostOps0 (F := Ideal)) W (Proc.devRef .tc main_v2) : S1024x256.Idx → EReal) (ix2 cc d)
      = HMul.hMul (α := EReal) (β := EReal) ((W (Proc.devRef .tc main_arg1) : S256x1024.Idx → EReal) (ix2 d cc))
          (Ideal.ofBits .f32 0x41800000#32) := by
  rw [congrFun (after_v2 W) (ix2 cc d), mulf_apply, transpose_at,
    broadcastInDim_apply _ bcast_S_S1024x256 _ (ix2 cc d) ix0 (fun a => a.elim0)]
  rfl

/-- At (cc, d) the transposed second weight is the second weight at (d, cc). -/
theorem host_v3 (cc : Fin 1024) (d : Fin 256) :
    (StableHlo.after (hostOps0 (F := Ideal)) W (Proc.devRef .tc main_v3) : S1024x256.Idx → EReal) (ix2 cc d)
      = (W (Proc.devRef .tc main_arg2) : S256x1024.Idx → EReal) (ix2 d cc) := by
  rw [congrFun (after_v3 W) (ix2 cc d), transpose_at]

/-- At (cc, d) the transposed third weight, its format changed, is the third weight at (d, cc). -/
theorem host_v5 (cc : Fin 1024) (d : Fin 256) :
    (StableHlo.after (hostOps0 (F := Ideal)) W (Proc.devRef .tc main_v5) : S1024x256.Idx → EReal) (ix2 cc d)
      = (W (Proc.devRef .tc main_arg3) : S256x1024.Idx → EReal) (ix2 d cc) := by
  rw [congrFun (after_v5 W) (ix2 cc d), truncf_apply, transpose_at]

/-- No operation before the first region writes the first argument. -/
theorem host_arg0 :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- Nor the second, … -/
theorem host_arg1 :
    StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- … the third, … -/
theorem host_arg2 :
    StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- … or the fourth. -/
theorem host_arg3 :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

end Cert.KernelIdeal.Host

end
-- ==== Proof.KI.Entry.lean ====
/-
  What the flash-attention region finds in its three input arrays, as sums over the arrays the program was launched
  with.  The projection region leaves, in each of its three output arrays, the activations times one staged weight; the
  staged weights are the transposed weights the host operations prepared (the query weight times 16, the value weight
  after a format change that is the identity on the extended reals); the activations are not written before that
  region.  So entry (i, d) of each array is the sum over the model axis of the activation at (i, cc) times the weight
  at (d, cc), the query's with the factor 16.
-/
import proofs.«151722_j14164802142301_2_alg».proof.Proof.KI.Run
import proofs.«151722_j14164802142301_2_alg».proof.Proof.KI.Region0Value
import proofs.«151722_j14164802142301_2_alg».proof.Proof.KI.HostOps

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg) (c : Dev nD)

/-- The activations and the three weights, as launched. -/
abbrev xA : S8192x1024.Idx → EReal := m ((c : Thread nD τ).loc main_arg0)
abbrev wqA : S256x1024.Idx → EReal := m ((c : Thread nD τ).loc main_arg1)
abbrev wkA : S256x1024.Idx → EReal := m ((c : Thread nD τ).loc main_arg2)
abbrev wvA : S256x1024.Idx → EReal := m ((c : Thread nD τ).loc main_arg3)

/-- The query, key and value arrays as the flash-attention region finds them. -/
abbrev QA : S8192x256.Idx → EReal := Run.U2 m ρ c main_v6_0
abbrev KA : S8192x256.Idx → EReal := Run.U2 m ρ c main_v6_1
abbrev VA : S8192x256.Idx → EReal := Run.U2 m ρ c main_v6_2

/-- The query array: the activations against the query weight scaled by 16. -/
theorem q_entry (i : Fin 8192) (d : Fin 256) :
    QA m ρ c (ix2 i d)
      = ∑ cc : Fin 1024, xA m c (ix2 i cc) * (wqA m c (ix2 d cc) * Ideal.ofBits .f32 0x41800000#32) :=
  by
  refine (congrFun (Run.E2_arr m ρ c 4) (ix2 i d)).trans ?_
  refine (R0V.arrAt0_4 (Run.U1 m ρ) c i d).trans ?_
  refine Finset.sum_congr (M := EReal) rfl fun cc _ => ?_
  exact congrArg₂ (HMul.hMul (α := EReal) (β := EReal) (γ := EReal))
    (congrFun (Host.host_arg0 (Run.E0 m ρ c)) (ix2 i cc)) (Host.host_v2 (Run.E0 m ρ c) cc d)

/-- The key array: the activations against the key weight. -/
theorem k_entry (j : Fin 8192) (d : Fin 256) :
    KA m ρ c (ix2 j d) = ∑ cc : Fin 1024, xA m c (ix2 j cc) * wkA m c (ix2 d cc) :=
  by
  refine (congrFun (Run.E2_arr m ρ c 5) (ix2 j d)).trans ?_
  refine (R0V.arrAt0_5 (Run.U1 m ρ) c j d).trans ?_
  refine Finset.sum_congr (M := EReal) rfl fun cc _ => ?_
  exact congrArg₂ (HMul.hMul (α := EReal) (β := EReal) (γ := EReal))
    (congrFun (Host.host_arg0 (Run.E0 m ρ c)) (ix2 j cc)) (Host.host_v3 (Run.E0 m ρ c) cc d)

/-- The value array: the activations against the value weight. -/
theorem v_entry (j : Fin 8192) (d : Fin 256) :
    VA m ρ c (ix2 j d) = ∑ cc : Fin 1024, xA m c (ix2 j cc) * wvA m c (ix2 d cc) :=
  by
  refine (congrFun (Run.E2_arr m ρ c 6) (ix2 j d)).trans ?_
  refine (R0V.arrAt0_6 (Run.U1 m ρ) c j d).trans ?_
  refine Finset.sum_congr (M := EReal) rfl fun cc _ => ?_
  exact congrArg₂ (HMul.hMul (α := EReal) (β := EReal) (γ := EReal))
    (congrFun (Host.host_arg0 (Run.E0 m ρ c)) (ix2 j cc)) (Host.host_v5 (Run.E0 m ρ c) cc d)

end Cert.KernelIdeal.Entry

end
-- ==== Proof.KI.Finite.lean ====
import proofs.«151722_j14164802142301_2_alg».proof.Defs
import Idealize.ShloMosaic.Lib.ReduceAll
import Idealize.ShloMosaic.Lib.ValueIdx

/-!
# From the precondition to "every input entry is a real number"

The precondition is the conjunction, over the four argument arrays, of "every entry `x` satisfies
`|x| < +∞`".  Over the extended reals `|x| = max x (-x)`, which is `+∞` exactly at `x = ±∞`; so each
conjunct says that every entry of its array is a real number.  A conjunction of one-bit words is `1`
exactly when both are; a reduction by `and` over all axes that is `1` had a `1` at every index.
-/

noncomputable section

namespace Cert.KernelIdeal.Fin

open Idealize.ShloMosaic Idealize.SL.Sem

/-- The shape with no axes has exactly one index. -/
instance : Subsingleton Cert.Pre_finite_inputs.S_.Idx := ⟨fun a b => funext fun d => d.elim0⟩

/-- The single-precision pattern `0x7F800000` (sign `0`, exponent all ones, fraction `0`) denotes `+∞`. -/
theorem ofBits_inf : Ideal.ofBits .f32 0x7F800000#32 = ⊤ := by simp [Ideal.ofBits, Ideal.ieee]

/-- An extended real `x` with `max x (-x) < +∞` is a real number: at `x = -∞` the maximum is
    `-(-∞) = +∞`, at `x = +∞` it is `x` itself, and `+∞ < +∞` is false. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- If the reduction by `and`, over all axes, of the entrywise test `|x| < +∞` is `1`, then every
    entry of `x` is a real number: the reduction being `1` gives the test `1` at every index, and the
    test at an index is `max x (-x) < +∞` there. -/
theorem all_finite {s : Shape} {axes : List (Fin s.rank)}
    (hr : s.ReducesTo axes Cert.Pre_finite_inputs.S_) (hu : 0 < Cert.Pre_finite_inputs.S_.numel)
    (bc : Cert.Pre_finite_inputs.S_.BroadcastsInDim s (![] : Fin 0 → Fin s.rank))
    (x : FVec Ideal s .f32) (init : IVec Cert.Pre_finite_inputs.S_ 1)
    (e : Host.reduce IntOp.andi (cmpf .olt (Host.absf x)
        (broadcastInDim s ![] bc (constant (F := Ideal) Cert.Pre_finite_inputs.S_ .f32 0x7F800000#32)))
        init hr hu ValueIdx.ix0 = 1#1) :
    ∀ idx, ∃ r : ℝ, x idx = (r : EReal) := fun idx =>
  real_of_abs_lt_inf (x idx) (Host.reduce_andi_all _ init hr hu ValueIdx.ix0 e idx)

/-- **Every input entry is a real number.**  Under the precondition, on every device, each entry of
    each of the four argument arrays is a real: the precondition at its one index is the conjunction
    of the four all-entries tests, each of which gives its array's entries real. -/
theorem finite_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ idx, ∃ r : ℝ, m ((c.tc : Thread Cert.KernelIdeal.nD Cert.KernelIdeal.τ).loc Cert.KernelIdeal.main_arg0) idx = (r : EReal)) ∧
    (∀ idx, ∃ r : ℝ, m ((c.tc : Thread Cert.KernelIdeal.nD Cert.KernelIdeal.τ).loc Cert.KernelIdeal.main_arg1) idx = (r : EReal)) ∧
    (∀ idx, ∃ r : ℝ, m ((c.tc : Thread Cert.KernelIdeal.nD Cert.KernelIdeal.τ).loc Cert.KernelIdeal.main_arg2) idx = (r : EReal)) ∧
    (∀ idx, ∃ r : ℝ, m ((c.tc : Thread Cert.KernelIdeal.nD Cert.KernelIdeal.τ).loc Cert.KernelIdeal.main_arg3) idx = (r : EReal)) := by
  have h0 := congrFun (h c) ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h00, h1⟩ := IntOp.andi_eq_one.1 h01
  exact ⟨all_finite _ _ _ _ _ h00, all_finite _ _ _ _ _ h1, all_finite _ _ _ _ _ h2,
    all_finite _ _ _ _ _ h3⟩

end Cert.KernelIdeal.Fin

end
-- ==== Proof.KI.KernelValue.lean ====
/-
  The kernel program's run, read at the ideal instance under the precondition "every input entry is finite": the
  result array ends at the specification `G` of the four launch arrays — row-wise softmax of 16·(x Wqᵀ)(x Wkᵀ)ᵀ applied
  to x Wvᵀ.  The flash region's result is the online-softmax accumulator times the reciprocal of the running sum
  over the sixteen key blocks; its three input arrays are the projection region's outputs, sums over the launch arrays
  (the query weights scaled by 16 on the host); and on real inputs the online form equals the one-pass form.  With the
  reference's run at the same `G`, the two programs end with equal results.
-/
import proofs.«151722_j14164802142301_2_alg».proof.Proof.KI.Run
import proofs.«151722_j14164802142301_2_alg».proof.Proof.KI.R1Final
import proofs.«151722_j14164802142301_2_alg».proof.Proof.KI.FlashIsG
import proofs.«151722_j14164802142301_2_alg».proof.Proof.KI.Entry
import proofs.«151722_j14164802142301_2_alg».proof.Proof.KI.Finite
import proofs.«151722_j14164802142301_2_alg».proof.Proof.RefSpec
import proofs.«151722_j14164802142301_2_alg».proof.Proof.Gen.KernelIdeal
import proofs.«151722_j14164802142301_2_alg».proof.Proof.Gen.Pre_finite_inputs

noncomputable section

namespace Cert.KernelIdeal.Val

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)

/-- What the flash region's write-backs leave in the result array is the specification of the launch arrays, when
    every launch entry is a real number. -/
theorem result_eq (hpre : Cert.Pre_KernelIdeal m) (c : Dev Cert.KernelIdeal.nD) :
    (Cert.KernelIdeal.R1.dat1 (F := Ideal) (Cert.KernelIdeal.Run.U2 m ρ) c).arrAt 3 Cert.KernelIdeal.cfg1.N
      = Cert.RefSpec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3)) := by
  rw [Cert.KernelIdeal.R1V.arrAt1_3]
  obtain ⟨hx, hwq, hwk, hwv⟩ := Cert.KernelIdeal.Fin.finite_args m hpre c
  exact Cert.KernelIdeal.Alg.flash_eq_G _ _ _ _ hx hwq hwk hwv _ _ _
    (Cert.KernelIdeal.Entry.q_entry m ρ c) (Cert.KernelIdeal.Entry.k_entry m ρ c) (Cert.KernelIdeal.Entry.v_entry m ρ c)

/-- The kernel program's run under the precondition: the result at `G` of the launch arrays, the arguments unchanged. -/
theorem kernel_run_G (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v7)
            = Cert.RefSpec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun _ h c => ⟨(h c).1.trans (result_eq m ρ hpre c), (h c).2⟩)
    (Cert.KernelIdeal.Run.run_result m ρ)

/-- Both idealized programs, from memories agreeing on the arguments, end with the result array at `G` of the
    arguments: equal results. -/
theorem algebraic : Cert.algebraic_KernelIdeal_ReferenceIdeal := by
  intro m g m' g' hpre hagree
  refine ⟨fun c => Cert.RefSpec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3)), kernel_run_G m g hpre, ?_⟩
  refine (θ_run Cert.ReferenceIdeal.defs _ _).mono (fun _ h c => ⟨(h c).1.trans ?_, (h c).2⟩) (Cert.RefSpec.ref_run_G m' g')
  rw [(hagree c).1, (hagree c).2.1, (hagree c).2.2.1, (hagree c).2.2.2]

end Cert.KernelIdeal.Val

end
-- ==== Proof.lean ====
/-
  The claim: a two-kernel attention program (a projection kernel computing Q = x·(16·Wqᵀ), K = x·Wkᵀ, V = x·Wvᵀ, then a
  flash-attention kernel that walks the key blocks with an online softmax) against the plain reference
  softmax(16·(x Wqᵀ)(x Wkᵀ)ᵀ)·(x Wvᵀ).
  Frames: both kernel programs terminate, fault nowhere and leave their argument arrays as launched — @main is a host
  stretch and two kernel regions, the second carrying its running maximum, running sum and accumulator from grid point
  to grid point; the reference's frame is its run with the result dropped.  The idealization rewrote nothing.  At the
  ideal instance, with every input finite, the online softmax over sixteen key blocks equals the one-pass softmax, the
  factor 16 moves from the query weights to the scores, and the normalisation moves inside the sum: equal results.
-/
import proofs.«151722_j14164802142301_2_alg».proof.Defs
import proofs.«151722_j14164802142301_2_alg».proof.Proof.Gen.Kernel
import proofs.«151722_j14164802142301_2_alg».proof.Proof.Gen.KernelIdeal
import proofs.«151722_j14164802142301_2_alg».proof.Proof.Gen.ReferenceIdeal
import proofs.«151722_j14164802142301_2_alg».proof.Proof.Gen.Pre_finite_inputs
import proofs.«151722_j14164802142301_2_alg».proof.Proof.Gen.ReferenceIdeal.Run
import proofs.«151722_j14164802142301_2_alg».proof.Proof.Gen.ReferenceIdeal.Read
import proofs.«151722_j14164802142301_2_alg».proof.Proof.KB.Run
import proofs.«151722_j14164802142301_2_alg».proof.Proof.KI.Run
import proofs.«151722_j14164802142301_2_alg».proof.Proof.KI.KernelValue
import proofs.«151722_j14164802142301_2_alg».proof.Proof.RefSpec
import Idealize.ShloMosaic.Adequacy
import Idealize.ShloMosaic.Init

noncomputable section

namespace Cert.Proof

open Idealize.ShloMosaic Idealize.SL.Sem

/-- The certificate's claim: the printed programs' side conditions, the two kernel programs' frames and the reference's, the idealization's ledger (nothing was rewritten), and equal results at the ideal instance when every input entry is finite. -/
theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  Cert.RefSpec.frame_ref,
  trivial,
  Cert.KernelIdeal.Val.algebraic⟩

end Cert.Proof

end
